-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x64 .f32) (main_arg3 : FVec F S64 .f32) (main_arg4 : FVec F S64x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S100000x64 : Shape := ⟨2, ![100000, 64]⟩
abbrev S10000x128 : Shape := ⟨2, ![10000, 128]⟩
abbrev S10000x64 : Shape := ⟨2, ![10000, 64]⟩
abbrev S1x64 : Shape := ⟨2, ![1, 64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩

abbrev nBuf : Space → Nat
  | .hbm => 122
  | .vmem => 32
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S100000x64, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S_, .i32⟩
  | .hbm, ⟨45, _⟩ => ⟨S1700000, .i32⟩
  | .hbm, ⟨46, _⟩ => ⟨S1700000, .i1⟩
  | .hbm, ⟨47, _⟩ => ⟨S_, .i32⟩
  | .hbm, ⟨48, _⟩ => ⟨S1700000, .i32⟩
  | .hbm, ⟨49, _⟩ => ⟨S1700000, .i32⟩
  | .hbm, ⟨50, _⟩ => ⟨S1700000, .i32⟩
  | .hbm, ⟨51, _⟩ => ⟨S1700000x1, .i32⟩
  | .hbm, ⟨52, _⟩ => ⟨S1700000, .f32⟩
  | .hbm, ⟨53, _⟩ => ⟨S1700000, .f32⟩
  | .hbm, ⟨54, _⟩ => ⟨S_, .i32⟩
  | .hbm, ⟨55, _⟩ => ⟨S1700000, .i32⟩
  | .hbm, ⟨56, _⟩ => ⟨S1700000, .i1⟩
  | .hbm, ⟨57, _⟩ => ⟨S_, .i32⟩
  | .hbm, ⟨58, _⟩ => ⟨S1700000, .i32⟩
  | .hbm, ⟨59, _⟩ => ⟨S1700000, .i32⟩
  | .hbm, ⟨60, _⟩ => ⟨S1700000, .i32⟩
  | .hbm, ⟨61, _⟩ => ⟨S1700000x1, .i32⟩
  | .hbm, ⟨62, _⟩ => ⟨S1700000x64, .f32⟩
  | .hbm, ⟨63, _⟩ => ⟨S1700000x1, .f32⟩
  | .hbm, ⟨64, _⟩ => ⟨S1700000x64, .f32⟩
  | .hbm, ⟨65, _⟩ => ⟨S1700000x64, .f32⟩
  | .hbm, ⟨66, _⟩ => ⟨S_, .f32⟩
  | .hbm, ⟨67, _⟩ => ⟨S100000x64, .f32⟩
  | .hbm, ⟨68, _⟩ => ⟨S1700000x1, .i32⟩
  | .hbm, ⟨69, _⟩ => ⟨S100000x64, .f32⟩
  | .hbm, ⟨70, _⟩ => ⟨S100000x64, .f32⟩
  | .hbm, ⟨71, _⟩ => ⟨S_, .i32⟩
  | .hbm, ⟨72, _⟩ => ⟨S1700000, .i32⟩
  | .hbm, ⟨73, _⟩ => ⟨S1700000, .i1⟩
  | .hbm, ⟨74, _⟩ => ⟨S_, .i32⟩
  | .hbm, ⟨75, _⟩ => ⟨S1700000, .i32⟩
  | .hbm, ⟨76, _⟩ => ⟨S1700000, .i32⟩
  | .hbm, ⟨77, _⟩ => ⟨S1700000, .i32⟩
  | .hbm, ⟨78, _⟩ => ⟨S1700000x1, .i32⟩
  | .hbm, ⟨79, _⟩ => ⟨S1700000x64, .f32⟩
  | .hbm, ⟨80, _⟩ => ⟨S1700000x1, .f32⟩
  | .hbm, ⟨81, _⟩ => ⟨S1700000x64, .f32⟩
  | .hbm, ⟨82, _⟩ => ⟨S1700000x64, .f32⟩
  | .hbm, ⟨83, _⟩ => ⟨S_, .f32⟩
  | .hbm, ⟨84, _⟩ => ⟨S100000x64, .f32⟩
  | .hbm, ⟨85, _⟩ => ⟨S1700000x1, .i32⟩
  | .hbm, ⟨86, _⟩ => ⟨S100000x64, .f32⟩
  | .hbm, ⟨87, _⟩ => ⟨S100000x64, .f32⟩
  | .hbm, ⟨88, _⟩ => ⟨S_, .i32⟩
  | .hbm, ⟨89, _⟩ => ⟨S1700000, .i32⟩
  | .hbm, ⟨90, _⟩ => ⟨S1700000, .i1⟩
  | .hbm, ⟨91, _⟩ => ⟨S_, .i32⟩
  | .hbm, ⟨92, _⟩ => ⟨S1700000, .i32⟩
  | .hbm, ⟨93, _⟩ => ⟨S1700000, .i32⟩
  | .hbm, ⟨94, _⟩ => ⟨S1700000, .i32⟩
  | .hbm, ⟨95, _⟩ => ⟨S1700000x1, .i32⟩
  | .hbm, ⟨96, _⟩ => ⟨S1700000x64, .f32⟩
  | .hbm, ⟨97, _⟩ => ⟨S1700000x1, .f32⟩
  | .hbm, ⟨98, _⟩ => ⟨S1700000x64, .f32⟩
  | .hbm, ⟨99, _⟩ => ⟨S1700000x64, .f32⟩
  | .hbm, ⟨100, _⟩ => ⟨S_, .f32⟩
  | .hbm, ⟨101, _⟩ => ⟨S100000x64, .f32⟩
  | .hbm, ⟨102, _⟩ => ⟨S1700000x1, .i32⟩
  | .hbm, ⟨103, _⟩ => ⟨S100000x64, .f32⟩
  | .hbm, ⟨104, _⟩ => ⟨S100000x64, .f32⟩
  | .hbm, ⟨105, _⟩ => ⟨S_, .i32⟩
  | .hbm, ⟨106, _⟩ => ⟨S1700000, .i32⟩
  | .hbm, ⟨107, _⟩ => ⟨S1700000, .i1⟩
  | .hbm, ⟨108, _⟩ => ⟨S_, .i32⟩
  | .hbm, ⟨109, _⟩ => ⟨S1700000, .i32⟩
  | .hbm, ⟨110, _⟩ => ⟨S1700000, .i32⟩
  | .hbm, ⟨111, _⟩ => ⟨S1700000, .i32⟩
  | .hbm, ⟨112, _⟩ => ⟨S1700000x1, .i32⟩
  | .hbm, ⟨113, _⟩ => ⟨S1700000x64, .f32⟩
  | .hbm, ⟨114, _⟩ => ⟨S1700000x1, .f32⟩
  | .hbm, ⟨115, _⟩ => ⟨S1700000x64, .f32⟩
  | .hbm, ⟨116, _⟩ => ⟨S1700000x64, .f32⟩
  | .hbm, ⟨117, _⟩ => ⟨S_, .f32⟩
  | .hbm, ⟨118, _⟩ => ⟨S100000x64, .f32⟩
  | .hbm, ⟨119, _⟩ => ⟨S1700000x1, .i32⟩
  | .hbm, ⟨120, _⟩ => ⟨S100000x64, .f32⟩
  | .hbm, ⟨121, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S10000x64, .f32⟩
  | .local _ .vmem, ⟨28, _⟩ => ⟨S64x64, .f32⟩
  | .local _ .vmem, ⟨29, _⟩ => ⟨S64, .f32⟩
  | .local _ .vmem, ⟨30, _⟩ => ⟨S10000x64, .f32⟩
  | .local _ .vmem, ⟨31, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_call0_v0 : Ref sig .tc := ⟨.hbm, 31, rfl⟩
abbrev main_call0_v1 : Ref sig .tc := ⟨.hbm, 32, rfl⟩
abbrev main_v19 : Ref sig .tc := ⟨.hbm, 33, rfl⟩
abbrev main_c : Ref sig .tc := ⟨.hbm, 34, rfl⟩
abbrev main_v20 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_v29 : Ref sig .tc := ⟨.hbm, 46, rfl⟩
abbrev main_c_7 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_c_9 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_10 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_11 : Ref sig .tc := ⟨.hbm, 71, rfl⟩
abbrev main_v50 : Ref sig .tc := ⟨.hbm, 72, rfl⟩
abbrev main_v51 : Ref sig .tc := ⟨.hbm, 73, rfl⟩
abbrev main_c_12 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_13 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_c_14 : Ref sig .tc := ⟨.hbm, 88, rfl⟩
abbrev main_v64 : Ref sig .tc := ⟨.hbm, 89, rfl⟩
abbrev main_v65 : Ref sig .tc := ⟨.hbm, 90, rfl⟩
abbrev main_c_15 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_16 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_c_17 : Ref sig .tc := ⟨.hbm, 105, rfl⟩
abbrev main_v78 : Ref sig .tc := ⟨.hbm, 106, rfl⟩
abbrev main_v79 : Ref sig .tc := ⟨.hbm, 107, rfl⟩
abbrev main_c_18 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_cst_19 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg3_0 : Ref sig .tc := ⟨.vmem, 29, rfl⟩
abbrev cc4_stg4_0 : Ref sig .tc := ⟨.vmem, 30, rfl⟩
abbrev cc4_stg4_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem3_0 : DmaSem sig := 29
abbrev cc4_sem4_0 : DmaSem sig := 30
abbrev cc4_sem4_1 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S10000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  dot_S10000x128_S128x64_S10000x64_1_0_0_1_n_n_wf : DotDims.WF S10000x128 S128x64 S10000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S100000x64.size a
  hwx3_1 : ∀ i : grid3.Coords, EltTy.bits .f32 = 32 ∨ (Rect.block (s := S100000x64) S10000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x64.size a ≤ S100000x64.size a
  hwx4_1 : ∀ i : grid4.Coords, EltTy.bits .f32 = 32 ∨ (Rect.block (s := S100000x64) S10000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64.size a ≤ S64.size a
  hwx4_3 : ∀ i : grid4.Coords, EltTy.bits .f32 = 32 ∨ (Rect.block (s := S64) S64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S10000x64.size a ≤ S100000x64.size a
  hwx4_4 : ∀ i : grid4.Coords, EltTy.bits .f32 = 32 ∨ (Rect.block (s := S100000x64) S10000x64.size (cc4_transform_4 i) (hinb4_4 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v49) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v49) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v62) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v63) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v63) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v76) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v77) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v77) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v90) S10000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg4) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg5) S64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v91) S10000x64.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S100000x64 : Shape := ⟨2, ![100000, 64]⟩
abbrev S1x64 : Shape := ⟨2, ![1, 64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩

abbrev nBuf : Space → Nat
  | .hbm => 142
  | .vmem => 0
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64x64, .f32⟩
  | 5 => ⟨S64, .f32⟩
  | 6 => ⟨S100000x64, .f32⟩
  | 7 => ⟨S1x64, .f32⟩
  | 8 => ⟨S100000x64, .f32⟩
  | 9 => ⟨S100000x64, .f32⟩
  | 10 => ⟨S100000, .i32⟩
  | 11 => ⟨S1x1600000, .i32⟩
  | 12 => ⟨S1600000, .i32⟩
  | 13 => ⟨S1700000, .i32⟩
  | 14 => ⟨S1x1600000, .i32⟩
  | 15 => ⟨S1600000, .i32⟩
  | 16 => ⟨S1700000, .i32⟩
  | 17 => ⟨S_, .f32⟩
  | 18 => ⟨S1600000, .f32⟩
  | 19 => ⟨S_, .f32⟩
  | 20 => ⟨S100000, .f32⟩
  | 21 => ⟨S1700000, .f32⟩
  | 22 => ⟨S_, .f32⟩
  | 23 => ⟨S100000, .f32⟩
  | 24 => ⟨S1700000x1, .i32⟩
  | 25 => ⟨S100000, .f32⟩
  | 26 => ⟨S_, .f32⟩
  | 27 => ⟨S100000, .f32⟩
  | 28 => ⟨S100000, .i1⟩
  | 29 => ⟨S_, .f32⟩
  | 30 => ⟨S100000, .f32⟩
  | 31 => ⟨S100000, .f32⟩
  | 32 => ⟨S100000, .f32⟩
  | 33 => ⟨S_, .f32⟩
  | 34 => ⟨S_, .f32⟩
  | 35 => ⟨S100000, .f32⟩
  | 36 => ⟨S100000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000, .f32⟩
  | 56 => ⟨S1700000, .f32⟩
  | 57 => ⟨S1700000x1, .f32⟩
  | 58 => ⟨S_, .i32⟩
  | 59 => ⟨S1700000, .i32⟩
  | 60 => ⟨S1700000, .i1⟩
  | 61 => ⟨S_, .i32⟩
  | 62 => ⟨S1700000, .i32⟩
  | 63 => ⟨S1700000, .i32⟩
  | 64 => ⟨S1700000, .i32⟩
  | 65 => ⟨S1700000x1, .i32⟩
  | 66 => ⟨S1700000x64, .f32⟩
  | 67 => ⟨S1700000x64, .f32⟩
  | 68 => ⟨S1700000x64, .f32⟩
  | 69 => ⟨S_, .f32⟩
  | 70 => ⟨S100000x64, .f32⟩
  | 71 => ⟨S1700000x1, .i32⟩
  | 72 => ⟨S100000x64, .f32⟩
  | 73 => ⟨S_, .f32⟩
  | 74 => ⟨S100000x64, .f32⟩
  | 75 => ⟨S100000x64, .f32⟩
  | 76 => ⟨S100000x64, .f32⟩
  | 77 => ⟨S1700000x1, .f32⟩
  | 78 => ⟨S_, .i32⟩
  | 79 => ⟨S1700000, .i32⟩
  | 80 => ⟨S1700000, .i1⟩
  | 81 => ⟨S_, .i32⟩
  | 82 => ⟨S1700000, .i32⟩
  | 83 => ⟨S1700000, .i32⟩
  | 84 => ⟨S1700000, .i32⟩
  | 85 => ⟨S1700000x1, .i32⟩
  | 86 => ⟨S1700000x64, .f32⟩
  | 87 => ⟨S1700000x64, .f32⟩
  | 88 => ⟨S1700000x64, .f32⟩
  | 89 => ⟨S_, .f32⟩
  | 90 => ⟨S100000x64, .f32⟩
  | 91 => ⟨S1700000x1, .i32⟩
  | 92 => ⟨S100000x64, .f32⟩
  | 93 => ⟨S_, .f32⟩
  | 94 => ⟨S100000x64, .f32⟩
  | 95 => ⟨S100000x64, .f32⟩
  | 96 => ⟨S100000x64, .f32⟩
  | 97 => ⟨S1700000x1, .f32⟩
  | 98 => ⟨S_, .i32⟩
  | 99 => ⟨S1700000, .i32⟩
  | 100 => ⟨S1700000, .i1⟩
  | 101 => ⟨S_, .i32⟩
  | 102 => ⟨S1700000, .i32⟩
  | 103 => ⟨S1700000, .i32⟩
  | 104 => ⟨S1700000, .i32⟩
  | 105 => ⟨S1700000x1, .i32⟩
  | 106 => ⟨S1700000x64, .f32⟩
  | 107 => ⟨S1700000x64, .f32⟩
  | 108 => ⟨S1700000x64, .f32⟩
  | 109 => ⟨S_, .f32⟩
  | 110 => ⟨S100000x64, .f32⟩
  | 111 => ⟨S1700000x1, .i32⟩
  | 112 => ⟨S100000x64, .f32⟩
  | 113 => ⟨S_, .f32⟩
  | 114 => ⟨S100000x64, .f32⟩
  | 115 => ⟨S100000x64, .f32⟩
  | 116 => ⟨S100000x64, .f32⟩
  | 117 => ⟨S1700000x1, .f32⟩
  | 118 => ⟨S_, .i32⟩
  | 119 => ⟨S1700000, .i32⟩
  | 120 => ⟨S1700000, .i1⟩
  | 121 => ⟨S_, .i32⟩
  | 122 => ⟨S1700000, .i32⟩
  | 123 => ⟨S1700000, .i32⟩
  | 124 => ⟨S1700000, .i32⟩
  | 125 => ⟨S1700000x1, .i32⟩
  | 126 => ⟨S1700000x64, .f32⟩
  | 127 => ⟨S1700000x64, .f32⟩
  | _ => ⟨S100000x128, .f32⟩

abbrev hbmTy0_1 (i : Nat) : BufTy := match i % 128 with
  | 0 => ⟨S1700000x64, .f32⟩
  | 1 => ⟨S_, .f32⟩
  | 2 => ⟨S100000x64, .f32⟩
  | 3 => ⟨S1700000x1, .i32⟩
  | 4 => ⟨S100000x64, .f32⟩
  | 5 => ⟨S_, .f32⟩
  | 6 => ⟨S100000x64, .f32⟩
  | 7 => ⟨S100000x64, .f32⟩
  | 8 => ⟨S100000x64, .f32⟩
  | 9 => ⟨S100000x64, .f32⟩
  | 10 => ⟨S100000x64, .f32⟩
  | 11 => ⟨S1x64, .f32⟩
  | 12 => ⟨S100000x64, .f32⟩
  | 13 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_call0_v0 : Ref sig .tc := ⟨.hbm, 34, rfl⟩
abbrev main_call0_v1 : Ref sig .tc := ⟨.hbm, 35, rfl⟩
abbrev main_v22 : Ref sig .tc := ⟨.hbm, 36, rfl⟩
abbrev main_c : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_c_8 : Ref sig .tc := ⟨.hbm, 58, rfl⟩
abbrev main_v40 : Ref sig .tc := ⟨.hbm, 59, rfl⟩
abbrev main_v41 : Ref sig .tc := ⟨.hbm, 60, rfl⟩
abbrev main_c_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_11 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_c_12 : Ref sig .tc := ⟨.hbm, 78, rfl⟩
abbrev main_v56 : Ref sig .tc := ⟨.hbm, 79, rfl⟩
abbrev main_v57 : Ref sig .tc := ⟨.hbm, 80, rfl⟩
abbrev main_c_13 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_14 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_15 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_c_16 : Ref sig .tc := ⟨.hbm, 98, rfl⟩
abbrev main_v72 : Ref sig .tc := ⟨.hbm, 99, rfl⟩
abbrev main_v73 : Ref sig .tc := ⟨.hbm, 100, rfl⟩
abbrev main_c_17 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_18 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_cst_19 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_c_20 : Ref sig .tc := ⟨.hbm, 118, rfl⟩
abbrev main_v88 : Ref sig .tc := ⟨.hbm, 119, rfl⟩
abbrev main_v89 : Ref sig .tc := ⟨.hbm, 120, rfl⟩
abbrev main_c_21 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_cst_22 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_cst_23 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  dot_S100000x128_S128x64_S100000x64_1_0_0_1_n_n_wf : DotDims.WF S100000x128 S128x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Terms.lean ====
/-
  The diffusion network as pure array functions, each the composition of the host operations the
  reference program applies (so the reference's result is this term by construction):

    h₀   = x · W_emb + b_emb                                   (embedding)
    src, dst = the edge list's two rows, each followed by the self loops 0 … N-1
    w    = 1 on the given edges, 2 on the self loops
    deg  = scatter-add of w along dst;   dinv = deg > 0 ? rsqrt (max deg 1e-12) : 0
    norm = dinv[src] · w · dinv[dst]
    agg h = scatter-add along dst of norm · h[src]            (one sparse product)
    step h a = h - 0.1 · a                                      (one diffusion step)
    out  = tanh (step h₃ (agg h₃)) · W_ro + b_ro               with hₖ₊₁ = step hₖ (agg hₖ)

  Nothing is evaluated here: the gather and the scatter-add stay the opaque host functions they are
  in both programs, and the equivalence never looks inside them.
-/
import proofs.«135370_j4475355922586_2_alg».proof.ReferenceIdeal
import proofs.«135370_j4475355922586_2_alg».proof.Proof.Gen.ReferenceIdeal

noncomputable section

namespace Cert.Diffusion

open Idealize.ShloMosaic Idealize.SL.Sem Cert.ReferenceIdeal Cert.ReferenceIdeal.Gen

variable {F : FTy → Type} [FloatOps F]

/-- The contents of a buffer of shape `s` and element type `e`. -/
abbrev Arr (F : FTy → Type) (s : Shape) (e : EltTy) : Type := (⟨s, e⟩ : BufTy).Contents (Elt F)

/-- Row `0` of the edge list, then the self loops `0 … N-1`: the source node of every edge. -/
def srcT (e : Arr F S2x1600000 .i32) : Arr F S1700000 .i32 :=
  concatenate S1700000 0 [⟨S1600000, (fun i => shapeCast S1600000 (extractStridedSlice S1x1600000 ![0, 0] e slices_S2x1600000_S1x1600000_0_0) shapeCasts_S1x1600000_S1600000 i)⟩, ⟨S100000, iotaInDim S100000 32 0⟩] concatenates_S1600000_S100000_S1700000_d0

/-- Row `1` of the edge list, then the self loops: the target node of every edge. -/
def dstT (e : Arr F S2x1600000 .i32) : Arr F S1700000 .i32 :=
  concatenate S1700000 0 [⟨S1600000, (fun i => shapeCast S1600000 (extractStridedSlice S1x1600000 ![1, 0] e slices_S2x1600000_S1x1600000_1_0) shapeCasts_S1x1600000_S1600000 i)⟩, ⟨S100000, iotaInDim S100000 32 0⟩] concatenates_S1600000_S100000_S1700000_d0

/-- The edge weights: one on a given edge, two on a self loop. -/
def wT : Arr F S1700000 .f32 :=
  concatenate S1700000 0 [⟨S1600000, broadcastInDim S1600000 ![] bcast_S_S1600000 (constant S_ .f32 0x3F800000#32)⟩, ⟨S100000, broadcastInDim S100000 ![] bcast_S_S100000 (constant S_ .f32 0x40000000#32)⟩] concatenates_S1600000_S100000_S1700000_d0

/-- The inverse square root of the weighted in-degree, zero where the degree is not positive. -/
def dinvT (d : Arr F S1700000 .i32) (w : Arr F S1700000 .f32) : Arr F S100000 .f32 :=
  select
    (cmpf .ogt (Host.scatterAdd scatter_S100000_S1700000x1_S1700000_n_0_0_1 (broadcastInDim S100000 ![] bcast_S_S100000 (constant S_ .f32 0x00000000#32)) (broadcastInDim S1700000x1 ![0] bcast_S1700000_S1700000x1_0 d) w)
      (broadcastInDim S100000 ![] bcast_S_S100000 (constant S_ .f32 0x00000000#32)))
    (Host.rsqrt (maximumf (Host.scatterAdd scatter_S100000_S1700000x1_S1700000_n_0_0_1 (broadcastInDim S100000 ![] bcast_S_S100000 (constant S_ .f32 0x00000000#32)) (broadcastInDim S1700000x1 ![0] bcast_S1700000_S1700000x1_0 d) w)
      (broadcastInDim S100000 ![] bcast_S_S100000 (constant S_ .f32 0x2B8CBCCC#32))))
    (broadcastInDim S100000 ![] bcast_S_S100000 (id (constant S_ .f32 0x00000000#32)))

/-- A node index as the gather takes it: a negative index counted from the end, as a column. -/
def colT (s : Arr F S1700000 .i32) : Arr F S1700000x1 .i32 :=
  broadcastInDim S1700000x1 ![0] bcast_S1700000_S1700000x1_0
    (select (cmpi .slt s (broadcastInDim S1700000 ![] bcast_S_S1700000 (constantI S_ 32 0#32)))
      (addi s (broadcastInDim S1700000 ![] bcast_S_S1700000 (constantI S_ 32 100000#32))) s)

/-- The symmetric normalisation of every edge: `dinv[src] · w · dinv[dst]`. -/
def normT (dinv : Arr F S100000 .f32) (s d : Arr F S1700000 .i32) (w : Arr F S1700000 .f32) : Arr F S1700000 .f32 :=
  mulf (mulf (Host.gather gather_S100000_S1700000x1_S1700000_n_0_n_n_0_1_1 dinv (colT s)) w)
    (Host.gather gather_S100000_S1700000x1_S1700000_n_0_n_n_0_1_1 dinv (colT d))

/-- One sparse product: every edge carries `norm · h[src]` to its target, where the contributions add up. -/
def aggT (h : Arr F S100000x64 .f32) (s d : Arr F S1700000 .i32) (n : Arr F S1700000 .f32) : Arr F S100000x64 .f32 :=
  Host.scatterAdd scatter_S100000x64_S1700000x1_S1700000x64_1_0_0_1
    (broadcastInDim S100000x64 ![] bcast_S_S100000x64 (constant S_ .f32 0x00000000#32))
    (broadcastInDim S1700000x1 ![0] bcast_S1700000_S1700000x1_0 d)
    (mulf (broadcastInDim S1700000x64 ![0, 1] bcast_S1700000x1_S1700000x64_0_1 (broadcastInDim S1700000x1 ![0] bcast_S1700000_S1700000x1_0 n))
      (Host.gather gather_S100000x64_S1700000x1_S1700000x64_1_0_n_n_0_1_164 h (colT s)))

/-- The embedding: `x · W + b`, the bias along the rows. -/
def embedT (x : Arr F S100000x128 .f32) (w : Arr F S128x64 .f32) (b : Arr F S64 .f32) : Arr F S100000x64 .f32 :=
  addf (Host.dotGeneral dot_S100000x128_S128x64_S100000x64_1_0_0_1_n_n none x w)
    (broadcastInDim S100000x64 ![0, 1] bcast_S1x64_S100000x64_0_1 (broadcastInDim S1x64 ![1] bcast_S64_S1x64_1 b))

/-- One diffusion step: `h - 0.1 · a` (the literal is the single-precision word of 0.1, the same in both programs). -/
def stepT (h a : Arr F S100000x64 .f32) : Arr F S100000x64 .f32 :=
  subf h (mulf (broadcastInDim S100000x64 ![] bcast_S_S100000x64 (constant S_ .f32 0x3DCCCCCD#32)) a)

/-- The read-out: `tanh (h - 0.1 · a) · W + b`. -/
def readoutT (h a : Arr F S100000x64 .f32) (w : Arr F S64x64 .f32) (b : Arr F S64 .f32) : Arr F S100000x64 .f32 :=
  addf (Host.dotGeneral dot_S100000x64_S64x64_S100000x64_1_0_0_1_n_n none (Host.tanh (stepT h a)) w)
    (broadcastInDim S100000x64 ![0, 1] bcast_S1x64_S100000x64_0_1 (broadcastInDim S1x64 ![1] bcast_S64_S1x64_1 b))

/-- The whole network: four sparse products, the last step fused into the read-out. -/
def networkT (x : Arr F S100000x128 .f32) (e : Arr F S2x1600000 .i32) (w : Arr F S128x64 .f32) (b : Arr F S64 .f32)
    (w' : Arr F S64x64 .f32) (b' : Arr F S64 .f32) : Arr F S100000x64 .f32 :=
  let s := srcT e
  let d := dstT e
  let n := normT (dinvT d wT) s d wT
  let h0 := embedT x w b
  let h1 := stepT h0 (aggT h0 s d n)
  let h2 := stepT h1 (aggT h1 s d n)
  let h3 := stepT h2 (aggT h2 s d n)
  readoutT h3 (aggT h3 s d n) w' b'

end Cert.Diffusion

end
-- ==== Proof.Lines.lean ====
/-
  One small fact about a straight line of host operations, for any program: a buffer that no operation of the line
  writes keeps its contents over the line.
-/
import Idealize.ShloMosaic.Lib.StableHlo.Run

namespace Cert.Lines

open Idealize.ShloMosaic Idealize.SL.Sem Idealize.ShloMosaic.StableHlo

/-- A buffer that no operation of a literal line writes keeps its contents over the line: the line's operations are
    listed, each one's written buffer compared with the buffer asked about. -/
macro "line_keeps" "[" ls:ident,* "]" : tactic =>
  `(tactic| exact StableHlo.after_of_forall_not_mem _ _ (List.forall_iff_forall_mem.mp (by
      simp only [$[$ls:ident],*, List.Forall, List.cons_append, List.nil_append, List.append_nil, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

end Cert.Lines
-- ==== Proof.RefRun.lean ====
/-
  The reference program's run, read back. Its @main is one straight line of 136 host operations; the
  line is cut here where the network's stages meet — the embedding, the edge lists and weights, the
  degree normalisation, then four times (a sparse product, a diffusion step), and the read-out — and
  each piece is read on its own, from ANY buffer contents `W`, as one of the pure functions of
  `Terms.lean` of the buffers it reads, together with the buffers it leaves alone. Chaining the
  pieces from the launch contents gives the program's result as `networkT` of its arguments.
-/
import proofs.«135370_j4475355922586_2_alg».proof.Proof.Terms
import proofs.«135370_j4475355922586_2_alg».proof.Proof.Lines
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.Diffusion Cert.Lines

variable {F : FTy → Type} [FloatOps F]

/-- @main's 136 operations, in order (the called `where`'s three operations stand in its call's place). -/
abbrev ops : List (HloOp τ sig (Elt F)) :=
  [ binary main_arg0 main_arg2 main_v0 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg3 main_v1 (broadcastInDim S1x64 ![1] bcast_S64_S1x64_1 : (⟨S64, .f32⟩ : BufTy).Contents (Elt F) → (⟨S1x64, .f32⟩ : BufTy).Contents (Elt F)),
    unary main_v1 main_v2 (broadcastInDim S100000x64 ![0, 1] bcast_S1x64_S100000x64_0_1 : (⟨S1x64, .f32⟩ : BufTy).Contents (Elt F) → (⟨S100000x64, .f32⟩ : BufTy).Contents (Elt F)),
    binary main_v0 main_v2 main_v3 (addf : (⟨S100000x64, .f32⟩ : BufTy).Contents (Elt F) → (⟨S100000x64, .f32⟩ : BufTy).Contents (Elt F) → (⟨S100000x64, .f32⟩ : BufTy).Contents (Elt F)),
    nullary main_v4 (iotaInDim S100000 32 0),
    unary main_arg1 main_v5 ((extractStridedSlice S1x1600000 ![0, 0] · slices_S2x1600000_S1x1600000_0_0) : (⟨S2x1600000, .i32⟩ : BufTy).Contents (Elt F) → (⟨S1x1600000, .i32⟩ : BufTy).Contents (Elt F)),
    reshape main_v5 main_v6 rfl shapeCasts_S1x1600000_S1600000,
    binary main_v6 main_v4 main_v7 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v8 ((extractStridedSlice S1x1600000 ![1, 0] · slices_S2x1600000_S1x1600000_1_0) : (⟨S2x1600000, .i32⟩ : BufTy).Contents (Elt F) → (⟨S1x1600000, .i32⟩ : BufTy).Contents (Elt F)),
    reshape main_v8 main_v9 rfl shapeCasts_S1x1600000_S1600000,
    binary main_v9 main_v4 main_v10 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v11 (broadcastInDim S1600000 ![] bcast_S_S1600000 : (⟨S_, .f32⟩ : BufTy).Contents (Elt F) → (⟨S1600000, .f32⟩ : BufTy).Contents (Elt F)),
    nullary main_cst_0 (constant S_ .f32 0x40000000#32),
    unary main_cst_0 main_v12 (broadcastInDim S100000 ![] bcast_S_S100000 : (⟨S_, .f32⟩ : BufTy).Contents (Elt F) → (⟨S100000, .f32⟩ : BufTy).Contents (Elt F)),
    binary main_v11 main_v12 main_v13 ((fun a b => concatenate S1700000 0 [⟨S1600000, a⟩, ⟨S100000, b⟩] concatenates_S1600000_S100000_S1700000_d0) : (⟨S1600000, .f32⟩ : BufTy).Contents (Elt F) → (⟨S100000, .f32⟩ : BufTy).Contents (Elt F) → (⟨S1700000, .f32⟩ : BufTy).Contents (Elt F)),
    nullary main_cst_1 (constant S_ .f32 0x00000000#32),
    unary main_cst_1 main_v14 (broadcastInDim S100000 ![] bcast_S_S100000 : (⟨S_, .f32⟩ : BufTy).Contents (Elt F) → (⟨S100000, .f32⟩ : BufTy).Contents (Elt F)),
    unary main_v10 main_v15 (broadcastInDim S1700000x1 ![0] bcast_S1700000_S1700000x1_0 : (⟨S1700000, .i32⟩ : BufTy).Contents (Elt F) → (⟨S1700000x1, .i32⟩ : BufTy).Contents (Elt F)),
    ternary main_v14 main_v15 main_v13 main_v16 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_2 (constant S_ .f32 0x00000000#32),
    unary main_cst_2 main_v17 (broadcastInDim S100000 ![] bcast_S_S100000 : (⟨S_, .f32⟩ : BufTy).Contents (Elt F) → (⟨S100000, .f32⟩ : BufTy).Contents (Elt F)),
    binary main_v16 main_v17 main_v18 (cmpf .ogt : (⟨S100000, .f32⟩ : BufTy).Contents (Elt F) → (⟨S100000, .f32⟩ : BufTy).Contents (Elt F) → (⟨S100000, .i1⟩ : BufTy).Contents (Elt F)),
    nullary main_cst_3 (constant S_ .f32 0x2B8CBCCC#32),
    unary main_cst_3 main_v19 (broadcastInDim S100000 ![] bcast_S_S100000 : (⟨S_, .f32⟩ : BufTy).Contents (Elt F) → (⟨S100000, .f32⟩ : BufTy).Contents (Elt F)),
    binary main_v16 main_v19 main_v20 (maximumf : (⟨S100000, .f32⟩ : BufTy).Contents (Elt F) → (⟨S100000, .f32⟩ : BufTy).Contents (Elt F) → (⟨S100000, .f32⟩ : BufTy).Contents (Elt F)),
    unary main_v20 main_v21 (Host.rsqrt : (⟨S100000, .f32⟩ : BufTy).Contents (Elt F) → (⟨S100000, .f32⟩ : BufTy).Contents (Elt F)),
    nullary main_cst_4 (constant S_ .f32 0x00000000#32),
    TRef.unary (TRef.of (T := ⟨S_, .f32⟩) main_cst_4) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v18) (TRef.of (T := ⟨S100000, .f32⟩) main_v21) (TRef.of (T := ⟨S100000, .f32⟩) main_call0_v1) (TRef.of (T := ⟨S100000, .f32⟩) main_v22) select,
    nullary main_c (constantI S_ 32 0#32),
    unary main_c main_v23 (broadcastInDim S1700000 ![] bcast_S_S1700000 : (⟨S_, .i32⟩ : BufTy).Contents (Elt F) → (⟨S1700000, .i32⟩ : BufTy).Contents (Elt F)),
    binary main_v7 main_v23 main_v24 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v25 (broadcastInDim S1700000 ![] bcast_S_S1700000 : (⟨S_, .i32⟩ : BufTy).Contents (Elt F) → (⟨S1700000, .i32⟩ : BufTy).Contents (Elt F)),
    binary main_v7 main_v25 main_v26 (addi : (⟨S1700000, .i32⟩ : BufTy).Contents (Elt F) → (⟨S1700000, .i32⟩ : BufTy).Contents (Elt F) → (⟨S1700000, .i32⟩ : BufTy).Contents (Elt F)),
    ternary main_v24 main_v26 main_v7 main_v27 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v27 main_v28 (broadcastInDim S1700000x1 ![0] bcast_S1700000_S1700000x1_0 : (⟨S1700000, .i32⟩ : BufTy).Contents (Elt F) → (⟨S1700000x1, .i32⟩ : BufTy).Contents (Elt F)),
    binary main_v22 main_v28 main_v29 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v29 main_v13 main_v30 (mulf : (⟨S1700000, .f32⟩ : BufTy).Contents (Elt F) → (⟨S1700000, .f32⟩ : BufTy).Contents (Elt F) → (⟨S1700000, .f32⟩ : BufTy).Contents (Elt F)),
    nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v10 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v10 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v10 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v22 main_v36 main_v37 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v30 main_v37 main_v38 (mulf : (⟨S1700000, .f32⟩ : BufTy).Contents (Elt F) → (⟨S1700000, .f32⟩ : BufTy).Contents (Elt F) → (⟨S1700000, .f32⟩ : BufTy).Contents (Elt F)),
    unary main_v38 main_v39 (broadcastInDim S1700000x1 ![0] bcast_S1700000_S1700000x1_0 : (⟨S1700000, .f32⟩ : BufTy).Contents (Elt F) → (⟨S1700000x1, .f32⟩ : BufTy).Contents (Elt F)),
    nullary main_c_8 (constantI S_ 32 0#32),
    unary main_c_8 main_v40 (broadcastInDim S1700000 ![] bcast_S_S1700000 : (⟨S_, .i32⟩ : BufTy).Contents (Elt F) → (⟨S1700000, .i32⟩ : BufTy).Contents (Elt F)),
    binary main_v7 main_v40 main_v41 (cmpi .slt : (⟨S1700000, .i32⟩ : BufTy).Contents (Elt F) → (⟨S1700000, .i32⟩ : BufTy).Contents (Elt F) → (⟨S1700000, .i1⟩ : BufTy).Contents (Elt F)),
    nullary main_c_9 (constantI S_ 32 100000#32),
    unary main_c_9 main_v42 (broadcastInDim S1700000 ![] bcast_S_S1700000 : (⟨S_, .i32⟩ : BufTy).Contents (Elt F) → (⟨S1700000, .i32⟩ : BufTy).Contents (Elt F)),
    binary main_v7 main_v42 main_v43 (addi : (⟨S1700000, .i32⟩ : BufTy).Contents (Elt F) → (⟨S1700000, .i32⟩ : BufTy).Contents (Elt F) → (⟨S1700000, .i32⟩ : BufTy).Contents (Elt F)),
    ternary main_v41 main_v43 main_v7 main_v44 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v44 main_v45 (broadcastInDim S1700000x1 ![0] bcast_S1700000_S1700000x1_0 : (⟨S1700000, .i32⟩ : BufTy).Contents (Elt F) → (⟨S1700000x1, .i32⟩ : BufTy).Contents (Elt F)),
    binary main_v3 main_v45 main_v46 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v39 main_v47 (broadcastInDim S1700000x64 ![0, 1] bcast_S1700000x1_S1700000x64_0_1 : (⟨S1700000x1, .f32⟩ : BufTy).Contents (Elt F) → (⟨S1700000x64, .f32⟩ : BufTy).Contents (Elt F)),
    binary main_v47 main_v46 main_v48 (mulf : (⟨S1700000x64, .f32⟩ : BufTy).Contents (Elt F) → (⟨S1700000x64, .f32⟩ : BufTy).Contents (Elt F) → (⟨S1700000x64, .f32⟩ : BufTy).Contents (Elt F)),
    nullary main_cst_10 (constant S_ .f32 0x00000000#32),
    unary main_cst_10 main_v49 (broadcastInDim S100000x64 ![] bcast_S_S100000x64 : (⟨S_, .f32⟩ : BufTy).Contents (Elt F) → (⟨S100000x64, .f32⟩ : BufTy).Contents (Elt F)),
    unary main_v10 main_v50 (broadcastInDim S1700000x1 ![0] bcast_S1700000_S1700000x1_0 : (⟨S1700000, .i32⟩ : BufTy).Contents (Elt F) → (⟨S1700000x1, .i32⟩ : BufTy).Contents (Elt F)),
    ternary main_v49 main_v50 main_v48 main_v51 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    nullary main_cst_11 (constant S_ .f32 0x3DCCCCCD#32),
    unary main_cst_11 main_v52 (broadcastInDim S100000x64 ![] bcast_S_S100000x64 : (⟨S_, .f32⟩ : BufTy).Contents (Elt F) → (⟨S100000x64, .f32⟩ : BufTy).Contents (Elt F)),
    binary main_v52 main_v51 main_v53 (mulf : (⟨S100000x64, .f32⟩ : BufTy).Contents (Elt F) → (⟨S100000x64, .f32⟩ : BufTy).Contents (Elt F) → (⟨S100000x64, .f32⟩ : BufTy).Contents (Elt F)),
    binary main_v3 main_v53 main_v54 (subf : (⟨S100000x64, .f32⟩ : BufTy).Contents (Elt F) → (⟨S100000x64, .f32⟩ : BufTy).Contents (Elt F) → (⟨S100000x64, .f32⟩ : BufTy).Contents (Elt F)),
    unary main_v38 main_v55 (broadcastInDim S1700000x1 ![0] bcast_S1700000_S1700000x1_0 : (⟨S1700000, .f32⟩ : BufTy).Contents (Elt F) → (⟨S1700000x1, .f32⟩ : BufTy).Contents (Elt F)),
    nullary main_c_12 (constantI S_ 32 0#32),
    unary main_c_12 main_v56 (broadcastInDim S1700000 ![] bcast_S_S1700000 : (⟨S_, .i32⟩ : BufTy).Contents (Elt F) → (⟨S1700000, .i32⟩ : BufTy).Contents (Elt F)),
    binary main_v7 main_v56 main_v57 (cmpi .slt : (⟨S1700000, .i32⟩ : BufTy).Contents (Elt F) → (⟨S1700000, .i32⟩ : BufTy).Contents (Elt F) → (⟨S1700000, .i1⟩ : BufTy).Contents (Elt F)),
    nullary main_c_13 (constantI S_ 32 100000#32),
    unary main_c_13 main_v58 (broadcastInDim S1700000 ![] bcast_S_S1700000 : (⟨S_, .i32⟩ : BufTy).Contents (Elt F) → (⟨S1700000, .i32⟩ : BufTy).Contents (Elt F)),
    binary main_v7 main_v58 main_v59 (addi : (⟨S1700000, .i32⟩ : BufTy).Contents (Elt F) → (⟨S1700000, .i32⟩ : BufTy).Contents (Elt F) → (⟨S1700000, .i32⟩ : BufTy).Contents (Elt F)),
    ternary main_v57 main_v59 main_v7 main_v60 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v60 main_v61 (broadcastInDim S1700000x1 ![0] bcast_S1700000_S1700000x1_0 : (⟨S1700000, .i32⟩ : BufTy).Contents (Elt F) → (⟨S1700000x1, .i32⟩ : BufTy).Contents (Elt F)),
    binary main_v54 main_v61 main_v62 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v55 main_v63 (broadcastInDim S1700000x64 ![0, 1] bcast_S1700000x1_S1700000x64_0_1 : (⟨S1700000x1, .f32⟩ : BufTy).Contents (Elt F) → (⟨S1700000x64, .f32⟩ : BufTy).Contents (Elt F)),
    binary main_v63 main_v62 main_v64 (mulf : (⟨S1700000x64, .f32⟩ : BufTy).Contents (Elt F) → (⟨S1700000x64, .f32⟩ : BufTy).Contents (Elt F) → (⟨S1700000x64, .f32⟩ : BufTy).Contents (Elt F)),
    nullary main_cst_14 (constant S_ .f32 0x00000000#32),
    unary main_cst_14 main_v65 (broadcastInDim S100000x64 ![] bcast_S_S100000x64 : (⟨S_, .f32⟩ : BufTy).Contents (Elt F) → (⟨S100000x64, .f32⟩ : BufTy).Contents (Elt F)),
    unary main_v10 main_v66 (broadcastInDim S1700000x1 ![0] bcast_S1700000_S1700000x1_0 : (⟨S1700000, .i32⟩ : BufTy).Contents (Elt F) → (⟨S1700000x1, .i32⟩ : BufTy).Contents (Elt F)),
    ternary main_v65 main_v66 main_v64 main_v67 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    nullary main_cst_15 (constant S_ .f32 0x3DCCCCCD#32),
    unary main_cst_15 main_v68 (broadcastInDim S100000x64 ![] bcast_S_S100000x64 : (⟨S_, .f32⟩ : BufTy).Contents (Elt F) → (⟨S100000x64, .f32⟩ : BufTy).Contents (Elt F)),
    binary main_v68 main_v67 main_v69 (mulf : (⟨S100000x64, .f32⟩ : BufTy).Contents (Elt F) → (⟨S100000x64, .f32⟩ : BufTy).Contents (Elt F) → (⟨S100000x64, .f32⟩ : BufTy).Contents (Elt F)),
    binary main_v54 main_v69 main_v70 (subf : (⟨S100000x64, .f32⟩ : BufTy).Contents (Elt F) → (⟨S100000x64, .f32⟩ : BufTy).Contents (Elt F) → (⟨S100000x64, .f32⟩ : BufTy).Contents (Elt F)),
    unary main_v38 main_v71 (broadcastInDim S1700000x1 ![0] bcast_S1700000_S1700000x1_0 : (⟨S1700000, .f32⟩ : BufTy).Contents (Elt F) → (⟨S1700000x1, .f32⟩ : BufTy).Contents (Elt F)),
    nullary main_c_16 (constantI S_ 32 0#32),
    unary main_c_16 main_v72 (broadcastInDim S1700000 ![] bcast_S_S1700000 : (⟨S_, .i32⟩ : BufTy).Contents (Elt F) → (⟨S1700000, .i32⟩ : BufTy).Contents (Elt F)),
    binary main_v7 main_v72 main_v73 (cmpi .slt : (⟨S1700000, .i32⟩ : BufTy).Contents (Elt F) → (⟨S1700000, .i32⟩ : BufTy).Contents (Elt F) → (⟨S1700000, .i1⟩ : BufTy).Contents (Elt F)),
    nullary main_c_17 (constantI S_ 32 100000#32),
    unary main_c_17 main_v74 (broadcastInDim S1700000 ![] bcast_S_S1700000 : (⟨S_, .i32⟩ : BufTy).Contents (Elt F) → (⟨S1700000, .i32⟩ : BufTy).Contents (Elt F)),
    binary main_v7 main_v74 main_v75 (addi : (⟨S1700000, .i32⟩ : BufTy).Contents (Elt F) → (⟨S1700000, .i32⟩ : BufTy).Contents (Elt F) → (⟨S1700000, .i32⟩ : BufTy).Contents (Elt F)),
    ternary main_v73 main_v75 main_v7 main_v76 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v76 main_v77 (broadcastInDim S1700000x1 ![0] bcast_S1700000_S1700000x1_0 : (⟨S1700000, .i32⟩ : BufTy).Contents (Elt F) → (⟨S1700000x1, .i32⟩ : BufTy).Contents (Elt F)),
    binary main_v70 main_v77 main_v78 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v71 main_v79 (broadcastInDim S1700000x64 ![0, 1] bcast_S1700000x1_S1700000x64_0_1 : (⟨S1700000x1, .f32⟩ : BufTy).Contents (Elt F) → (⟨S1700000x64, .f32⟩ : BufTy).Contents (Elt F)),
    binary main_v79 main_v78 main_v80 (mulf : (⟨S1700000x64, .f32⟩ : BufTy).Contents (Elt F) → (⟨S1700000x64, .f32⟩ : BufTy).Contents (Elt F) → (⟨S1700000x64, .f32⟩ : BufTy).Contents (Elt F)),
    nullary main_cst_18 (constant S_ .f32 0x00000000#32),
    unary main_cst_18 main_v81 (broadcastInDim S100000x64 ![] bcast_S_S100000x64 : (⟨S_, .f32⟩ : BufTy).Contents (Elt F) → (⟨S100000x64, .f32⟩ : BufTy).Contents (Elt F)),
    unary main_v10 main_v82 (broadcastInDim S1700000x1 ![0] bcast_S1700000_S1700000x1_0 : (⟨S1700000, .i32⟩ : BufTy).Contents (Elt F) → (⟨S1700000x1, .i32⟩ : BufTy).Contents (Elt F)),
    ternary main_v81 main_v82 main_v80 main_v83 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    nullary main_cst_19 (constant S_ .f32 0x3DCCCCCD#32),
    unary main_cst_19 main_v84 (broadcastInDim S100000x64 ![] bcast_S_S100000x64 : (⟨S_, .f32⟩ : BufTy).Contents (Elt F) → (⟨S100000x64, .f32⟩ : BufTy).Contents (Elt F)),
    binary main_v84 main_v83 main_v85 (mulf : (⟨S100000x64, .f32⟩ : BufTy).Contents (Elt F) → (⟨S100000x64, .f32⟩ : BufTy).Contents (Elt F) → (⟨S100000x64, .f32⟩ : BufTy).Contents (Elt F)),
    binary main_v70 main_v85 main_v86 (subf : (⟨S100000x64, .f32⟩ : BufTy).Contents (Elt F) → (⟨S100000x64, .f32⟩ : BufTy).Contents (Elt F) → (⟨S100000x64, .f32⟩ : BufTy).Contents (Elt F)),
    unary main_v38 main_v87 (broadcastInDim S1700000x1 ![0] bcast_S1700000_S1700000x1_0 : (⟨S1700000, .f32⟩ : BufTy).Contents (Elt F) → (⟨S1700000x1, .f32⟩ : BufTy).Contents (Elt F)),
    nullary main_c_20 (constantI S_ 32 0#32),
    unary main_c_20 main_v88 (broadcastInDim S1700000 ![] bcast_S_S1700000 : (⟨S_, .i32⟩ : BufTy).Contents (Elt F) → (⟨S1700000, .i32⟩ : BufTy).Contents (Elt F)),
    binary main_v7 main_v88 main_v89 (cmpi .slt : (⟨S1700000, .i32⟩ : BufTy).Contents (Elt F) → (⟨S1700000, .i32⟩ : BufTy).Contents (Elt F) → (⟨S1700000, .i1⟩ : BufTy).Contents (Elt F)),
    nullary main_c_21 (constantI S_ 32 100000#32),
    unary main_c_21 main_v90 (broadcastInDim S1700000 ![] bcast_S_S1700000 : (⟨S_, .i32⟩ : BufTy).Contents (Elt F) → (⟨S1700000, .i32⟩ : BufTy).Contents (Elt F)),
    binary main_v7 main_v90 main_v91 (addi : (⟨S1700000, .i32⟩ : BufTy).Contents (Elt F) → (⟨S1700000, .i32⟩ : BufTy).Contents (Elt F) → (⟨S1700000, .i32⟩ : BufTy).Contents (Elt F)),
    ternary main_v89 main_v91 main_v7 main_v92 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v92 main_v93 (broadcastInDim S1700000x1 ![0] bcast_S1700000_S1700000x1_0 : (⟨S1700000, .i32⟩ : BufTy).Contents (Elt F) → (⟨S1700000x1, .i32⟩ : BufTy).Contents (Elt F)),
    binary main_v86 main_v93 main_v94 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v87 main_v95 (broadcastInDim S1700000x64 ![0, 1] bcast_S1700000x1_S1700000x64_0_1 : (⟨S1700000x1, .f32⟩ : BufTy).Contents (Elt F) → (⟨S1700000x64, .f32⟩ : BufTy).Contents (Elt F)),
    binary main_v95 main_v94 main_v96 (mulf : (⟨S1700000x64, .f32⟩ : BufTy).Contents (Elt F) → (⟨S1700000x64, .f32⟩ : BufTy).Contents (Elt F) → (⟨S1700000x64, .f32⟩ : BufTy).Contents (Elt F)),
    nullary main_cst_22 (constant S_ .f32 0x00000000#32),
    unary main_cst_22 main_v97 (broadcastInDim S100000x64 ![] bcast_S_S100000x64 : (⟨S_, .f32⟩ : BufTy).Contents (Elt F) → (⟨S100000x64, .f32⟩ : BufTy).Contents (Elt F)),
    unary main_v10 main_v98 (broadcastInDim S1700000x1 ![0] bcast_S1700000_S1700000x1_0 : (⟨S1700000, .i32⟩ : BufTy).Contents (Elt F) → (⟨S1700000x1, .i32⟩ : BufTy).Contents (Elt F)),
    ternary main_v97 main_v98 main_v96 main_v99 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    nullary main_cst_23 (constant S_ .f32 0x3DCCCCCD#32),
    unary main_cst_23 main_v100 (broadcastInDim S100000x64 ![] bcast_S_S100000x64 : (⟨S_, .f32⟩ : BufTy).Contents (Elt F) → (⟨S100000x64, .f32⟩ : BufTy).Contents (Elt F)),
    binary main_v100 main_v99 main_v101 (mulf : (⟨S100000x64, .f32⟩ : BufTy).Contents (Elt F) → (⟨S100000x64, .f32⟩ : BufTy).Contents (Elt F) → (⟨S100000x64, .f32⟩ : BufTy).Contents (Elt F)),
    binary main_v86 main_v101 main_v102 (subf : (⟨S100000x64, .f32⟩ : BufTy).Contents (Elt F) → (⟨S100000x64, .f32⟩ : BufTy).Contents (Elt F) → (⟨S100000x64, .f32⟩ : BufTy).Contents (Elt F)),
    unary main_v102 main_v103 (Host.tanh : (⟨S100000x64, .f32⟩ : BufTy).Contents (Elt F) → (⟨S100000x64, .f32⟩ : BufTy).Contents (Elt F)),
    binary main_v103 main_arg4 main_v104 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg5 main_v105 (broadcastInDim S1x64 ![1] bcast_S64_S1x64_1 : (⟨S64, .f32⟩ : BufTy).Contents (Elt F) → (⟨S1x64, .f32⟩ : BufTy).Contents (Elt F)),
    unary main_v105 main_v106 (broadcastInDim S100000x64 ![0, 1] bcast_S1x64_S100000x64_0_1 : (⟨S1x64, .f32⟩ : BufTy).Contents (Elt F) → (⟨S100000x64, .f32⟩ : BufTy).Contents (Elt F)),
    binary main_v104 main_v106 main_v107 (addf : (⟨S100000x64, .f32⟩ : BufTy).Contents (Elt F) → (⟨S100000x64, .f32⟩ : BufTy).Contents (Elt F) → (⟨S100000x64, .f32⟩ : BufTy).Contents (Elt F)) ]

/-- The embedding: the product, the bias broadcast along the rows, their sum. -/
abbrev segE : List (HloOp τ sig (Elt F)) :=
  [ binary main_arg0 main_arg2 main_v0 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg3 main_v1 (broadcastInDim S1x64 ![1] bcast_S64_S1x64_1 : (⟨S64, .f32⟩ : BufTy).Contents (Elt F) → (⟨S1x64, .f32⟩ : BufTy).Contents (Elt F)),
    unary main_v1 main_v2 (broadcastInDim S100000x64 ![0, 1] bcast_S1x64_S100000x64_0_1 : (⟨S1x64, .f32⟩ : BufTy).Contents (Elt F) → (⟨S100000x64, .f32⟩ : BufTy).Contents (Elt F)),
    binary main_v0 main_v2 main_v3 (addf : (⟨S100000x64, .f32⟩ : BufTy).Contents (Elt F) → (⟨S100000x64, .f32⟩ : BufTy).Contents (Elt F) → (⟨S100000x64, .f32⟩ : BufTy).Contents (Elt F)) ]

/-- The edge lists (each row of the edge index followed by the self loops) and the edge weights. -/
abbrev segP1 : List (HloOp τ sig (Elt F)) :=
  [ nullary main_v4 (iotaInDim S100000 32 0),
    unary main_arg1 main_v5 ((extractStridedSlice S1x1600000 ![0, 0] · slices_S2x1600000_S1x1600000_0_0) : (⟨S2x1600000, .i32⟩ : BufTy).Contents (Elt F) → (⟨S1x1600000, .i32⟩ : BufTy).Contents (Elt F)),
    reshape main_v5 main_v6 rfl shapeCasts_S1x1600000_S1600000,
    binary main_v6 main_v4 main_v7 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v8 ((extractStridedSlice S1x1600000 ![1, 0] · slices_S2x1600000_S1x1600000_1_0) : (⟨S2x1600000, .i32⟩ : BufTy).Contents (Elt F) → (⟨S1x1600000, .i32⟩ : BufTy).Contents (Elt F)),
    reshape main_v8 main_v9 rfl shapeCasts_S1x1600000_S1600000,
    binary main_v9 main_v4 main_v10 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v11 (broadcastInDim S1600000 ![] bcast_S_S1600000 : (⟨S_, .f32⟩ : BufTy).Contents (Elt F) → (⟨S1600000, .f32⟩ : BufTy).Contents (Elt F)),
    nullary main_cst_0 (constant S_ .f32 0x40000000#32),
    unary main_cst_0 main_v12 (broadcastInDim S100000 ![] bcast_S_S100000 : (⟨S_, .f32⟩ : BufTy).Contents (Elt F) → (⟨S100000, .f32⟩ : BufTy).Contents (Elt F)),
    binary main_v11 main_v12 main_v13 ((fun a b => concatenate S1700000 0 [⟨S1600000, a⟩, ⟨S100000, b⟩] concatenates_S1600000_S100000_S1700000_d0) : (⟨S1600000, .f32⟩ : BufTy).Contents (Elt F) → (⟨S100000, .f32⟩ : BufTy).Contents (Elt F) → (⟨S1700000, .f32⟩ : BufTy).Contents (Elt F)) ]

/-- The weighted in-degree and its inverse square root (zero where the degree is not positive). -/
abbrev segP2 : List (HloOp τ sig (Elt F)) :=
  [ nullary main_cst_1 (constant S_ .f32 0x00000000#32),
    unary main_cst_1 main_v14 (broadcastInDim S100000 ![] bcast_S_S100000 : (⟨S_, .f32⟩ : BufTy).Contents (Elt F) → (⟨S100000, .f32⟩ : BufTy).Contents (Elt F)),
    unary main_v10 main_v15 (broadcastInDim S1700000x1 ![0] bcast_S1700000_S1700000x1_0 : (⟨S1700000, .i32⟩ : BufTy).Contents (Elt F) → (⟨S1700000x1, .i32⟩ : BufTy).Contents (Elt F)),
    ternary main_v14 main_v15 main_v13 main_v16 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_2 (constant S_ .f32 0x00000000#32),
    unary main_cst_2 main_v17 (broadcastInDim S100000 ![] bcast_S_S100000 : (⟨S_, .f32⟩ : BufTy).Contents (Elt F) → (⟨S100000, .f32⟩ : BufTy).Contents (Elt F)),
    binary main_v16 main_v17 main_v18 (cmpf .ogt : (⟨S100000, .f32⟩ : BufTy).Contents (Elt F) → (⟨S100000, .f32⟩ : BufTy).Contents (Elt F) → (⟨S100000, .i1⟩ : BufTy).Contents (Elt F)),
    nullary main_cst_3 (constant S_ .f32 0x2B8CBCCC#32),
    unary main_cst_3 main_v19 (broadcastInDim S100000 ![] bcast_S_S100000 : (⟨S_, .f32⟩ : BufTy).Contents (Elt F) → (⟨S100000, .f32⟩ : BufTy).Contents (Elt F)),
    binary main_v16 main_v19 main_v20 (maximumf : (⟨S100000, .f32⟩ : BufTy).Contents (Elt F) → (⟨S100000, .f32⟩ : BufTy).Contents (Elt F) → (⟨S100000, .f32⟩ : BufTy).Contents (Elt F)),
    unary main_v20 main_v21 (Host.rsqrt : (⟨S100000, .f32⟩ : BufTy).Contents (Elt F) → (⟨S100000, .f32⟩ : BufTy).Contents (Elt F)),
    nullary main_cst_4 (constant S_ .f32 0x00000000#32),
    TRef.unary (TRef.of (T := ⟨S_, .f32⟩) main_cst_4) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v18) (TRef.of (T := ⟨S100000, .f32⟩) main_v21) (TRef.of (T := ⟨S100000, .f32⟩) main_call0_v1) (TRef.of (T := ⟨S100000, .f32⟩) main_v22) select ]

/-- The normalisation of every edge. -/
abbrev segP3 : List (HloOp τ sig (Elt F)) :=
  [ nullary main_c (constantI S_ 32 0#32),
    unary main_c main_v23 (broadcastInDim S1700000 ![] bcast_S_S1700000 : (⟨S_, .i32⟩ : BufTy).Contents (Elt F) → (⟨S1700000, .i32⟩ : BufTy).Contents (Elt F)),
    binary main_v7 main_v23 main_v24 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v25 (broadcastInDim S1700000 ![] bcast_S_S1700000 : (⟨S_, .i32⟩ : BufTy).Contents (Elt F) → (⟨S1700000, .i32⟩ : BufTy).Contents (Elt F)),
    binary main_v7 main_v25 main_v26 (addi : (⟨S1700000, .i32⟩ : BufTy).Contents (Elt F) → (⟨S1700000, .i32⟩ : BufTy).Contents (Elt F) → (⟨S1700000, .i32⟩ : BufTy).Contents (Elt F)),
    ternary main_v24 main_v26 main_v7 main_v27 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v27 main_v28 (broadcastInDim S1700000x1 ![0] bcast_S1700000_S1700000x1_0 : (⟨S1700000, .i32⟩ : BufTy).Contents (Elt F) → (⟨S1700000x1, .i32⟩ : BufTy).Contents (Elt F)),
    binary main_v22 main_v28 main_v29 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v29 main_v13 main_v30 (mulf : (⟨S1700000, .f32⟩ : BufTy).Contents (Elt F) → (⟨S1700000, .f32⟩ : BufTy).Contents (Elt F) → (⟨S1700000, .f32⟩ : BufTy).Contents (Elt F)),
    nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v10 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v10 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v10 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v22 main_v36 main_v37 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v30 main_v37 main_v38 (mulf : (⟨S1700000, .f32⟩ : BufTy).Contents (Elt F) → (⟨S1700000, .f32⟩ : BufTy).Contents (Elt F) → (⟨S1700000, .f32⟩ : BufTy).Contents (Elt F)) ]

/-- The first sparse product. -/
abbrev segG1 : List (HloOp τ sig (Elt F)) :=
  [ unary main_v38 main_v39 (broadcastInDim S1700000x1 ![0] bcast_S1700000_S1700000x1_0 : (⟨S1700000, .f32⟩ : BufTy).Contents (Elt F) → (⟨S1700000x1, .f32⟩ : BufTy).Contents (Elt F)),
    nullary main_c_8 (constantI S_ 32 0#32),
    unary main_c_8 main_v40 (broadcastInDim S1700000 ![] bcast_S_S1700000 : (⟨S_, .i32⟩ : BufTy).Contents (Elt F) → (⟨S1700000, .i32⟩ : BufTy).Contents (Elt F)),
    binary main_v7 main_v40 main_v41 (cmpi .slt : (⟨S1700000, .i32⟩ : BufTy).Contents (Elt F) → (⟨S1700000, .i32⟩ : BufTy).Contents (Elt F) → (⟨S1700000, .i1⟩ : BufTy).Contents (Elt F)),
    nullary main_c_9 (constantI S_ 32 100000#32),
    unary main_c_9 main_v42 (broadcastInDim S1700000 ![] bcast_S_S1700000 : (⟨S_, .i32⟩ : BufTy).Contents (Elt F) → (⟨S1700000, .i32⟩ : BufTy).Contents (Elt F)),
    binary main_v7 main_v42 main_v43 (addi : (⟨S1700000, .i32⟩ : BufTy).Contents (Elt F) → (⟨S1700000, .i32⟩ : BufTy).Contents (Elt F) → (⟨S1700000, .i32⟩ : BufTy).Contents (Elt F)),
    ternary main_v41 main_v43 main_v7 main_v44 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v44 main_v45 (broadcastInDim S1700000x1 ![0] bcast_S1700000_S1700000x1_0 : (⟨S1700000, .i32⟩ : BufTy).Contents (Elt F) → (⟨S1700000x1, .i32⟩ : BufTy).Contents (Elt F)),
    binary main_v3 main_v45 main_v46 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v39 main_v47 (broadcastInDim S1700000x64 ![0, 1] bcast_S1700000x1_S1700000x64_0_1 : (⟨S1700000x1, .f32⟩ : BufTy).Contents (Elt F) → (⟨S1700000x64, .f32⟩ : BufTy).Contents (Elt F)),
    binary main_v47 main_v46 main_v48 (mulf : (⟨S1700000x64, .f32⟩ : BufTy).Contents (Elt F) → (⟨S1700000x64, .f32⟩ : BufTy).Contents (Elt F) → (⟨S1700000x64, .f32⟩ : BufTy).Contents (Elt F)),
    nullary main_cst_10 (constant S_ .f32 0x00000000#32),
    unary main_cst_10 main_v49 (broadcastInDim S100000x64 ![] bcast_S_S100000x64 : (⟨S_, .f32⟩ : BufTy).Contents (Elt F) → (⟨S100000x64, .f32⟩ : BufTy).Contents (Elt F)),
    unary main_v10 main_v50 (broadcastInDim S1700000x1 ![0] bcast_S1700000_S1700000x1_0 : (⟨S1700000, .i32⟩ : BufTy).Contents (Elt F) → (⟨S1700000x1, .i32⟩ : BufTy).Contents (Elt F)),
    ternary main_v49 main_v50 main_v48 main_v51 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)) ]

/-- The first diffusion step. -/
abbrev segU1 : List (HloOp τ sig (Elt F)) :=
  [ nullary main_cst_11 (constant S_ .f32 0x3DCCCCCD#32),
    unary main_cst_11 main_v52 (broadcastInDim S100000x64 ![] bcast_S_S100000x64 : (⟨S_, .f32⟩ : BufTy).Contents (Elt F) → (⟨S100000x64, .f32⟩ : BufTy).Contents (Elt F)),
    binary main_v52 main_v51 main_v53 (mulf : (⟨S100000x64, .f32⟩ : BufTy).Contents (Elt F) → (⟨S100000x64, .f32⟩ : BufTy).Contents (Elt F) → (⟨S100000x64, .f32⟩ : BufTy).Contents (Elt F)),
    binary main_v3 main_v53 main_v54 (subf : (⟨S100000x64, .f32⟩ : BufTy).Contents (Elt F) → (⟨S100000x64, .f32⟩ : BufTy).Contents (Elt F) → (⟨S100000x64, .f32⟩ : BufTy).Contents (Elt F)) ]

/-- The second sparse product. -/
abbrev segG2 : List (HloOp τ sig (Elt F)) :=
  [ unary main_v38 main_v55 (broadcastInDim S1700000x1 ![0] bcast_S1700000_S1700000x1_0 : (⟨S1700000, .f32⟩ : BufTy).Contents (Elt F) → (⟨S1700000x1, .f32⟩ : BufTy).Contents (Elt F)),
    nullary main_c_12 (constantI S_ 32 0#32),
    unary main_c_12 main_v56 (broadcastInDim S1700000 ![] bcast_S_S1700000 : (⟨S_, .i32⟩ : BufTy).Contents (Elt F) → (⟨S1700000, .i32⟩ : BufTy).Contents (Elt F)),
    binary main_v7 main_v56 main_v57 (cmpi .slt : (⟨S1700000, .i32⟩ : BufTy).Contents (Elt F) → (⟨S1700000, .i32⟩ : BufTy).Contents (Elt F) → (⟨S1700000, .i1⟩ : BufTy).Contents (Elt F)),
    nullary main_c_13 (constantI S_ 32 100000#32),
    unary main_c_13 main_v58 (broadcastInDim S1700000 ![] bcast_S_S1700000 : (⟨S_, .i32⟩ : BufTy).Contents (Elt F) → (⟨S1700000, .i32⟩ : BufTy).Contents (Elt F)),
    binary main_v7 main_v58 main_v59 (addi : (⟨S1700000, .i32⟩ : BufTy).Contents (Elt F) → (⟨S1700000, .i32⟩ : BufTy).Contents (Elt F) → (⟨S1700000, .i32⟩ : BufTy).Contents (Elt F)),
    ternary main_v57 main_v59 main_v7 main_v60 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v60 main_v61 (broadcastInDim S1700000x1 ![0] bcast_S1700000_S1700000x1_0 : (⟨S1700000, .i32⟩ : BufTy).Contents (Elt F) → (⟨S1700000x1, .i32⟩ : BufTy).Contents (Elt F)),
    binary main_v54 main_v61 main_v62 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v55 main_v63 (broadcastInDim S1700000x64 ![0, 1] bcast_S1700000x1_S1700000x64_0_1 : (⟨S1700000x1, .f32⟩ : BufTy).Contents (Elt F) → (⟨S1700000x64, .f32⟩ : BufTy).Contents (Elt F)),
    binary main_v63 main_v62 main_v64 (mulf : (⟨S1700000x64, .f32⟩ : BufTy).Contents (Elt F) → (⟨S1700000x64, .f32⟩ : BufTy).Contents (Elt F) → (⟨S1700000x64, .f32⟩ : BufTy).Contents (Elt F)),
    nullary main_cst_14 (constant S_ .f32 0x00000000#32),
    unary main_cst_14 main_v65 (broadcastInDim S100000x64 ![] bcast_S_S100000x64 : (⟨S_, .f32⟩ : BufTy).Contents (Elt F) → (⟨S100000x64, .f32⟩ : BufTy).Contents (Elt F)),
    unary main_v10 main_v66 (broadcastInDim S1700000x1 ![0] bcast_S1700000_S1700000x1_0 : (⟨S1700000, .i32⟩ : BufTy).Contents (Elt F) → (⟨S1700000x1, .i32⟩ : BufTy).Contents (Elt F)),
    ternary main_v65 main_v66 main_v64 main_v67 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)) ]

/-- The second diffusion step. -/
abbrev segU2 : List (HloOp τ sig (Elt F)) :=
  [ nullary main_cst_15 (constant S_ .f32 0x3DCCCCCD#32),
    unary main_cst_15 main_v68 (broadcastInDim S100000x64 ![] bcast_S_S100000x64 : (⟨S_, .f32⟩ : BufTy).Contents (Elt F) → (⟨S100000x64, .f32⟩ : BufTy).Contents (Elt F)),
    binary main_v68 main_v67 main_v69 (mulf : (⟨S100000x64, .f32⟩ : BufTy).Contents (Elt F) → (⟨S100000x64, .f32⟩ : BufTy).Contents (Elt F) → (⟨S100000x64, .f32⟩ : BufTy).Contents (Elt F)),
    binary main_v54 main_v69 main_v70 (subf : (⟨S100000x64, .f32⟩ : BufTy).Contents (Elt F) → (⟨S100000x64, .f32⟩ : BufTy).Contents (Elt F) → (⟨S100000x64, .f32⟩ : BufTy).Contents (Elt F)) ]

/-- The third sparse product. -/
abbrev segG3 : List (HloOp τ sig (Elt F)) :=
  [ unary main_v38 main_v71 (broadcastInDim S1700000x1 ![0] bcast_S1700000_S1700000x1_0 : (⟨S1700000, .f32⟩ : BufTy).Contents (Elt F) → (⟨S1700000x1, .f32⟩ : BufTy).Contents (Elt F)),
    nullary main_c_16 (constantI S_ 32 0#32),
    unary main_c_16 main_v72 (broadcastInDim S1700000 ![] bcast_S_S1700000 : (⟨S_, .i32⟩ : BufTy).Contents (Elt F) → (⟨S1700000, .i32⟩ : BufTy).Contents (Elt F)),
    binary main_v7 main_v72 main_v73 (cmpi .slt : (⟨S1700000, .i32⟩ : BufTy).Contents (Elt F) → (⟨S1700000, .i32⟩ : BufTy).Contents (Elt F) → (⟨S1700000, .i1⟩ : BufTy).Contents (Elt F)),
    nullary main_c_17 (constantI S_ 32 100000#32),
    unary main_c_17 main_v74 (broadcastInDim S1700000 ![] bcast_S_S1700000 : (⟨S_, .i32⟩ : BufTy).Contents (Elt F) → (⟨S1700000, .i32⟩ : BufTy).Contents (Elt F)),
    binary main_v7 main_v74 main_v75 (addi : (⟨S1700000, .i32⟩ : BufTy).Contents (Elt F) → (⟨S1700000, .i32⟩ : BufTy).Contents (Elt F) → (⟨S1700000, .i32⟩ : BufTy).Contents (Elt F)),
    ternary main_v73 main_v75 main_v7 main_v76 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v76 main_v77 (broadcastInDim S1700000x1 ![0] bcast_S1700000_S1700000x1_0 : (⟨S1700000, .i32⟩ : BufTy).Contents (Elt F) → (⟨S1700000x1, .i32⟩ : BufTy).Contents (Elt F)),
    binary main_v70 main_v77 main_v78 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v71 main_v79 (broadcastInDim S1700000x64 ![0, 1] bcast_S1700000x1_S1700000x64_0_1 : (⟨S1700000x1, .f32⟩ : BufTy).Contents (Elt F) → (⟨S1700000x64, .f32⟩ : BufTy).Contents (Elt F)),
    binary main_v79 main_v78 main_v80 (mulf : (⟨S1700000x64, .f32⟩ : BufTy).Contents (Elt F) → (⟨S1700000x64, .f32⟩ : BufTy).Contents (Elt F) → (⟨S1700000x64, .f32⟩ : BufTy).Contents (Elt F)),
    nullary main_cst_18 (constant S_ .f32 0x00000000#32),
    unary main_cst_18 main_v81 (broadcastInDim S100000x64 ![] bcast_S_S100000x64 : (⟨S_, .f32⟩ : BufTy).Contents (Elt F) → (⟨S100000x64, .f32⟩ : BufTy).Contents (Elt F)),
    unary main_v10 main_v82 (broadcastInDim S1700000x1 ![0] bcast_S1700000_S1700000x1_0 : (⟨S1700000, .i32⟩ : BufTy).Contents (Elt F) → (⟨S1700000x1, .i32⟩ : BufTy).Contents (Elt F)),
    ternary main_v81 main_v82 main_v80 main_v83 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)) ]

/-- The third diffusion step. -/
abbrev segU3 : List (HloOp τ sig (Elt F)) :=
  [ nullary main_cst_19 (constant S_ .f32 0x3DCCCCCD#32),
    unary main_cst_19 main_v84 (broadcastInDim S100000x64 ![] bcast_S_S100000x64 : (⟨S_, .f32⟩ : BufTy).Contents (Elt F) → (⟨S100000x64, .f32⟩ : BufTy).Contents (Elt F)),
    binary main_v84 main_v83 main_v85 (mulf : (⟨S100000x64, .f32⟩ : BufTy).Contents (Elt F) → (⟨S100000x64, .f32⟩ : BufTy).Contents (Elt F) → (⟨S100000x64, .f32⟩ : BufTy).Contents (Elt F)),
    binary main_v70 main_v85 main_v86 (subf : (⟨S100000x64, .f32⟩ : BufTy).Contents (Elt F) → (⟨S100000x64, .f32⟩ : BufTy).Contents (Elt F) → (⟨S100000x64, .f32⟩ : BufTy).Contents (Elt F)) ]

/-- The fourth sparse product. -/
abbrev segG4 : List (HloOp τ sig (Elt F)) :=
  [ unary main_v38 main_v87 (broadcastInDim S1700000x1 ![0] bcast_S1700000_S1700000x1_0 : (⟨S1700000, .f32⟩ : BufTy).Contents (Elt F) → (⟨S1700000x1, .f32⟩ : BufTy).Contents (Elt F)),
    nullary main_c_20 (constantI S_ 32 0#32),
    unary main_c_20 main_v88 (broadcastInDim S1700000 ![] bcast_S_S1700000 : (⟨S_, .i32⟩ : BufTy).Contents (Elt F) → (⟨S1700000, .i32⟩ : BufTy).Contents (Elt F)),
    binary main_v7 main_v88 main_v89 (cmpi .slt : (⟨S1700000, .i32⟩ : BufTy).Contents (Elt F) → (⟨S1700000, .i32⟩ : BufTy).Contents (Elt F) → (⟨S1700000, .i1⟩ : BufTy).Contents (Elt F)),
    nullary main_c_21 (constantI S_ 32 100000#32),
    unary main_c_21 main_v90 (broadcastInDim S1700000 ![] bcast_S_S1700000 : (⟨S_, .i32⟩ : BufTy).Contents (Elt F) → (⟨S1700000, .i32⟩ : BufTy).Contents (Elt F)),
    binary main_v7 main_v90 main_v91 (addi : (⟨S1700000, .i32⟩ : BufTy).Contents (Elt F) → (⟨S1700000, .i32⟩ : BufTy).Contents (Elt F) → (⟨S1700000, .i32⟩ : BufTy).Contents (Elt F)),
    ternary main_v89 main_v91 main_v7 main_v92 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v92 main_v93 (broadcastInDim S1700000x1 ![0] bcast_S1700000_S1700000x1_0 : (⟨S1700000, .i32⟩ : BufTy).Contents (Elt F) → (⟨S1700000x1, .i32⟩ : BufTy).Contents (Elt F)),
    binary main_v86 main_v93 main_v94 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v87 main_v95 (broadcastInDim S1700000x64 ![0, 1] bcast_S1700000x1_S1700000x64_0_1 : (⟨S1700000x1, .f32⟩ : BufTy).Contents (Elt F) → (⟨S1700000x64, .f32⟩ : BufTy).Contents (Elt F)),
    binary main_v95 main_v94 main_v96 (mulf : (⟨S1700000x64, .f32⟩ : BufTy).Contents (Elt F) → (⟨S1700000x64, .f32⟩ : BufTy).Contents (Elt F) → (⟨S1700000x64, .f32⟩ : BufTy).Contents (Elt F)),
    nullary main_cst_22 (constant S_ .f32 0x00000000#32),
    unary main_cst_22 main_v97 (broadcastInDim S100000x64 ![] bcast_S_S100000x64 : (⟨S_, .f32⟩ : BufTy).Contents (Elt F) → (⟨S100000x64, .f32⟩ : BufTy).Contents (Elt F)),
    unary main_v10 main_v98 (broadcastInDim S1700000x1 ![0] bcast_S1700000_S1700000x1_0 : (⟨S1700000, .i32⟩ : BufTy).Contents (Elt F) → (⟨S1700000x1, .i32⟩ : BufTy).Contents (Elt F)),
    ternary main_v97 main_v98 main_v96 main_v99 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)) ]

/-- The last diffusion step, the hyperbolic tangent and the read-out. -/
abbrev segR : List (HloOp τ sig (Elt F)) :=
  [ nullary main_cst_23 (constant S_ .f32 0x3DCCCCCD#32),
    unary main_cst_23 main_v100 (broadcastInDim S100000x64 ![] bcast_S_S100000x64 : (⟨S_, .f32⟩ : BufTy).Contents (Elt F) → (⟨S100000x64, .f32⟩ : BufTy).Contents (Elt F)),
    binary main_v100 main_v99 main_v101 (mulf : (⟨S100000x64, .f32⟩ : BufTy).Contents (Elt F) → (⟨S100000x64, .f32⟩ : BufTy).Contents (Elt F) → (⟨S100000x64, .f32⟩ : BufTy).Contents (Elt F)),
    binary main_v86 main_v101 main_v102 (subf : (⟨S100000x64, .f32⟩ : BufTy).Contents (Elt F) → (⟨S100000x64, .f32⟩ : BufTy).Contents (Elt F) → (⟨S100000x64, .f32⟩ : BufTy).Contents (Elt F)),
    unary main_v102 main_v103 (Host.tanh : (⟨S100000x64, .f32⟩ : BufTy).Contents (Elt F) → (⟨S100000x64, .f32⟩ : BufTy).Contents (Elt F)),
    binary main_v103 main_arg4 main_v104 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg5 main_v105 (broadcastInDim S1x64 ![1] bcast_S64_S1x64_1 : (⟨S64, .f32⟩ : BufTy).Contents (Elt F) → (⟨S1x64, .f32⟩ : BufTy).Contents (Elt F)),
    unary main_v105 main_v106 (broadcastInDim S100000x64 ![0, 1] bcast_S1x64_S100000x64_0_1 : (⟨S1x64, .f32⟩ : BufTy).Contents (Elt F) → (⟨S100000x64, .f32⟩ : BufTy).Contents (Elt F)),
    binary main_v104 main_v106 main_v107 (addf : (⟨S100000x64, .f32⟩ : BufTy).Contents (Elt F) → (⟨S100000x64, .f32⟩ : BufTy).Contents (Elt F) → (⟨S100000x64, .f32⟩ : BufTy).Contents (Elt F)) ]

/-- The line is its pieces, in order. -/
theorem ops_split : (ops : List (HloOp τ sig (Elt F))) = segE ++ (segP1 ++ (segP2 ++ (segP3 ++ (segG1 ++ (segU1 ++ (segG2 ++ (segU2 ++ (segG3 ++ (segU3 ++ (segG4 ++ (segR))))))))))) := rfl

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., unary_bufs_sub .., unary_bufs_sub .., binary_bufs_sub .., nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nullary_bufs_sub .., unary_bufs_sub .., binary_bufs_sub .., binary_bufs_sub .., unary_bufs_sub .., binary_bufs_sub .., unary_bufs_sub .., unary_bufs_sub .., binary_bufs_sub ..⟩

variable (W : Valuation τ sig (Elt F))

/-! ## The embedding -/

/-- The embedding's result. -/
theorem valE_v3 : after segE W (Proc.devRef .tc main_v3) = embedT (W (Proc.devRef .tc main_arg0)) (W (Proc.devRef .tc main_arg2)) (W (Proc.devRef .tc main_arg3)) := by
  after_results; rfl
theorem keepE_arg0 : after segE W (Proc.devRef .tc main_arg0) = W (Proc.devRef .tc main_arg0) := by line_keeps [segE]
theorem keepE_arg1 : after segE W (Proc.devRef .tc main_arg1) = W (Proc.devRef .tc main_arg1) := by line_keeps [segE]
theorem keepE_arg2 : after segE W (Proc.devRef .tc main_arg2) = W (Proc.devRef .tc main_arg2) := by line_keeps [segE]
theorem keepE_arg3 : after segE W (Proc.devRef .tc main_arg3) = W (Proc.devRef .tc main_arg3) := by line_keeps [segE]
theorem keepE_arg4 : after segE W (Proc.devRef .tc main_arg4) = W (Proc.devRef .tc main_arg4) := by line_keeps [segE]
theorem keepE_arg5 : after segE W (Proc.devRef .tc main_arg5) = W (Proc.devRef .tc main_arg5) := by line_keeps [segE]

/-! ## The edge lists and weights -/

/-- The source list. -/
theorem valP1_v7 : after segP1 W (Proc.devRef .tc main_v7) = srcT (W (Proc.devRef .tc main_arg1)) := by
  after_results; rfl
/-- The target list. -/
theorem valP1_v10 : after segP1 W (Proc.devRef .tc main_v10) = dstT (W (Proc.devRef .tc main_arg1)) := by
  after_results; rfl
/-- The weights. -/
theorem valP1_v13 : after segP1 W (Proc.devRef .tc main_v13) = wT := by
  after_results; rfl
theorem keepP1_v3 : after segP1 W (Proc.devRef .tc main_v3) = W (Proc.devRef .tc main_v3) := by line_keeps [segP1]
theorem keepP1_arg0 : after segP1 W (Proc.devRef .tc main_arg0) = W (Proc.devRef .tc main_arg0) := by line_keeps [segP1]
theorem keepP1_arg1 : after segP1 W (Proc.devRef .tc main_arg1) = W (Proc.devRef .tc main_arg1) := by line_keeps [segP1]
theorem keepP1_arg2 : after segP1 W (Proc.devRef .tc main_arg2) = W (Proc.devRef .tc main_arg2) := by line_keeps [segP1]
theorem keepP1_arg3 : after segP1 W (Proc.devRef .tc main_arg3) = W (Proc.devRef .tc main_arg3) := by line_keeps [segP1]
theorem keepP1_arg4 : after segP1 W (Proc.devRef .tc main_arg4) = W (Proc.devRef .tc main_arg4) := by line_keeps [segP1]
theorem keepP1_arg5 : after segP1 W (Proc.devRef .tc main_arg5) = W (Proc.devRef .tc main_arg5) := by line_keeps [segP1]

/-! ## The degree normalisation -/

/-- The inverse square root of the degree. -/
theorem valP2_v22 : after segP2 W (Proc.devRef .tc main_v22) = dinvT (W (Proc.devRef .tc main_v10)) (W (Proc.devRef .tc main_v13)) := by
  after_results; rfl
theorem keepP2_v3 : after segP2 W (Proc.devRef .tc main_v3) = W (Proc.devRef .tc main_v3) := by line_keeps [segP2]
theorem keepP2_v7 : after segP2 W (Proc.devRef .tc main_v7) = W (Proc.devRef .tc main_v7) := by line_keeps [segP2]
theorem keepP2_v10 : after segP2 W (Proc.devRef .tc main_v10) = W (Proc.devRef .tc main_v10) := by line_keeps [segP2]
theorem keepP2_v13 : after segP2 W (Proc.devRef .tc main_v13) = W (Proc.devRef .tc main_v13) := by line_keeps [segP2]
theorem keepP2_arg0 : after segP2 W (Proc.devRef .tc main_arg0) = W (Proc.devRef .tc main_arg0) := by line_keeps [segP2]
theorem keepP2_arg1 : after segP2 W (Proc.devRef .tc main_arg1) = W (Proc.devRef .tc main_arg1) := by line_keeps [segP2]
theorem keepP2_arg2 : after segP2 W (Proc.devRef .tc main_arg2) = W (Proc.devRef .tc main_arg2) := by line_keeps [segP2]
theorem keepP2_arg3 : after segP2 W (Proc.devRef .tc main_arg3) = W (Proc.devRef .tc main_arg3) := by line_keeps [segP2]
theorem keepP2_arg4 : after segP2 W (Proc.devRef .tc main_arg4) = W (Proc.devRef .tc main_arg4) := by line_keeps [segP2]
theorem keepP2_arg5 : after segP2 W (Proc.devRef .tc main_arg5) = W (Proc.devRef .tc main_arg5) := by line_keeps [segP2]
/-- Every edge's normalisation. -/
theorem valP3_v38 : after segP3 W (Proc.devRef .tc main_v38) = normT (W (Proc.devRef .tc main_v22)) (W (Proc.devRef .tc main_v7)) (W (Proc.devRef .tc main_v10)) (W (Proc.devRef .tc main_v13)) := by
  after_results; rfl
theorem keepP3_v3 : after segP3 W (Proc.devRef .tc main_v3) = W (Proc.devRef .tc main_v3) := by line_keeps [segP3]
theorem keepP3_v7 : after segP3 W (Proc.devRef .tc main_v7) = W (Proc.devRef .tc main_v7) := by line_keeps [segP3]
theorem keepP3_v10 : after segP3 W (Proc.devRef .tc main_v10) = W (Proc.devRef .tc main_v10) := by line_keeps [segP3]
theorem keepP3_arg0 : after segP3 W (Proc.devRef .tc main_arg0) = W (Proc.devRef .tc main_arg0) := by line_keeps [segP3]
theorem keepP3_arg1 : after segP3 W (Proc.devRef .tc main_arg1) = W (Proc.devRef .tc main_arg1) := by line_keeps [segP3]
theorem keepP3_arg2 : after segP3 W (Proc.devRef .tc main_arg2) = W (Proc.devRef .tc main_arg2) := by line_keeps [segP3]
theorem keepP3_arg3 : after segP3 W (Proc.devRef .tc main_arg3) = W (Proc.devRef .tc main_arg3) := by line_keeps [segP3]
theorem keepP3_arg4 : after segP3 W (Proc.devRef .tc main_arg4) = W (Proc.devRef .tc main_arg4) := by line_keeps [segP3]
theorem keepP3_arg5 : after segP3 W (Proc.devRef .tc main_arg5) = W (Proc.devRef .tc main_arg5) := by line_keeps [segP3]

/-! ## Sparse product 1 and diffusion step 1 -/

/-- Sparse product 1 of the current features. -/
theorem valG1_v51 : after segG1 W (Proc.devRef .tc main_v51) = aggT (W (Proc.devRef .tc main_v3)) (W (Proc.devRef .tc main_v7)) (W (Proc.devRef .tc main_v10)) (W (Proc.devRef .tc main_v38)) := by
  after_results; rfl
theorem keepG1_v3 : after segG1 W (Proc.devRef .tc main_v3) = W (Proc.devRef .tc main_v3) := by line_keeps [segG1]
theorem keepG1_v7 : after segG1 W (Proc.devRef .tc main_v7) = W (Proc.devRef .tc main_v7) := by line_keeps [segG1]
theorem keepG1_v10 : after segG1 W (Proc.devRef .tc main_v10) = W (Proc.devRef .tc main_v10) := by line_keeps [segG1]
theorem keepG1_v38 : after segG1 W (Proc.devRef .tc main_v38) = W (Proc.devRef .tc main_v38) := by line_keeps [segG1]
theorem keepG1_arg0 : after segG1 W (Proc.devRef .tc main_arg0) = W (Proc.devRef .tc main_arg0) := by line_keeps [segG1]
theorem keepG1_arg1 : after segG1 W (Proc.devRef .tc main_arg1) = W (Proc.devRef .tc main_arg1) := by line_keeps [segG1]
theorem keepG1_arg2 : after segG1 W (Proc.devRef .tc main_arg2) = W (Proc.devRef .tc main_arg2) := by line_keeps [segG1]
theorem keepG1_arg3 : after segG1 W (Proc.devRef .tc main_arg3) = W (Proc.devRef .tc main_arg3) := by line_keeps [segG1]
theorem keepG1_arg4 : after segG1 W (Proc.devRef .tc main_arg4) = W (Proc.devRef .tc main_arg4) := by line_keeps [segG1]
theorem keepG1_arg5 : after segG1 W (Proc.devRef .tc main_arg5) = W (Proc.devRef .tc main_arg5) := by line_keeps [segG1]
/-- Diffusion step 1. -/
theorem valU1_v54 : after segU1 W (Proc.devRef .tc main_v54) = stepT (W (Proc.devRef .tc main_v3)) (W (Proc.devRef .tc main_v51)) := by
  after_results; rfl
theorem keepU1_v7 : after segU1 W (Proc.devRef .tc main_v7) = W (Proc.devRef .tc main_v7) := by line_keeps [segU1]
theorem keepU1_v10 : after segU1 W (Proc.devRef .tc main_v10) = W (Proc.devRef .tc main_v10) := by line_keeps [segU1]
theorem keepU1_v38 : after segU1 W (Proc.devRef .tc main_v38) = W (Proc.devRef .tc main_v38) := by line_keeps [segU1]
theorem keepU1_arg0 : after segU1 W (Proc.devRef .tc main_arg0) = W (Proc.devRef .tc main_arg0) := by line_keeps [segU1]
theorem keepU1_arg1 : after segU1 W (Proc.devRef .tc main_arg1) = W (Proc.devRef .tc main_arg1) := by line_keeps [segU1]
theorem keepU1_arg2 : after segU1 W (Proc.devRef .tc main_arg2) = W (Proc.devRef .tc main_arg2) := by line_keeps [segU1]
theorem keepU1_arg3 : after segU1 W (Proc.devRef .tc main_arg3) = W (Proc.devRef .tc main_arg3) := by line_keeps [segU1]
theorem keepU1_arg4 : after segU1 W (Proc.devRef .tc main_arg4) = W (Proc.devRef .tc main_arg4) := by line_keeps [segU1]
theorem keepU1_arg5 : after segU1 W (Proc.devRef .tc main_arg5) = W (Proc.devRef .tc main_arg5) := by line_keeps [segU1]

/-! ## Sparse product 2 and diffusion step 2 -/

/-- Sparse product 2 of the current features. -/
theorem valG2_v67 : after segG2 W (Proc.devRef .tc main_v67) = aggT (W (Proc.devRef .tc main_v54)) (W (Proc.devRef .tc main_v7)) (W (Proc.devRef .tc main_v10)) (W (Proc.devRef .tc main_v38)) := by
  after_results; rfl
theorem keepG2_v54 : after segG2 W (Proc.devRef .tc main_v54) = W (Proc.devRef .tc main_v54) := by line_keeps [segG2]
theorem keepG2_v7 : after segG2 W (Proc.devRef .tc main_v7) = W (Proc.devRef .tc main_v7) := by line_keeps [segG2]
theorem keepG2_v10 : after segG2 W (Proc.devRef .tc main_v10) = W (Proc.devRef .tc main_v10) := by line_keeps [segG2]
theorem keepG2_v38 : after segG2 W (Proc.devRef .tc main_v38) = W (Proc.devRef .tc main_v38) := by line_keeps [segG2]
theorem keepG2_arg0 : after segG2 W (Proc.devRef .tc main_arg0) = W (Proc.devRef .tc main_arg0) := by line_keeps [segG2]
theorem keepG2_arg1 : after segG2 W (Proc.devRef .tc main_arg1) = W (Proc.devRef .tc main_arg1) := by line_keeps [segG2]
theorem keepG2_arg2 : after segG2 W (Proc.devRef .tc main_arg2) = W (Proc.devRef .tc main_arg2) := by line_keeps [segG2]
theorem keepG2_arg3 : after segG2 W (Proc.devRef .tc main_arg3) = W (Proc.devRef .tc main_arg3) := by line_keeps [segG2]
theorem keepG2_arg4 : after segG2 W (Proc.devRef .tc main_arg4) = W (Proc.devRef .tc main_arg4) := by line_keeps [segG2]
theorem keepG2_arg5 : after segG2 W (Proc.devRef .tc main_arg5) = W (Proc.devRef .tc main_arg5) := by line_keeps [segG2]
/-- Diffusion step 2. -/
theorem valU2_v70 : after segU2 W (Proc.devRef .tc main_v70) = stepT (W (Proc.devRef .tc main_v54)) (W (Proc.devRef .tc main_v67)) := by
  after_results; rfl
theorem keepU2_v7 : after segU2 W (Proc.devRef .tc main_v7) = W (Proc.devRef .tc main_v7) := by line_keeps [segU2]
theorem keepU2_v10 : after segU2 W (Proc.devRef .tc main_v10) = W (Proc.devRef .tc main_v10) := by line_keeps [segU2]
theorem keepU2_v38 : after segU2 W (Proc.devRef .tc main_v38) = W (Proc.devRef .tc main_v38) := by line_keeps [segU2]
theorem keepU2_arg0 : after segU2 W (Proc.devRef .tc main_arg0) = W (Proc.devRef .tc main_arg0) := by line_keeps [segU2]
theorem keepU2_arg1 : after segU2 W (Proc.devRef .tc main_arg1) = W (Proc.devRef .tc main_arg1) := by line_keeps [segU2]
theorem keepU2_arg2 : after segU2 W (Proc.devRef .tc main_arg2) = W (Proc.devRef .tc main_arg2) := by line_keeps [segU2]
theorem keepU2_arg3 : after segU2 W (Proc.devRef .tc main_arg3) = W (Proc.devRef .tc main_arg3) := by line_keeps [segU2]
theorem keepU2_arg4 : after segU2 W (Proc.devRef .tc main_arg4) = W (Proc.devRef .tc main_arg4) := by line_keeps [segU2]
theorem keepU2_arg5 : after segU2 W (Proc.devRef .tc main_arg5) = W (Proc.devRef .tc main_arg5) := by line_keeps [segU2]

/-! ## Sparse product 3 and diffusion step 3 -/

/-- Sparse product 3 of the current features. -/
theorem valG3_v83 : after segG3 W (Proc.devRef .tc main_v83) = aggT (W (Proc.devRef .tc main_v70)) (W (Proc.devRef .tc main_v7)) (W (Proc.devRef .tc main_v10)) (W (Proc.devRef .tc main_v38)) := by
  after_results; rfl
theorem keepG3_v70 : after segG3 W (Proc.devRef .tc main_v70) = W (Proc.devRef .tc main_v70) := by line_keeps [segG3]
theorem keepG3_v7 : after segG3 W (Proc.devRef .tc main_v7) = W (Proc.devRef .tc main_v7) := by line_keeps [segG3]
theorem keepG3_v10 : after segG3 W (Proc.devRef .tc main_v10) = W (Proc.devRef .tc main_v10) := by line_keeps [segG3]
theorem keepG3_v38 : after segG3 W (Proc.devRef .tc main_v38) = W (Proc.devRef .tc main_v38) := by line_keeps [segG3]
theorem keepG3_arg0 : after segG3 W (Proc.devRef .tc main_arg0) = W (Proc.devRef .tc main_arg0) := by line_keeps [segG3]
theorem keepG3_arg1 : after segG3 W (Proc.devRef .tc main_arg1) = W (Proc.devRef .tc main_arg1) := by line_keeps [segG3]
theorem keepG3_arg2 : after segG3 W (Proc.devRef .tc main_arg2) = W (Proc.devRef .tc main_arg2) := by line_keeps [segG3]
theorem keepG3_arg3 : after segG3 W (Proc.devRef .tc main_arg3) = W (Proc.devRef .tc main_arg3) := by line_keeps [segG3]
theorem keepG3_arg4 : after segG3 W (Proc.devRef .tc main_arg4) = W (Proc.devRef .tc main_arg4) := by line_keeps [segG3]
theorem keepG3_arg5 : after segG3 W (Proc.devRef .tc main_arg5) = W (Proc.devRef .tc main_arg5) := by line_keeps [segG3]
/-- Diffusion step 3. -/
theorem valU3_v86 : after segU3 W (Proc.devRef .tc main_v86) = stepT (W (Proc.devRef .tc main_v70)) (W (Proc.devRef .tc main_v83)) := by
  after_results; rfl
theorem keepU3_v7 : after segU3 W (Proc.devRef .tc main_v7) = W (Proc.devRef .tc main_v7) := by line_keeps [segU3]
theorem keepU3_v10 : after segU3 W (Proc.devRef .tc main_v10) = W (Proc.devRef .tc main_v10) := by line_keeps [segU3]
theorem keepU3_v38 : after segU3 W (Proc.devRef .tc main_v38) = W (Proc.devRef .tc main_v38) := by line_keeps [segU3]
theorem keepU3_arg0 : after segU3 W (Proc.devRef .tc main_arg0) = W (Proc.devRef .tc main_arg0) := by line_keeps [segU3]
theorem keepU3_arg1 : after segU3 W (Proc.devRef .tc main_arg1) = W (Proc.devRef .tc main_arg1) := by line_keeps [segU3]
theorem keepU3_arg2 : after segU3 W (Proc.devRef .tc main_arg2) = W (Proc.devRef .tc main_arg2) := by line_keeps [segU3]
theorem keepU3_arg3 : after segU3 W (Proc.devRef .tc main_arg3) = W (Proc.devRef .tc main_arg3) := by line_keeps [segU3]
theorem keepU3_arg4 : after segU3 W (Proc.devRef .tc main_arg4) = W (Proc.devRef .tc main_arg4) := by line_keeps [segU3]
theorem keepU3_arg5 : after segU3 W (Proc.devRef .tc main_arg5) = W (Proc.devRef .tc main_arg5) := by line_keeps [segU3]

/-! ## Sparse product 4 -/

/-- Sparse product 4 of the current features. -/
theorem valG4_v99 : after segG4 W (Proc.devRef .tc main_v99) = aggT (W (Proc.devRef .tc main_v86)) (W (Proc.devRef .tc main_v7)) (W (Proc.devRef .tc main_v10)) (W (Proc.devRef .tc main_v38)) := by
  after_results; rfl
theorem keepG4_v86 : after segG4 W (Proc.devRef .tc main_v86) = W (Proc.devRef .tc main_v86) := by line_keeps [segG4]
theorem keepG4_v7 : after segG4 W (Proc.devRef .tc main_v7) = W (Proc.devRef .tc main_v7) := by line_keeps [segG4]
theorem keepG4_v10 : after segG4 W (Proc.devRef .tc main_v10) = W (Proc.devRef .tc main_v10) := by line_keeps [segG4]
theorem keepG4_v38 : after segG4 W (Proc.devRef .tc main_v38) = W (Proc.devRef .tc main_v38) := by line_keeps [segG4]
theorem keepG4_arg0 : after segG4 W (Proc.devRef .tc main_arg0) = W (Proc.devRef .tc main_arg0) := by line_keeps [segG4]
theorem keepG4_arg1 : after segG4 W (Proc.devRef .tc main_arg1) = W (Proc.devRef .tc main_arg1) := by line_keeps [segG4]
theorem keepG4_arg2 : after segG4 W (Proc.devRef .tc main_arg2) = W (Proc.devRef .tc main_arg2) := by line_keeps [segG4]
theorem keepG4_arg3 : after segG4 W (Proc.devRef .tc main_arg3) = W (Proc.devRef .tc main_arg3) := by line_keeps [segG4]
theorem keepG4_arg4 : after segG4 W (Proc.devRef .tc main_arg4) = W (Proc.devRef .tc main_arg4) := by line_keeps [segG4]
theorem keepG4_arg5 : after segG4 W (Proc.devRef .tc main_arg5) = W (Proc.devRef .tc main_arg5) := by line_keeps [segG4]

/-! ## The read-out -/

/-- The read-out of the last step. -/
theorem valR_v107 : after segR W (Proc.devRef .tc main_v107) = readoutT (W (Proc.devRef .tc main_v86)) (W (Proc.devRef .tc main_v99)) (W (Proc.devRef .tc main_arg4)) (W (Proc.devRef .tc main_arg5)) := by
  after_results; rfl
theorem keepR_arg0 : after segR W (Proc.devRef .tc main_arg0) = W (Proc.devRef .tc main_arg0) := by line_keeps [segR]
theorem keepR_arg1 : after segR W (Proc.devRef .tc main_arg1) = W (Proc.devRef .tc main_arg1) := by line_keeps [segR]
theorem keepR_arg2 : after segR W (Proc.devRef .tc main_arg2) = W (Proc.devRef .tc main_arg2) := by line_keeps [segR]
theorem keepR_arg3 : after segR W (Proc.devRef .tc main_arg3) = W (Proc.devRef .tc main_arg3) := by line_keeps [segR]
theorem keepR_arg4 : after segR W (Proc.devRef .tc main_arg4) = W (Proc.devRef .tc main_arg4) := by line_keeps [segR]
theorem keepR_arg5 : after segR W (Proc.devRef .tc main_arg5) = W (Proc.devRef .tc main_arg5) := by line_keeps [segR]

/-! ## The whole line -/

/-- From any contents `L`, the pieces run in order leave the result buffer at the network of the six argument
    buffers: each piece's result is rewritten to its function of what it reads, last piece first. -/
theorem result_pieces (L : Valuation τ sig (Elt F)) :
    after (segE ++ (segP1 ++ (segP2 ++ (segP3 ++ (segG1 ++ (segU1 ++ (segG2 ++ (segU2 ++ (segG3 ++ (segU3 ++ (segG4 ++ (segR)))))))))))) L (Proc.devRef .tc main_v107) = networkT (L (Proc.devRef .tc main_arg0)) (L (Proc.devRef .tc main_arg1)) (L (Proc.devRef .tc main_arg2)) (L (Proc.devRef .tc main_arg3)) (L (Proc.devRef .tc main_arg4)) (L (Proc.devRef .tc main_arg5)) := by
  simp only [StableHlo.after_append]
  rw [valR_v107, keepG4_v86, valG4_v99, keepG4_arg4, keepG4_arg5, valU3_v86, keepU3_v7, keepU3_v10, keepU3_v38, keepU3_arg4, keepU3_arg5, keepG3_v70, valG3_v83, keepG3_v7, keepG3_v10, keepG3_v38, keepG3_arg4, keepG3_arg5, valU2_v70, keepU2_v7, keepU2_v10, keepU2_v38, keepU2_arg4, keepU2_arg5, keepG2_v54, valG2_v67, keepG2_v7, keepG2_v10, keepG2_v38, keepG2_arg4, keepG2_arg5, valU1_v54, keepU1_v7, keepU1_v10, keepU1_v38, keepU1_arg4, keepU1_arg5, keepG1_v3, valG1_v51, keepG1_v7, keepG1_v10, keepG1_v38, keepG1_arg4, keepG1_arg5, valP3_v38, keepP3_v3, keepP3_v7, keepP3_v10, keepP3_arg4, keepP3_arg5, valP2_v22, keepP2_v3, keepP2_v7, keepP2_v10, keepP2_v13, keepP2_arg4, keepP2_arg5, valP1_v7, valP1_v10, valP1_v13, keepP1_v3, keepP1_arg4, keepP1_arg5, valE_v3, keepE_arg1, keepE_arg4, keepE_arg5]
  rfl

/-- The same of the line itself. -/
theorem result_eq (L : Valuation τ sig (Elt F)) :
    after ops L (Proc.devRef .tc main_v107) = networkT (L (Proc.devRef .tc main_arg0)) (L (Proc.devRef .tc main_arg1)) (L (Proc.devRef .tc main_arg2)) (L (Proc.devRef .tc main_arg3)) (L (Proc.devRef .tc main_arg4)) (L (Proc.devRef .tc main_arg5)) :=
  (congrArg (fun l => after l L (Proc.devRef .tc main_v107)) ops_split).trans (result_pieces L)

/-- No piece writes `main_arg0`. -/
theorem keeps_arg0 (L : Valuation τ sig (Elt F)) : after ops L (Proc.devRef .tc main_arg0) = L (Proc.devRef .tc main_arg0) := by
  refine (congrArg (fun l => after l L (Proc.devRef .tc main_arg0)) ops_split).trans ?_
  simp only [StableHlo.after_append]
  rw [keepR_arg0, keepG4_arg0, keepU3_arg0, keepG3_arg0, keepU2_arg0, keepG2_arg0, keepU1_arg0, keepG1_arg0, keepP3_arg0, keepP2_arg0, keepP1_arg0, keepE_arg0]

/-- No piece writes `main_arg1`. -/
theorem keeps_arg1 (L : Valuation τ sig (Elt F)) : after ops L (Proc.devRef .tc main_arg1) = L (Proc.devRef .tc main_arg1) := by
  refine (congrArg (fun l => after l L (Proc.devRef .tc main_arg1)) ops_split).trans ?_
  simp only [StableHlo.after_append]
  rw [keepR_arg1, keepG4_arg1, keepU3_arg1, keepG3_arg1, keepU2_arg1, keepG2_arg1, keepU1_arg1, keepG1_arg1, keepP3_arg1, keepP2_arg1, keepP1_arg1, keepE_arg1]

/-- No piece writes `main_arg2`. -/
theorem keeps_arg2 (L : Valuation τ sig (Elt F)) : after ops L (Proc.devRef .tc main_arg2) = L (Proc.devRef .tc main_arg2) := by
  refine (congrArg (fun l => after l L (Proc.devRef .tc main_arg2)) ops_split).trans ?_
  simp only [StableHlo.after_append]
  rw [keepR_arg2, keepG4_arg2, keepU3_arg2, keepG3_arg2, keepU2_arg2, keepG2_arg2, keepU1_arg2, keepG1_arg2, keepP3_arg2, keepP2_arg2, keepP1_arg2, keepE_arg2]

/-- No piece writes `main_arg3`. -/
theorem keeps_arg3 (L : Valuation τ sig (Elt F)) : after ops L (Proc.devRef .tc main_arg3) = L (Proc.devRef .tc main_arg3) := by
  refine (congrArg (fun l => after l L (Proc.devRef .tc main_arg3)) ops_split).trans ?_
  simp only [StableHlo.after_append]
  rw [keepR_arg3, keepG4_arg3, keepU3_arg3, keepG3_arg3, keepU2_arg3, keepG2_arg3, keepU1_arg3, keepG1_arg3, keepP3_arg3, keepP2_arg3, keepP1_arg3, keepE_arg3]

/-- No piece writes `main_arg4`. -/
theorem keeps_arg4 (L : Valuation τ sig (Elt F)) : after ops L (Proc.devRef .tc main_arg4) = L (Proc.devRef .tc main_arg4) := by
  refine (congrArg (fun l => after l L (Proc.devRef .tc main_arg4)) ops_split).trans ?_
  simp only [StableHlo.after_append]
  rw [keepR_arg4, keepG4_arg4, keepU3_arg4, keepG3_arg4, keepU2_arg4, keepG2_arg4, keepU1_arg4, keepG1_arg4, keepP3_arg4, keepP2_arg4, keepP1_arg4, keepE_arg4]

/-- No piece writes `main_arg5`. -/
theorem keeps_arg5 (L : Valuation τ sig (Elt F)) : after ops L (Proc.devRef .tc main_arg5) = L (Proc.devRef .tc main_arg5) := by
  refine (congrArg (fun l => after l L (Proc.devRef .tc main_arg5)) ops_split).trans ?_
  simp only [StableHlo.after_append]
  rw [keepR_arg5, keepG4_arg5, keepU3_arg5, keepG3_arg5, keepU2_arg5, keepG2_arg5, keepU1_arg5, keepG1_arg5, keepP3_arg5, keepP2_arg5, keepP1_arg5, keepE_arg5]
/-- Every weakly fair execution of the reference terminates, faultless, with its result at `networkT` of the launch
    contents of its arguments, and the arguments as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v107) = networkT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v107).trans (result_eq _),
      (h c main_arg0).trans (keeps_arg0 _), (h c main_arg1).trans (keeps_arg1 _), (h c main_arg2).trans (keeps_arg2 _),
      (h c main_arg3).trans (keeps_arg3 _), (h c main_arg4).trans (keeps_arg4 _), (h c main_arg5).trans (keeps_arg5 _)⟩)
    (run_seq scopedRefs_eq scopedSems_eq defs main (fun _ => ops) main_eq (fun _ => ops_sub) m ρ)

end Cert.ReferenceIdeal.RefRun

end
-- ==== Proof.Feats.lean ====
/-
  The network's intermediate feature arrays by name, so that the kernel's stages can be stated one at a time:
  `sparse h e` is one sparse product of the features `h` over the graph of the edge list `e`, `diffuse h e` one
  diffusion step, and the network is the read-out of three diffusions of the embedding beside their sparse product.
-/
import proofs.«135370_j4475355922586_2_alg».proof.Proof.Terms

noncomputable section

namespace Cert.Diffusion

open Idealize.ShloMosaic Idealize.SL.Sem Cert.ReferenceIdeal Cert.ReferenceIdeal.Gen

variable {F : FTy → Type} [FloatOps F]

/-- Every edge's normalisation, from the edge list alone. -/
def normE (e : Arr F S2x1600000 .i32) : Arr F S1700000 .f32 :=
  normT (dinvT (dstT e) wT) (srcT e) (dstT e) wT

/-- One sparse product of the features `h` over the graph of `e`. -/
def sparse (h : Arr F S100000x64 .f32) (e : Arr F S2x1600000 .i32) : Arr F S100000x64 .f32 :=
  aggT h (srcT e) (dstT e) (normE e)

/-- One diffusion step of the features `h` over the graph of `e`. -/
def diffuse (h : Arr F S100000x64 .f32) (e : Arr F S2x1600000 .i32) : Arr F S100000x64 .f32 :=
  stepT h (sparse h e)

/-- The network, by stages. -/
theorem networkT_eq (x : Arr F S100000x128 .f32) (e : Arr F S2x1600000 .i32) (w : Arr F S128x64 .f32) (b : Arr F S64 .f32)
    (w' : Arr F S64x64 .f32) (b' : Arr F S64 .f32) :
    networkT x e w b w' b' = readoutT (diffuse (diffuse (diffuse (embedT x w b) e) e) e)
      (sparse (diffuse (diffuse (diffuse (embedT x w b) e) e) e) e) w' b' := rfl

end Cert.Diffusion

end
-- ==== Proof.StepBlocks.lean ====
/-
  The three pallas_calls that make a diffusion step, each read as ONE function of whole arrays.
  A call walks ten row blocks of 10000 rows; at block `t` its body loads the blocks of the features `h` and of the
  sparse product `a`, and stores `h - 0.1 · a` into the output's block. Since all three windows sit at the same
  rows, what is written back is block `t` of the whole-array step `stepT h a`, and the ten blocks tile the output:
  the output array ends at `stepT h a`, whatever contents `V` the region was entered with.
-/
import proofs.«135370_j4475355922586_2_alg».proof.Proof.Gen.KernelIdeal.Frame
import proofs.«135370_j4475355922586_2_alg».proof.Proof.Terms
import Idealize.ShloMosaic.Lib.Pipeline.Value
import Idealize.ShloMosaic.Lib.ValueIdx
import Idealize.ShloMosaic.PureOps.Ideal.Laws

set_option maxRecDepth 16384

noncomputable section

namespace Cert.KernelIdeal.Blocks

open Idealize.ShloMosaic Idealize.ShloMosaic.TcCoe Idealize.SL.Sem
open Idealize.ShloMosaic.Pipeline (Dat Cfg Window)
open Cert.KernelIdeal Cert.KernelIdeal.Gen
open Cert.Diffusion

variable (V : (c : Dev nD) → (b : Ref sig .tc) → Buf (Elt Ideal) ((c : Thread nD τ).loc b))

/-- A block's offset inside its staging buffer is zero on both axes. -/
theorem hz2 : (![0, 0] : Fin 2 → Nat) = fun _ => 0 := funext fun a => by fin_cases a <;> rfl

/-! ## Diffusion step 1 (the second pallas_call): `main_v49 = main_v0 - 0.1 · main_v48`, ten row blocks of 10000 -/

/-- The body's value at an index of a block: the block of features there, less a tenth of the block of the sparse
    product there (the casts to the block's own shape are the identity). -/
theorem step1_pay (x0 x1 : Vec Ideal S10000x64 .f32) (j : S10000x64.Idx) :
    k1_pay1 x0 x1 j = FloatOps.subf (x0 j) (FloatOps.mulf (Scalar.ofBits .f32 0x3DCCCCCD#32) (x1 j)) := by
  unfold k1_pay1
  simp only [shapeCast_self]
  rfl

/-- All three windows walk the rows together: at point `t` each is at row block `t`, column block `0`. -/
theorem idx_facts1 : ∀ t : Fin cfg1.N, win1_0.index t (0 : Fin 2) = win1_2.index t (0 : Fin 2)
    ∧ win1_0.index t (1 : Fin 2) = win1_2.index t (1 : Fin 2)
    ∧ win1_1.index t (0 : Fin 2) = win1_2.index t (0 : Fin 2)
    ∧ win1_1.index t (1 : Fin 2) = win1_2.index t (1 : Fin 2)
    ∧ win1_2.index t (0 : Fin 2) = t.val ∧ win1_2.index t (1 : Fin 2) = 0 :=
  (by decide +kernel : ∀ t : Fin grid1.N, _)

/-- What point `t` writes back is block `t` of the step of the two whole arrays. -/
theorem flushed1_eq (c : Dev nD) (t : Fin cfg1.N) :
    (dat1 V c).flushed 2 t = ((cfg1.win 2).blk t).view.read (Elt Ideal) (stepT (V c main_v0) (V c main_v48)) := by
  show (cfg1.win 2).cut (grid1.coords t) ((dat1 V c).after 2 t) = _
  rw [after1_2]
  unfold out1_2
  rw [View.canon_unit_zero hz2]
  simp only [View.ld_unit_zero (S := S10000x64) hz2]
  obtain ⟨e0, e1, e2, e3, e4, e5⟩ := idx_facts1 t
  funext j
  show k1_pay1 (iblk1 V c 0 t) (iblk1 V c 1 t) j = stepT (V c main_v0) (V c main_v48) (((cfg1.win 2).blk t).view.emb j)
  refine (step1_pay (iblk1 V c 0 t) (iblk1 V c 1 t) j).trans ?_
  show FloatOps.subf (F := Ideal) (V c main_v0 (((cfg1.win 0).blk t).view.emb j)) (FloatOps.mulf (F := Ideal) (Scalar.ofBits .f32 0x3DCCCCCD#32) (V c main_v48 (((cfg1.win 1).blk t).view.emb j))) = _
  have h0 : ((cfg1.win 0).blk t).view.emb j = ((cfg1.win 2).blk t).view.emb j := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 64 + 1 * (j 1).val = win1_2.index t (1 : Fin 2) * 64 + 1 * (j 1).val; omega
  have h1 : ((cfg1.win 1).blk t).view.emb j = ((cfg1.win 2).blk t).view.emb j := by
    funext a; apply Fin.ext
    match a with
    | ⟨0, _⟩ => show win1_1.index t (0 : Fin 2) * 10000 + 1 * (j 0).val = win1_2.index t (0 : Fin 2) * 10000 + 1 * (j 0).val; omega
    | ⟨1, _⟩ => show win1_1.index t (1 : Fin 2) * 64 + 1 * (j 1).val = win1_2.index t (1 : Fin 2) * 64 + 1 * (j 1).val; omega
  rw [h0, h1]
  rfl

/-- An index of the array lies in point `t`'s block iff each coordinate lies in the block's range on its axis. -/
theorem mem_blk1 (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v49).slice (win1_2.rect t)).set ↔ _
  rw [View.set_slice_whole, Rect.mem_set_unit]
  exact Iff.rfl

/-- Row `r` is written by point `r / 10000`: the ten blocks tile the array. -/
theorem cover1 (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  have hN : grid1.N = 10 := N_1
  have ht : (i 0).val / 10000 < cfg1.N := by show _ < grid1.N; rw [hN]; omega
  obtain ⟨e0, e1, e2, e3, e4, e5⟩ := idx_facts1 ⟨(i 0).val / 10000, ht⟩
  refine ⟨⟨(i 0).val / 10000, ht⟩, flush1_2 _, ?_⟩
  rw [mem_blk1]
  intro a
  match a with
  | ⟨0, _⟩ =>
    show win1_2.index ⟨(i 0).val / 10000, ht⟩ (0 : Fin 2) * 10000 ≤ (i 0).val ∧ (i 0).val < win1_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win1_2.index ⟨(i 0).val / 10000, ht⟩ (1 : Fin 2) * 64 ≤ (i 1).val ∧ (i 1).val < win1_2.index ⟨(i 0).val / 10000, ht⟩ (1 : Fin 2) * 64 + 64
    rw [e5]; omega

/-- The output array after the region: the diffusion step of the two input arrays as the region found them. -/
theorem final1 (c : Dev nD) : (dat1 V c).arrAt 2 cfg1.N = stepT (V c main_v0) (V c main_v48) :=
  (dat1 V c).arrAt_eq_of_cover 2 _ (fun t _ => flushed1_eq V c t) cover1

/-! ## Diffusion step 2 (the third pallas_call): `main_v63 = main_v49 - 0.1 · main_v62`, ten row blocks of 10000 -/

/-- The body's value at an index of a block: the block of features there, less a tenth of the block of the sparse
    product there (the casts to the block's own shape are the identity). -/
theorem step2_pay (x0 x1 : Vec Ideal S10000x64 .f32) (j : S10000x64.Idx) :
    k2_pay1 x0 x1 j = FloatOps.subf (x0 j) (FloatOps.mulf (Scalar.ofBits .f32 0x3DCCCCCD#32) (x1 j)) := by
  unfold k2_pay1
  simp only [shapeCast_self]
  rfl

/-- All three windows walk the rows together: at point `t` each is at row block `t`, column block `0`. -/
theorem idx_facts2 : ∀ t : Fin cfg2.N, win2_0.index t (0 : Fin 2) = win2_2.index t (0 : Fin 2)
    ∧ win2_0.index t (1 : Fin 2) = win2_2.index t (1 : Fin 2)
    ∧ win2_1.index t (0 : Fin 2) = win2_2.index t (0 : Fin 2)
    ∧ win2_1.index t (1 : Fin 2) = win2_2.index t (1 : Fin 2)
    ∧ win2_2.index t (0 : Fin 2) = t.val ∧ win2_2.index t (1 : Fin 2) = 0 :=
  (by decide +kernel : ∀ t : Fin grid2.N, _)

/-- What point `t` writes back is block `t` of the step of the two whole arrays. -/
theorem flushed2_eq (c : Dev nD) (t : Fin cfg2.N) :
    (dat2 V c).flushed 2 t = ((cfg2.win 2).blk t).view.read (Elt Ideal) (stepT (V c main_v49) (V c main_v62)) := by
  show (cfg2.win 2).cut (grid2.coords t) ((dat2 V c).after 2 t) = _
  rw [after2_2]
  unfold out2_2
  rw [View.canon_unit_zero hz2]
  simp only [View.ld_unit_zero (S := S10000x64) hz2]
  obtain ⟨e0, e1, e2, e3, e4, e5⟩ := idx_facts2 t
  funext j
  show k2_pay1 (iblk2 V c 0 t) (iblk2 V c 1 t) j = stepT (V c main_v49) (V c main_v62) (((cfg2.win 2).blk t).view.emb j)
  refine (step2_pay (iblk2 V c 0 t) (iblk2 V c 1 t) j).trans ?_
  show FloatOps.subf (F := Ideal) (V c main_v49 (((cfg2.win 0).blk t).view.emb j)) (FloatOps.mulf (F := Ideal) (Scalar.ofBits .f32 0x3DCCCCCD#32) (V c main_v62 (((cfg2.win 1).blk t).view.emb j))) = _
  have h0 : ((cfg2.win 0).blk t).view.emb j = ((cfg2.win 2).blk t).view.emb j := by
    funext a; apply Fin.ext
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 64 + 1 * (j 1).val = win2_2.index t (1 : Fin 2) * 64 + 1 * (j 1).val; omega
  have h1 : ((cfg2.win 1).blk t).view.emb j = ((cfg2.win 2).blk t).view.emb j := by
    funext a; apply Fin.ext
    match a with
    | ⟨0, _⟩ => show win2_1.index t (0 : Fin 2) * 10000 + 1 * (j 0).val = win2_2.index t (0 : Fin 2) * 10000 + 1 * (j 0).val; omega
    | ⟨1, _⟩ => show win2_1.index t (1 : Fin 2) * 64 + 1 * (j 1).val = win2_2.index t (1 : Fin 2) * 64 + 1 * (j 1).val; omega
  rw [h0, h1]
  rfl

/-- An index of the array lies in point `t`'s block iff each coordinate lies in the block's range on its axis. -/
theorem mem_blk2 (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v63).slice (win2_2.rect t)).set ↔ _
  rw [View.set_slice_whole, Rect.mem_set_unit]
  exact Iff.rfl

/-- Row `r` is written by point `r / 10000`: the ten blocks tile the array. -/
theorem cover2 (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  have hN : grid2.N = 10 := N_2
  have ht : (i 0).val / 10000 < cfg2.N := by show _ < grid2.N; rw [hN]; omega
  obtain ⟨e0, e1, e2, e3, e4, e5⟩ := idx_facts2 ⟨(i 0).val / 10000, ht⟩
  refine ⟨⟨(i 0).val / 10000, ht⟩, flush2_2 _, ?_⟩
  rw [mem_blk2]
  intro a
  match a with
  | ⟨0, _⟩ =>
    show win2_2.index ⟨(i 0).val / 10000, ht⟩ (0 : Fin 2) * 10000 ≤ (i 0).val ∧ (i 0).val < win2_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win2_2.index ⟨(i 0).val / 10000, ht⟩ (1 : Fin 2) * 64 ≤ (i 1).val ∧ (i 1).val < win2_2.index ⟨(i 0).val / 10000, ht⟩ (1 : Fin 2) * 64 + 64
    rw [e5]; omega

/-- The output array after the region: the diffusion step of the two input arrays as the region found them. -/
theorem final2 (c : Dev nD) : (dat2 V c).arrAt 2 cfg2.N = stepT (V c main_v49) (V c main_v62) :=
  (dat2 V c).arrAt_eq_of_cover 2 _ (fun t _ => flushed2_eq V c t) cover2

/-! ## Diffusion step 3 (the fourth pallas_call): `main_v77 = main_v63 - 0.1 · main_v76`, ten row blocks of 10000 -/

/-- The body's value at an index of a block: the block of features there, less a tenth of the block of the sparse
    product there (the casts to the block's own shape are the identity). -/
theorem step3_pay (x0 x1 : Vec Ideal S10000x64 .f32) (j : S10000x64.Idx) :
    k3_pay1 x0 x1 j = FloatOps.subf (x0 j) (FloatOps.mulf (Scalar.ofBits .f32 0x3DCCCCCD#32) (x1 j)) := by
  unfold k3_pay1
  simp only [shapeCast_self]
  rfl

/-- All three windows walk the rows together: at point `t` each is at row block `t`, column block `0`. -/
theorem idx_facts3 : ∀ t : Fin cfg3.N, win3_0.index t (0 : Fin 2) = win3_2.index t (0 : Fin 2)
    ∧ win3_0.index t (1 : Fin 2) = win3_2.index t (1 : Fin 2)
    ∧ win3_1.index t (0 : Fin 2) = win3_2.index t (0 : Fin 2)
    ∧ win3_1.index t (1 : Fin 2) = win3_2.index t (1 : Fin 2)
    ∧ win3_2.index t (0 : Fin 2) = t.val ∧ win3_2.index t (1 : Fin 2) = 0 :=
  (by decide +kernel : ∀ t : Fin grid3.N, _)

/-- What point `t` writes back is block `t` of the step of the two whole arrays. -/
theorem flushed3_eq (c : Dev nD) (t : Fin cfg3.N) :
    (dat3 V c).flushed 2 t = ((cfg3.win 2).blk t).view.read (Elt Ideal) (stepT (V c main_v63) (V c main_v76)) := by
  show (cfg3.win 2).cut (grid3.coords t) ((dat3 V c).after 2 t) = _
  rw [after3_2]
  unfold out3_2
  rw [View.canon_unit_zero hz2]
  simp only [View.ld_unit_zero (S := S10000x64) hz2]
  obtain ⟨e0, e1, e2, e3, e4, e5⟩ := idx_facts3 t
  funext j
  show k3_pay1 (iblk3 V c 0 t) (iblk3 V c 1 t) j = stepT (V c main_v63) (V c main_v76) (((cfg3.win 2).blk t).view.emb j)
  refine (step3_pay (iblk3 V c 0 t) (iblk3 V c 1 t) j).trans ?_
  show FloatOps.subf (F := Ideal) (V c main_v63 (((cfg3.win 0).blk t).view.emb j)) (FloatOps.mulf (F := Ideal) (Scalar.ofBits .f32 0x3DCCCCCD#32) (V c main_v76 (((cfg3.win 1).blk t).view.emb j))) = _
  have h0 : ((cfg3.win 0).blk t).view.emb j = ((cfg3.win 2).blk t).view.emb j := by
    funext a; apply Fin.ext
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 64 + 1 * (j 1).val = win3_2.index t (1 : Fin 2) * 64 + 1 * (j 1).val; omega
  have h1 : ((cfg3.win 1).blk t).view.emb j = ((cfg3.win 2).blk t).view.emb j := by
    funext a; apply Fin.ext
    match a with
    | ⟨0, _⟩ => show win3_1.index t (0 : Fin 2) * 10000 + 1 * (j 0).val = win3_2.index t (0 : Fin 2) * 10000 + 1 * (j 0).val; omega
    | ⟨1, _⟩ => show win3_1.index t (1 : Fin 2) * 64 + 1 * (j 1).val = win3_2.index t (1 : Fin 2) * 64 + 1 * (j 1).val; omega
  rw [h0, h1]
  rfl

/-- An index of the array lies in point `t`'s block iff each coordinate lies in the block's range on its axis. -/
theorem mem_blk3 (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v77).slice (win3_2.rect t)).set ↔ _
  rw [View.set_slice_whole, Rect.mem_set_unit]
  exact Iff.rfl

/-- Row `r` is written by point `r / 10000`: the ten blocks tile the array. -/
theorem cover3 (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  have hN : grid3.N = 10 := N_3
  have ht : (i 0).val / 10000 < cfg3.N := by show _ < grid3.N; rw [hN]; omega
  obtain ⟨e0, e1, e2, e3, e4, e5⟩ := idx_facts3 ⟨(i 0).val / 10000, ht⟩
  refine ⟨⟨(i 0).val / 10000, ht⟩, flush3_2 _, ?_⟩
  rw [mem_blk3]
  intro a
  match a with
  | ⟨0, _⟩ =>
    show win3_2.index ⟨(i 0).val / 10000, ht⟩ (0 : Fin 2) * 10000 ≤ (i 0).val ∧ (i 0).val < win3_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win3_2.index ⟨(i 0).val / 10000, ht⟩ (1 : Fin 2) * 64 ≤ (i 1).val ∧ (i 1).val < win3_2.index ⟨(i 0).val / 10000, ht⟩ (1 : Fin 2) * 64 + 64
    rw [e5]; omega

/-- The output array after the region: the diffusion step of the two input arrays as the region found them. -/
theorem final3 (c : Dev nD) : (dat3 V c).arrAt 2 cfg3.N = stepT (V c main_v63) (V c main_v76) :=
  (dat3 V c).arrAt_eq_of_cover 2 _ (fun t _ => flushed3_eq V c t) cover3

end Cert.KernelIdeal.Blocks

end
-- ==== Proof.TermsAt.lean ====
/-
  The two matrix stages of the network read at an index, over the extended reals. There the host's `dot_general`
  is the plain contraction: entry `(r, c)` of `x · W` is the sum over `k` of `x (r, k) · W (k, c)`, and the bias
  broadcast along the rows adds `b c`. These are the forms the kernel's block products are matched with.
-/
import proofs.«135370_j4475355922586_2_alg».proof.Proof.Terms
import Idealize.ShloMosaic.Lib.Pipeline.Value
import Idealize.ShloMosaic.Lib.ValueIdx
import Idealize.ShloMosaic.PureOps.Ideal.Laws

noncomputable section

namespace Cert.Diffusion

open Idealize.ShloMosaic Idealize.SL.Sem Cert.ReferenceIdeal Cert.ReferenceIdeal.Gen

/-- The entries the embedding's product reads for output entry `i`. -/
abbrev edot_l (i : S100000x64.Idx) (k : Fin 128) : S100000x128.Idx := fun a => match a with
  | ⟨0, _⟩ => ⟨(i 0).val, (i 0).isLt⟩
  | ⟨1, _⟩ => ⟨k.val, k.isLt⟩
abbrev edot_r (i : S100000x64.Idx) (k : Fin 128) : S128x64.Idx := fun a => match a with
  | ⟨0, _⟩ => ⟨k.val, k.isLt⟩
  | ⟨1, _⟩ => ⟨(i 1).val, (i 1).isLt⟩
theorem edot_l0 (i : S100000x64.Idx) (q : dot_S100000x128_S128x64_S100000x64_1_0_0_1_n_n.contr.Idx) : (dot_S100000x128_S128x64_S100000x64_1_0_0_1_n_n.lhsIdx i q 0).val = (i 0).val := by
  unfold DotDims.lhsIdx
  rw [dif_neg (show ¬(0 : Fin S100000x128.rank) ∈ dot_S100000x128_S128x64_S100000x64_1_0_0_1_n_n.lhsBatch by decide), dif_pos (show (0 : Fin S100000x128.rank) ∈ dot_S100000x128_S128x64_S100000x64_1_0_0_1_n_n.lhsNonContracting by decide)]
  rfl
theorem edot_l1 (i : S100000x64.Idx) (q : dot_S100000x128_S128x64_S100000x64_1_0_0_1_n_n.contr.Idx) : (dot_S100000x128_S128x64_S100000x64_1_0_0_1_n_n.lhsIdx i q 1).val = (q ⟨0, by decide⟩).val :=
  dot_S100000x128_S128x64_S100000x64_1_0_0_1_n_n.lhsIdx_val_of_single rfl i q
theorem edot_r0 (i : S100000x64.Idx) (q : dot_S100000x128_S128x64_S100000x64_1_0_0_1_n_n.contr.Idx) : (dot_S100000x128_S128x64_S100000x64_1_0_0_1_n_n.rhsIdx i q 0).val = (q ⟨0, by decide⟩).val :=
  dot_S100000x128_S128x64_S100000x64_1_0_0_1_n_n.rhsIdx_val_of_single rfl i q
theorem edot_r1 (i : S100000x64.Idx) (q : dot_S100000x128_S128x64_S100000x64_1_0_0_1_n_n.contr.Idx) : (dot_S100000x128_S128x64_S100000x64_1_0_0_1_n_n.rhsIdx i q 1).val = (i 1).val := by
  unfold DotDims.rhsIdx
  rw [dif_neg (show ¬(1 : Fin S128x64.rank) ∈ dot_S100000x128_S128x64_S100000x64_1_0_0_1_n_n.rhsBatch by decide), dif_pos (show (1 : Fin S128x64.rank) ∈ dot_S100000x128_S128x64_S100000x64_1_0_0_1_n_n.rhsNonContracting by decide)]
  rfl
/-- The contraction of this product, spelt over the contracted axis `k < 128`: row `i 0` of the left factor against
    column `i 1` of the right one. -/
theorem edot_sum (l : S100000x128.Idx → EReal) (r : S128x64.Idx → EReal) (i : S100000x64.Idx) :
    (∑ q : dot_S100000x128_S128x64_S100000x64_1_0_0_1_n_n.contr.Idx, l (dot_S100000x128_S128x64_S100000x64_1_0_0_1_n_n.lhsIdx i q) * r (dot_S100000x128_S128x64_S100000x64_1_0_0_1_n_n.rhsIdx i q)) = ∑ k : Fin 128, l (edot_l i k) * r (edot_r i k) := by
  rw [← Equiv.sum_comp (ValueIdx.contrEquiv1 dot_S100000x128_S128x64_S100000x64_1_0_0_1_n_n 128 rfl rfl).symm]
  refine Finset.sum_congr rfl fun k _ => ?_
  have hk := ValueIdx.contrEquiv1_symm_val dot_S100000x128_S128x64_S100000x64_1_0_0_1_n_n 128 rfl rfl k
  have el : dot_S100000x128_S128x64_S100000x64_1_0_0_1_n_n.lhsIdx i ((ValueIdx.contrEquiv1 dot_S100000x128_S128x64_S100000x64_1_0_0_1_n_n 128 rfl rfl).symm k) = edot_l i k := funext fun a => Fin.ext (by
    match a with
    | ⟨0, _⟩ => exact edot_l0 _ _
    | ⟨1, _⟩ => exact (edot_l1 _ _).trans hk)
  have er : dot_S100000x128_S128x64_S100000x64_1_0_0_1_n_n.rhsIdx i ((ValueIdx.contrEquiv1 dot_S100000x128_S128x64_S100000x64_1_0_0_1_n_n 128 rfl rfl).symm k) = edot_r i k := funext fun a => Fin.ext (by
    match a with
    | ⟨0, _⟩ => exact (edot_r0 _ _).trans hk
    | ⟨1, _⟩ => exact edot_r1 _ _)
  rw [el, er]

/-- The entries the read-out's product reads for output entry `i`. -/
abbrev rdot_l (i : S100000x64.Idx) (k : Fin 64) : S100000x64.Idx := fun a => match a with
  | ⟨0, _⟩ => ⟨(i 0).val, (i 0).isLt⟩
  | ⟨1, _⟩ => ⟨k.val, k.isLt⟩
abbrev rdot_r (i : S100000x64.Idx) (k : Fin 64) : S64x64.Idx := fun a => match a with
  | ⟨0, _⟩ => ⟨k.val, k.isLt⟩
  | ⟨1, _⟩ => ⟨(i 1).val, (i 1).isLt⟩
theorem rdot_l0 (i : S100000x64.Idx) (q : dot_S100000x64_S64x64_S100000x64_1_0_0_1_n_n.contr.Idx) : (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch by decide), dif_pos (show (0 : Fin S100000x64.rank) ∈ dot_S100000x64_S64x64_S100000x64_1_0_0_1_n_n.lhsNonContracting by decide)]
  rfl
theorem rdot_l1 (i : S100000x64.Idx) (q : dot_S100000x64_S64x64_S100000x64_1_0_0_1_n_n.contr.Idx) : (dot_S100000x64_S64x64_S100000x64_1_0_0_1_n_n.lhsIdx i q 1).val = (q ⟨0, by decide⟩).val :=
  dot_S100000x64_S64x64_S100000x64_1_0_0_1_n_n.lhsIdx_val_of_single rfl i q
theorem rdot_r0 (i : S100000x64.Idx) (q : dot_S100000x64_S64x64_S100000x64_1_0_0_1_n_n.contr.Idx) : (dot_S100000x64_S64x64_S100000x64_1_0_0_1_n_n.rhsIdx i q 0).val = (q ⟨0, by decide⟩).val :=
  dot_S100000x64_S64x64_S100000x64_1_0_0_1_n_n.rhsIdx_val_of_single rfl i q
theorem rdot_r1 (i : S100000x64.Idx) (q : dot_S100000x64_S64x64_S100000x64_1_0_0_1_n_n.contr.Idx) : (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch by decide), dif_pos (show (1 : Fin S64x64.rank) ∈ dot_S100000x64_S64x64_S100000x64_1_0_0_1_n_n.rhsNonContracting by decide)]
  rfl
/-- The contraction of this product, spelt over the contracted axis `k < 64`: row `i 0` of the left factor against
    column `i 1` of the right one. -/
theorem rdot_sum (l : S100000x64.Idx → EReal) (r : S64x64.Idx → EReal) (i : S100000x64.Idx) :
    (∑ q : dot_S100000x64_S64x64_S100000x64_1_0_0_1_n_n.contr.Idx, l (dot_S100000x64_S64x64_S100000x64_1_0_0_1_n_n.lhsIdx i q) * r (dot_S100000x64_S64x64_S100000x64_1_0_0_1_n_n.rhsIdx i q)) = ∑ k : Fin 64, l (rdot_l i k) * r (rdot_r i k) := by
  rw [← Equiv.sum_comp (ValueIdx.contrEquiv1 dot_S100000x64_S64x64_S100000x64_1_0_0_1_n_n 64 rfl rfl).symm]
  refine Finset.sum_congr rfl fun k _ => ?_
  have hk := ValueIdx.contrEquiv1_symm_val dot_S100000x64_S64x64_S100000x64_1_0_0_1_n_n 64 rfl rfl k
  have el : dot_S100000x64_S64x64_S100000x64_1_0_0_1_n_n.lhsIdx i ((ValueIdx.contrEquiv1 dot_S100000x64_S64x64_S100000x64_1_0_0_1_n_n 64 rfl rfl).symm k) = rdot_l i k := funext fun a => Fin.ext (by
    match a with
    | ⟨0, _⟩ => exact rdot_l0 _ _
    | ⟨1, _⟩ => exact (rdot_l1 _ _).trans hk)
  have er : dot_S100000x64_S64x64_S100000x64_1_0_0_1_n_n.rhsIdx i ((ValueIdx.contrEquiv1 dot_S100000x64_S64x64_S100000x64_1_0_0_1_n_n 64 rfl rfl).symm k) = rdot_r i k := funext fun a => Fin.ext (by
    match a with
    | ⟨0, _⟩ => exact (rdot_r0 _ _).trans hk
    | ⟨1, _⟩ => exact rdot_r1 _ _)
  rw [el, er]

/-- The bias entry an output index reads: its column. -/
abbrev colAt (i : S100000x64.Idx) : S64.Idx := fun a => match a with
  | ⟨0, _⟩ => ⟨(i 1).val, (i 1).isLt⟩
/-- The same through the intermediate row `[1, 64]`. -/
abbrev rowAt (i : S100000x64.Idx) : S1x64.Idx := fun a => match a with
  | ⟨0, _⟩ => ⟨0, Nat.one_pos⟩
  | ⟨1, _⟩ => ⟨(i 1).val, (i 1).isLt⟩

/-- A bias broadcast to a row and then along the rows, read at an index: the bias at the column. -/
theorem bias_apply {α : Type} (b : S64.Idx → α) (i : S100000x64.Idx) :
    broadcastInDim S100000x64 ![0, 1] bcast_S1x64_S100000x64_0_1 (broadcastInDim S1x64 ![1] bcast_S64_S1x64_1 b) i = b (colAt i) := by
  rw [broadcastInDim_apply _ bcast_S1x64_S100000x64_0_1 (broadcastInDim S1x64 ![1] bcast_S64_S1x64_1 b) i (rowAt i) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])]
  exact broadcastInDim_apply _ bcast_S64_S1x64_1 b (rowAt i) (colAt i) (fun a => match a with
    | ⟨0, _⟩ => by show (i 1).val = if (64 : Nat) = 1 then 0 else (i 1).val; rw [if_neg (by decide)])

/-- The embedding at an index: row `i 0` of `x` against column `i 1` of `W`, plus the bias at the column. -/
theorem embedT_apply (x : Arr Ideal S100000x128 .f32) (w : Arr Ideal S128x64 .f32) (b : Arr Ideal S64 .f32) (i : S100000x64.Idx) :
    embedT x w b i = (∑ k : Fin 128, x (edot_l i k) * w (edot_r i k)) + b (colAt i) := by
  unfold embedT
  show (Host.dotGeneral (F := Ideal) dot_S100000x128_S128x64_S100000x64_1_0_0_1_n_n none x w i : EReal)
    + (broadcastInDim S100000x64 ![0, 1] bcast_S1x64_S100000x64_0_1 (broadcastInDim S1x64 ![1] bcast_S64_S1x64_1 b) i : EReal) = _
  rw [bias_apply]
  refine congrArg (· + b (colAt i)) ?_
  simp only [Host.dotGeneral]
  exact (Ideal.dotGeneral_apply _ _ _ x w i).trans (edot_sum x w i)

/-- One diffusion step at an index. -/
theorem stepT_apply (h a : Arr Ideal S100000x64 .f32) (i : S100000x64.Idx) :
    stepT h a i = h i - Ideal.ofBits .f32 0x3DCCCCCD#32 * a i := rfl

/-- The read-out at an index: the hyperbolic tangent of the stepped row `i 0` against column `i 1` of `W`, plus the
    bias at the column. -/
theorem readoutT_apply (h a : Arr Ideal S100000x64 .f32) (w : Arr Ideal S64x64 .f32) (b : Arr Ideal S64 .f32) (i : S100000x64.Idx) :
    readoutT h a w b i = (∑ k : Fin 64, Ideal.tanh (h (rdot_l i k) - Ideal.ofBits .f32 0x3DCCCCCD#32 * a (rdot_l i k)) * w (rdot_r i k)) + b (colAt i) := by
  unfold readoutT
  show (Host.dotGeneral (F := Ideal) dot_S100000x64_S64x64_S100000x64_1_0_0_1_n_n none (Host.tanh (stepT h a)) w i : EReal)
    + (broadcastInDim S100000x64 ![0, 1] bcast_S1x64_S100000x64_0_1 (broadcastInDim S1x64 ![1] bcast_S64_S1x64_1 b) i : EReal) = _
  rw [bias_apply]
  refine congrArg (· + b (colAt i)) ?_
  simp only [Host.dotGeneral]
  exact (Ideal.dotGeneral_apply _ _ _ (Host.tanh (stepT h a)) w i).trans (rdot_sum (Host.tanh (stepT h a)) w i)

end Cert.Diffusion

end
-- ==== Proof.EmbedBlocks.lean ====
/-
  The first pallas_call — the embedding `x · W + b` — read as ONE function of whole arrays, over the extended reals.
  The call walks ten row blocks of 10000 rows; at block `t` its body loads rows `10000 t …` of `x`, all of `W` and
  all of `b`, rounds the two factors to bf16 (the identity on extended reals), multiplies them on the matrix unit
  into a zero accumulator and adds the bias along the rows. Entry `(r, c)` of the stored block is therefore the sum
  over `k` of `x (10000 t + r, k) · W (k, c)` plus `b c`: entry `(10000 t + r, c)` of the whole-array embedding
  `embedT x W b`, as the reference's `dot_general` reads it. The ten blocks tile the output.
-/
import proofs.«135370_j4475355922586_2_alg».proof.Proof.Gen.KernelIdeal.Frame
import proofs.«135370_j4475355922586_2_alg».proof.Proof.Terms
import Idealize.ShloMosaic.Lib.Pipeline.Value
import Idealize.ShloMosaic.Lib.ValueIdx
import Idealize.ShloMosaic.PureOps.Ideal.Laws
import proofs.«135370_j4475355922586_2_alg».proof.Proof.TermsAt
import proofs.«135370_j4475355922586_2_alg».proof.Proof.StepBlocks
set_option maxRecDepth 16384

noncomputable section

namespace Cert.KernelIdeal.Blocks

open Idealize.ShloMosaic Idealize.ShloMosaic.TcCoe Idealize.SL.Sem
open Idealize.ShloMosaic.Pipeline (Dat Cfg Window)
open Cert.KernelIdeal Cert.KernelIdeal.Gen
open Cert.Diffusion

variable (V : (c : Dev nD) → (b : Ref sig .tc) → Buf (Elt Ideal) ((c : Thread nD τ).loc b))

/-- A block's offset inside a rank-one staging buffer is zero. -/
theorem hz1 : (![0] : Fin 1 → Nat) = fun _ => 0 := funext fun a => by fin_cases a; rfl

/-- The entries the embedding's block product reads for entry `i` of the block. -/
abbrev kdot0_l (i : S10000x64.Idx) (k : Fin 128) : S10000x128.Idx := fun a => match a with
  | ⟨0, _⟩ => ⟨(i 0).val, (i 0).isLt⟩
  | ⟨1, _⟩ => ⟨k.val, k.isLt⟩
abbrev kdot0_r (i : S10000x64.Idx) (k : Fin 128) : S128x64.Idx := fun a => match a with
  | ⟨0, _⟩ => ⟨k.val, k.isLt⟩
  | ⟨1, _⟩ => ⟨(i 1).val, (i 1).isLt⟩
theorem kdot0_l0 (i : S10000x64.Idx) (q : dot_S10000x128_S128x64_S10000x64_1_0_0_1_n_n.contr.Idx) : (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem kdot0_l1 (i : S10000x64.Idx) (q : dot_S10000x128_S128x64_S10000x64_1_0_0_1_n_n.contr.Idx) : (dot_S10000x128_S128x64_S10000x64_1_0_0_1_n_n.lhsIdx i q 1).val = (q ⟨0, by decide⟩).val :=
  dot_S10000x128_S128x64_S10000x64_1_0_0_1_n_n.lhsIdx_val_of_single rfl i q
theorem kdot0_r0 (i : S10000x64.Idx) (q : dot_S10000x128_S128x64_S10000x64_1_0_0_1_n_n.contr.Idx) : (dot_S10000x128_S128x64_S10000x64_1_0_0_1_n_n.rhsIdx i q 0).val = (q ⟨0, by decide⟩).val :=
  dot_S10000x128_S128x64_S10000x64_1_0_0_1_n_n.rhsIdx_val_of_single rfl i q
theorem kdot0_r1 (i : S10000x64.Idx) (q : dot_S10000x128_S128x64_S10000x64_1_0_0_1_n_n.contr.Idx) : (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl
/-- The contraction of this product, spelt over the contracted axis `k < 128`: row `i 0` of the left factor against
    column `i 1` of the right one. -/
theorem kdot0_sum (l : S10000x128.Idx → EReal) (r : S128x64.Idx → EReal) (i : S10000x64.Idx) :
    (∑ q : dot_S10000x128_S128x64_S10000x64_1_0_0_1_n_n.contr.Idx, l (dot_S10000x128_S128x64_S10000x64_1_0_0_1_n_n.lhsIdx i q) * r (dot_S10000x128_S128x64_S10000x64_1_0_0_1_n_n.rhsIdx i q)) = ∑ k : Fin 128, l (kdot0_l i k) * r (kdot0_r i k) := by
  rw [← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx i ((ValueIdx.contrEquiv1 dot_S10000x128_S128x64_S10000x64_1_0_0_1_n_n 128 rfl rfl).symm k) = kdot0_l i k := funext fun a => Fin.ext (by
    match a with
    | ⟨0, _⟩ => exact kdot0_l0 _ _
    | ⟨1, _⟩ => exact (kdot0_l1 _ _).trans hk)
  have er : dot_S10000x128_S128x64_S10000x64_1_0_0_1_n_n.rhsIdx i ((ValueIdx.contrEquiv1 dot_S10000x128_S128x64_S10000x64_1_0_0_1_n_n 128 rfl rfl).symm k) = kdot0_r i k := funext fun a => Fin.ext (by
    match a with
    | ⟨0, _⟩ => exact (kdot0_r0 _ _).trans hk
    | ⟨1, _⟩ => exact kdot0_r1 _ _)
  rw [el, er]

/-- The bias entry an output index reads: its column. -/
abbrev biasAt (j : S10000x64.Idx) : S64.Idx := fun a => match a with
  | ⟨0, _⟩ => ⟨(j 1).val, (j 1).isLt⟩

/-- The bias, cast to a row `[1, 64]` and broadcast over the block's rows, read at an index: the bias at the column. -/
theorem bias_row_apply (x2 : Vec Ideal S64 .f32) (j : S10000x64.Idx) :
    broadcastTo S10000x64 (shapeCast S1x64 x2 shapeCasts_S64_S1x64) broadcasts_S1x64_S10000x64 j = x2 (biasAt j) := by
  rw [broadcastTo_apply (shapeCast S1x64 x2 shapeCasts_S64_S1x64) broadcasts_S1x64_S10000x64 j
    (fun a => match a with | ⟨0, _⟩ => ⟨0, Nat.one_pos⟩ | ⟨1, _⟩ => ⟨(j 1).val, (j 1).isLt⟩)
    (fun a => match a with
      | ⟨0, _⟩ => by show 0 = if (1 : Nat) = 1 then 0 else _; rw [if_pos rfl]
      | ⟨1, _⟩ => by show (j 1).val = if (64 : Nat) = 1 then 0 else (j 1).val; rw [if_neg (by decide)])]
  rw [shapeCast_addUnit_apply]
  exact congrArg x2 (funext fun a => match a with | ⟨0, _⟩ => rfl)

/-- The body's value at an index of a block: row `j 0` of the block of `x` against column `j 1` of `W`, plus the bias
    at the column (the roundings to bf16 are the identity, the accumulator is zero). -/
theorem embed_pay (x0 : Vec Ideal S10000x128 .f32) (x1 : Vec Ideal S128x64 .f32) (x2 : Vec Ideal S64 .f32) (j : S10000x64.Idx) :
    k0_pay1 x0 x1 x2 j = (∑ k : Fin 128, x0 (kdot0_l j k) * x1 (kdot0_r j k)) + x2 (biasAt j) := by
  unfold k0_pay1
  show (matmul (F := Ideal) dot_S10000x128_S128x64_S10000x64_1_0_0_1_n_n none (truncf .bf16 x0 bitsLt_bf16_f32) (truncf .bf16 x1 bitsLt_bf16_f32) (constant S10000x64 .f32 0x00000000#32) j : EReal)
      + (broadcastTo S10000x64 (shapeCast S1x64 x2 shapeCasts_S64_S1x64) broadcasts_S1x64_S10000x64 j : EReal) = _
  rw [bias_row_apply]
  refine congrArg (· + x2 (biasAt j)) ?_
  refine (Ideal.matmul_constant_zero_apply dot_S10000x128_S128x64_S10000x64_1_0_0_1_n_n none (truncf .bf16 x0 bitsLt_bf16_f32) (truncf .bf16 x1 bitsLt_bf16_f32) j).trans ?_
  exact kdot0_sum x0 x1 j

/-- The four windows at point `t`: the features and the output at row block `t`, the weights and the bias whole. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- What point `t` writes back is block `t` of the embedding of the three whole arrays. -/
theorem flushed0_eq (c : Dev nD) (t : Fin cfg0.N) :
    (dat0 V c).flushed 3 t = ((cfg0.win 3).blk t).view.read (Elt Ideal) (embedT (V c main_arg0) (V c main_arg2) (V c main_arg3)) := by
  show (cfg0.win 3).cut (grid0.coords t) ((dat0 V c).after 3 t) = _
  rw [after0_3]
  unfold out0_3
  rw [View.canon_unit_zero hz2]
  simp only [View.ld_unit_zero (S := S10000x128) hz2, View.ld_unit_zero (S := S128x64) hz2, View.ld_unit_zero (S := S64) hz1]
  obtain ⟨e0, e1, e2, e3, e4, e5, e6⟩ := idx_facts0 t
  funext j
  show k0_pay1 (iblk0 V c 0 t) (iblk0 V c 1 t) (iblk0 V c 2 t) j = embedT (V c main_arg0) (V c main_arg2) (V c main_arg3) (((cfg0.win 3).blk t).view.emb j)
  refine (embed_pay (iblk0 V c 0 t) (iblk0 V c 1 t) (iblk0 V c 2 t) j).trans ?_
  refine Eq.trans ?_ (embedT_apply (V c main_arg0) (V c main_arg2) (V c main_arg3) (((cfg0.win 3).blk t).view.emb j)).symm
  let A0 : S100000x128.Idx → EReal := V c main_arg0
  let A1 : S128x64.Idx → EReal := V c main_arg2
  let A2 : S64.Idx → EReal := V c main_arg3
  show (∑ k : Fin 128, A0 (((cfg0.win 0).blk t).view.emb (kdot0_l j k)) * A1 (((cfg0.win 1).blk t).view.emb (kdot0_r j k))) + A2 (((cfg0.win 2).blk t).view.emb (biasAt j))
    = (∑ k : Fin 128, A0 (edot_l (((cfg0.win 3).blk t).view.emb j) k) * A1 (edot_r (((cfg0.win 3).blk t).view.emb j) k)) + A2 (colAt (((cfg0.win 3).blk t).view.emb j))
  have hl : ∀ k : Fin 128, ((cfg0.win 0).blk t).view.emb (kdot0_l j k) = edot_l (((cfg0.win 3).blk t).view.emb j) k := fun k => by
    funext a; apply Fin.ext
    match a with
    | ⟨0, _⟩ => show win0_0.index t (0 : Fin 2) * 10000 + 1 * (j 0).val = win0_3.index t (0 : Fin 2) * 10000 + 1 * (j 0).val; omega
    | ⟨1, _⟩ => show win0_0.index t (1 : Fin 2) * 128 + 1 * k.val = k.val; omega
  have hr : ∀ k : Fin 128, ((cfg0.win 1).blk t).view.emb (kdot0_r j k) = edot_r (((cfg0.win 3).blk t).view.emb j) k := fun k => by
    funext a; apply Fin.ext
    match a with
    | ⟨0, _⟩ => show win0_1.index t (0 : Fin 2) * 128 + 1 * k.val = k.val; omega
    | ⟨1, _⟩ => show win0_1.index t (1 : Fin 2) * 64 + 1 * (j 1).val = win0_3.index t (1 : Fin 2) * 64 + 1 * (j 1).val; omega
  have hb : ((cfg0.win 2).blk t).view.emb (biasAt j) = colAt (((cfg0.win 3).blk t).view.emb j) := by
    funext a; apply Fin.ext
    match a with
    | ⟨0, _⟩ => show win0_2.index t (0 : Fin 1) * 64 + 1 * (j 1).val = win0_3.index t (1 : Fin 2) * 64 + 1 * (j 1).val; omega
  rw [hb]
  refine congrArg (· + _) (Finset.sum_congr rfl fun k _ => ?_)
  rw [hl k, hr k]

/-- An index of the array lies in point `t`'s block iff each coordinate lies in the block's range on its axis. -/
theorem mem_blk0 (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v0).slice (win0_3.rect t)).set ↔ _
  rw [View.set_slice_whole, Rect.mem_set_unit]
  exact Iff.rfl

/-- Row `r` is written by point `r / 10000`: the ten blocks tile the array. -/
theorem cover0 (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  have hN : grid0.N = 10 := N_0
  have ht : (i 0).val / 10000 < cfg0.N := by show _ < grid0.N; rw [hN]; omega
  obtain ⟨e0, e1, e2, e3, e4, e5, e6⟩ := idx_facts0 ⟨(i 0).val / 10000, ht⟩
  refine ⟨⟨(i 0).val / 10000, ht⟩, flush0_3 _, ?_⟩
  rw [mem_blk0]
  intro a
  match a with
  | ⟨0, _⟩ =>
    show win0_3.index ⟨(i 0).val / 10000, ht⟩ (0 : Fin 2) * 10000 ≤ (i 0).val ∧ (i 0).val < win0_3.index ⟨(i 0).val / 10000, ht⟩ (0 : Fin 2) * 10000 + 10000
    rw [e5]; show (i 0).val / 10000 * 10000 ≤ (i 0).val ∧ (i 0).val < (i 0).val / 10000 * 10000 + 10000; omega
  | ⟨1, _⟩ =>
    show win0_3.index ⟨(i 0).val / 10000, ht⟩ (1 : Fin 2) * 64 ≤ (i 1).val ∧ (i 1).val < win0_3.index ⟨(i 0).val / 10000, ht⟩ (1 : Fin 2) * 64 + 64
    rw [e6]; omega

/-- The output array after the region: the embedding of the three input arrays as the region found them. -/
theorem final0 (c : Dev nD) : (dat0 V c).arrAt 3 cfg0.N = embedT (V c main_arg0) (V c main_arg2) (V c main_arg3) :=
  (dat0 V c).arrAt_eq_of_cover 3 _ (fun t _ => flushed0_eq V c t) cover0

end Cert.KernelIdeal.Blocks

end
-- ==== Proof.ReadoutBlocks.lean ====
/-
  The last pallas_call — the fourth diffusion step fused with the read-out, `tanh (h - 0.1 · a) · W + b` — read as
  ONE function of whole arrays, over the extended reals. At row block `t` the body loads the blocks of `h` and of the
  sparse product `a`, all of `W` and all of `b`; it steps, takes the hyperbolic tangent, rounds both factors to bf16
  (the identity on extended reals), multiplies on the matrix unit into a zero accumulator and adds the bias along
  the rows. Entry `(r, c)` of the stored block is the sum over `k` of `tanh (h - 0.1 · a) (10000 t + r, k) · W (k, c)`
  plus `b c`: entry `(10000 t + r, c)` of the whole-array read-out `readoutT h a W b`, the kernel's `tanh` and the
  host's being one function on the extended reals. The ten blocks tile the output.
-/
import proofs.«135370_j4475355922586_2_alg».proof.Proof.Gen.KernelIdeal.Frame
import proofs.«135370_j4475355922586_2_alg».proof.Proof.Terms
import Idealize.ShloMosaic.Lib.Pipeline.Value
import Idealize.ShloMosaic.Lib.ValueIdx
import Idealize.ShloMosaic.PureOps.Ideal.Laws
import proofs.«135370_j4475355922586_2_alg».proof.Proof.TermsAt
import proofs.«135370_j4475355922586_2_alg».proof.Proof.EmbedBlocks
set_option maxRecDepth 16384

noncomputable section

namespace Cert.KernelIdeal.Blocks

open Idealize.ShloMosaic Idealize.ShloMosaic.TcCoe Idealize.SL.Sem
open Idealize.ShloMosaic.Pipeline (Dat Cfg Window)
open Cert.KernelIdeal Cert.KernelIdeal.Gen
open Cert.Diffusion

variable (V : (c : Dev nD) → (b : Ref sig .tc) → Buf (Elt Ideal) ((c : Thread nD τ).loc b))

/-- The entries the read-out's block product reads for entry `i` of the block. -/
abbrev kdot4_l (i : S10000x64.Idx) (k : Fin 64) : S10000x64.Idx := fun a => match a with
  | ⟨0, _⟩ => ⟨(i 0).val, (i 0).isLt⟩
  | ⟨1, _⟩ => ⟨k.val, k.isLt⟩
abbrev kdot4_r (i : S10000x64.Idx) (k : Fin 64) : S64x64.Idx := fun a => match a with
  | ⟨0, _⟩ => ⟨k.val, k.isLt⟩
  | ⟨1, _⟩ => ⟨(i 1).val, (i 1).isLt⟩
theorem kdot4_l0 (i : S10000x64.Idx) (q : dot_S10000x64_S64x64_S10000x64_1_0_0_1_n_n.contr.Idx) : (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem kdot4_l1 (i : S10000x64.Idx) (q : dot_S10000x64_S64x64_S10000x64_1_0_0_1_n_n.contr.Idx) : (dot_S10000x64_S64x64_S10000x64_1_0_0_1_n_n.lhsIdx i q 1).val = (q ⟨0, by decide⟩).val :=
  dot_S10000x64_S64x64_S10000x64_1_0_0_1_n_n.lhsIdx_val_of_single rfl i q
theorem kdot4_r0 (i : S10000x64.Idx) (q : dot_S10000x64_S64x64_S10000x64_1_0_0_1_n_n.contr.Idx) : (dot_S10000x64_S64x64_S10000x64_1_0_0_1_n_n.rhsIdx i q 0).val = (q ⟨0, by decide⟩).val :=
  dot_S10000x64_S64x64_S10000x64_1_0_0_1_n_n.rhsIdx_val_of_single rfl i q
theorem kdot4_r1 (i : S10000x64.Idx) (q : dot_S10000x64_S64x64_S10000x64_1_0_0_1_n_n.contr.Idx) : (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl
/-- The contraction of this product, spelt over the contracted axis `k < 64`: row `i 0` of the left factor against
    column `i 1` of the right one. -/
theorem kdot4_sum (l : S10000x64.Idx → EReal) (r : S64x64.Idx → EReal) (i : S10000x64.Idx) :
    (∑ q : dot_S10000x64_S64x64_S10000x64_1_0_0_1_n_n.contr.Idx, l (dot_S10000x64_S64x64_S10000x64_1_0_0_1_n_n.lhsIdx i q) * r (dot_S10000x64_S64x64_S10000x64_1_0_0_1_n_n.rhsIdx i q)) = ∑ k : Fin 64, l (kdot4_l i k) * r (kdot4_r i k) := by
  rw [← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx i ((ValueIdx.contrEquiv1 dot_S10000x64_S64x64_S10000x64_1_0_0_1_n_n 64 rfl rfl).symm k) = kdot4_l i k := funext fun a => Fin.ext (by
    match a with
    | ⟨0, _⟩ => exact kdot4_l0 _ _
    | ⟨1, _⟩ => exact (kdot4_l1 _ _).trans hk)
  have er : dot_S10000x64_S64x64_S10000x64_1_0_0_1_n_n.rhsIdx i ((ValueIdx.contrEquiv1 dot_S10000x64_S64x64_S10000x64_1_0_0_1_n_n 64 rfl rfl).symm k) = kdot4_r i k := funext fun a => Fin.ext (by
    match a with
    | ⟨0, _⟩ => exact (kdot4_r0 _ _).trans hk
    | ⟨1, _⟩ => exact kdot4_r1 _ _)
  rw [el, er]

/-- The body's value at an index of a block: the hyperbolic tangent of the stepped row `j 0` against column `j 1` of
    `W`, plus the bias at the column. -/
theorem readout_pay (x0 x1 : Vec Ideal S10000x64 .f32) (x2 : Vec Ideal S64x64 .f32) (x3 : Vec Ideal S64 .f32) (j : S10000x64.Idx) :
    k4_pay1 x0 x1 x2 x3 j = (∑ k : Fin 64, Ideal.tanh (x0 (kdot4_l j k) - Ideal.ofBits .f32 0x3DCCCCCD#32 * x1 (kdot4_l j k)) * x2 (kdot4_r j k)) + x3 (biasAt j) := by
  unfold k4_pay1
  simp only [shapeCast_self]
  show (matmul (F := Ideal) dot_S10000x64_S64x64_S10000x64_1_0_0_1_n_n none
        (truncf .bf16 (tanh (subf x0 (mulf (broadcast S10000x64 (Scalar.ofBits .f32 0x3DCCCCCD#32)) x1))) bitsLt_bf16_f32)
        (truncf .bf16 x2 bitsLt_bf16_f32) (constant S10000x64 .f32 0x00000000#32) j : EReal)
      + (broadcastTo S10000x64 (shapeCast S1x64 x3 shapeCasts_S64_S1x64) broadcasts_S1x64_S10000x64 j : EReal) = _
  rw [bias_row_apply]
  refine congrArg (· + x3 (biasAt j)) ?_
  refine (Ideal.matmul_constant_zero_apply dot_S10000x64_S64x64_S10000x64_1_0_0_1_n_n none
    (truncf .bf16 (tanh (subf x0 (mulf (broadcast S10000x64 (Scalar.ofBits .f32 0x3DCCCCCD#32)) x1))) bitsLt_bf16_f32)
    (truncf .bf16 x2 bitsLt_bf16_f32) j).trans ?_
  exact kdot4_sum (fun y => Ideal.tanh (x0 y - Ideal.ofBits .f32 0x3DCCCCCD#32 * x1 y)) x2 j

/-- The five windows at point `t`: the features, the sparse product and the output at row block `t`, the weights and
    the bias whole. -/
theorem idx_facts4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 1) = 0
    ∧ win4_4.index t (0 : Fin 2) = t.val ∧ win4_4.index t (1 : Fin 2) = 0 :=
  (by decide +kernel : ∀ t : Fin grid4.N, _)

/-- What point `t` writes back is block `t` of the read-out of the four whole arrays. -/
theorem flushed4_eq (c : Dev nD) (t : Fin cfg4.N) :
    (dat4 V c).flushed 4 t = ((cfg4.win 4).blk t).view.read (Elt Ideal) (readoutT (V c main_v77) (V c main_v90) (V c main_arg4) (V c main_arg5)) := by
  show (cfg4.win 4).cut (grid4.coords t) ((dat4 V c).after 4 t) = _
  rw [after4_4]
  unfold out4_4
  rw [View.canon_unit_zero hz2]
  simp only [View.ld_unit_zero (S := S10000x64) hz2, View.ld_unit_zero (S := S64x64) hz2, View.ld_unit_zero (S := S64) hz1]
  obtain ⟨e0, e1, e2, e3, e4, e5, e6, e7, e8⟩ := idx_facts4 t
  funext j
  show k4_pay1 (iblk4 V c 0 t) (iblk4 V c 1 t) (iblk4 V c 2 t) (iblk4 V c 3 t) j = readoutT (V c main_v77) (V c main_v90) (V c main_arg4) (V c main_arg5) (((cfg4.win 4).blk t).view.emb j)
  refine (readout_pay (iblk4 V c 0 t) (iblk4 V c 1 t) (iblk4 V c 2 t) (iblk4 V c 3 t) j).trans ?_
  refine Eq.trans ?_ (readoutT_apply (V c main_v77) (V c main_v90) (V c main_arg4) (V c main_arg5) (((cfg4.win 4).blk t).view.emb j)).symm
  let A0 : S100000x64.Idx → EReal := V c main_v77
  let A1 : S100000x64.Idx → EReal := V c main_v90
  let A2 : S64x64.Idx → EReal := V c main_arg4
  let A3 : S64.Idx → EReal := V c main_arg5
  show (∑ k : Fin 64, Ideal.tanh (A0 (((cfg4.win 0).blk t).view.emb (kdot4_l j k)) - Ideal.ofBits .f32 0x3DCCCCCD#32 * A1 (((cfg4.win 1).blk t).view.emb (kdot4_l j k))) * A2 (((cfg4.win 2).blk t).view.emb (kdot4_r j k)))
      + A3 (((cfg4.win 3).blk t).view.emb (biasAt j))
    = (∑ k : Fin 64, Ideal.tanh (A0 (rdot_l (((cfg4.win 4).blk t).view.emb j) k) - Ideal.ofBits .f32 0x3DCCCCCD#32 * A1 (rdot_l (((cfg4.win 4).blk t).view.emb j) k)) * A2 (rdot_r (((cfg4.win 4).blk t).view.emb j) k))
      + A3 (colAt (((cfg4.win 4).blk t).view.emb j))
  have hl0 : ∀ k : Fin 64, ((cfg4.win 0).blk t).view.emb (kdot4_l j k) = rdot_l (((cfg4.win 4).blk t).view.emb j) k := fun k => by
    funext a; apply Fin.ext
    match a with
    | ⟨0, _⟩ => show win4_0.index t (0 : Fin 2) * 10000 + 1 * (j 0).val = win4_4.index t (0 : Fin 2) * 10000 + 1 * (j 0).val; omega
    | ⟨1, _⟩ => show win4_0.index t (1 : Fin 2) * 64 + 1 * k.val = k.val; omega
  have hl1 : ∀ k : Fin 64, ((cfg4.win 1).blk t).view.emb (kdot4_l j k) = rdot_l (((cfg4.win 4).blk t).view.emb j) k := fun k => by
    funext a; apply Fin.ext
    match a with
    | ⟨0, _⟩ => show win4_1.index t (0 : Fin 2) * 10000 + 1 * (j 0).val = win4_4.index t (0 : Fin 2) * 10000 + 1 * (j 0).val; omega
    | ⟨1, _⟩ => show win4_1.index t (1 : Fin 2) * 64 + 1 * k.val = k.val; omega
  have hr : ∀ k : Fin 64, ((cfg4.win 2).blk t).view.emb (kdot4_r j k) = rdot_r (((cfg4.win 4).blk t).view.emb j) k := fun k => by
    funext a; apply Fin.ext
    match a with
    | ⟨0, _⟩ => show win4_2.index t (0 : Fin 2) * 64 + 1 * k.val = k.val; omega
    | ⟨1, _⟩ => show win4_2.index t (1 : Fin 2) * 64 + 1 * (j 1).val = win4_4.index t (1 : Fin 2) * 64 + 1 * (j 1).val; omega
  have hb : ((cfg4.win 3).blk t).view.emb (biasAt j) = colAt (((cfg4.win 4).blk t).view.emb j) := by
    funext a; apply Fin.ext
    match a with
    | ⟨0, _⟩ => show win4_3.index t (0 : Fin 1) * 64 + 1 * (j 1).val = win4_4.index t (1 : Fin 2) * 64 + 1 * (j 1).val; omega
  rw [hb]
  refine congrArg (· + _) (Finset.sum_congr rfl fun k _ => ?_)
  rw [hl0 k, hl1 k, hr k]

/-- An index of the array lies in point `t`'s block iff each coordinate lies in the block's range on its axis. -/
theorem mem_blk4 (t : Fin cfg4.N) (i : S100000x64.Idx) :
    i ∈ ((cfg4.win 4).blk t).view.set ↔ ∀ a : Fin 2, win4_4.index t a * S10000x64.size a ≤ (i a).val ∧ (i a).val < win4_4.index t a * S10000x64.size a + S10000x64.size a := by
  show i ∈ ((View.whole main_v91).slice (win4_4.rect t)).set ↔ _
  rw [View.set_slice_whole, Rect.mem_set_unit]
  exact Iff.rfl

/-- Row `r` is written by point `r / 10000`: the ten blocks tile the array. -/
theorem cover4 (i : S100000x64.Idx) : ∃ t : Fin cfg4.N, (cfg4.win 4).flush t = true ∧ i ∈ ((cfg4.win 4).blk t).view.set := by
  have hi0 : (i 0).val < 100000 := (i 0).isLt
  have hi1 : (i 1).val < 64 := (i 1).isLt
  have hN : grid4.N = 10 := N_4
  have ht : (i 0).val / 10000 < cfg4.N := by show _ < grid4.N; rw [hN]; omega
  obtain ⟨e0, e1, e2, e3, e4, e5, e6, e7, e8⟩ := idx_facts4 ⟨(i 0).val / 10000, ht⟩
  refine ⟨⟨(i 0).val / 10000, ht⟩, flush4_4 _, ?_⟩
  rw [mem_blk4]
  intro a
  match a with
  | ⟨0, _⟩ =>
    show win4_4.index ⟨(i 0).val / 10000, ht⟩ (0 : Fin 2) * 10000 ≤ (i 0).val ∧ (i 0).val < win4_4.index ⟨(i 0).val / 10000, ht⟩ (0 : Fin 2) * 10000 + 10000
    rw [e7]; show (i 0).val / 10000 * 10000 ≤ (i 0).val ∧ (i 0).val < (i 0).val / 10000 * 10000 + 10000; omega
  | ⟨1, _⟩ =>
    show win4_4.index ⟨(i 0).val / 10000, ht⟩ (1 : Fin 2) * 64 ≤ (i 1).val ∧ (i 1).val < win4_4.index ⟨(i 0).val / 10000, ht⟩ (1 : Fin 2) * 64 + 64
    rw [e8]; omega

/-- The output array after the region: the read-out of the four input arrays as the region found them. -/
theorem final4 (c : Dev nD) : (dat4 V c).arrAt 4 cfg4.N = readoutT (V c main_v77) (V c main_v90) (V c main_arg4) (V c main_arg5) :=
  (dat4 V c).arrAt_eq_of_cover 4 _ (fun t _ => flushed4_eq V c t) cover4

end Cert.KernelIdeal.Blocks

end
-- ==== Proof.KernelHost.lean ====
/-
  The kernel program's host lines, read back. Between its five pallas_calls the kernel runs the same host
  operations as the reference: the edge lists, the weights and the degree normalisation once, and a sparse product
  before each of the four later calls. Each line is read here from ANY buffer contents `W` as one of the pure
  functions of `Terms.lean` of the buffers it reads, beside the buffers it leaves alone.
-/
import proofs.«135370_j4475355922586_2_alg».proof.Proof.Gen.KernelIdeal.Launch
import proofs.«135370_j4475355922586_2_alg».proof.Proof.Terms
import proofs.«135370_j4475355922586_2_alg».proof.Proof.Lines
import Idealize.ShloMosaic.Lib.StableHlo.Run

noncomputable section

namespace Cert.KernelIdeal.HostLines

open Cert.KernelIdeal Cert.KernelIdeal.Gen Idealize.ShloMosaic Idealize.ShloMosaic.TcCoe Idealize.SL.Sem Idealize.ShloMosaic.StableHlo
open Cert.Diffusion Cert.Lines

variable {F : FTy → Type} [FloatOps F]

/-- The first twenty operations of the line before the second call: the normalisation of every edge. -/
abbrev normLine : List (HloOp τ sig (Elt F)) :=
  [ StableHlo.nullary main_c (constantI S_ 32 0#32),
    StableHlo.unary main_c main_v20 (broadcastInDim S1700000 ![] bcast_S_S1700000 : (⟨S_, .i32⟩ : BufTy).Contents (Elt F) → (⟨S1700000, .i32⟩ : BufTy).Contents (Elt F)),
    StableHlo.binary main_v4 main_v20 main_v21 (cmpi .slt : (⟨S1700000, .i32⟩ : BufTy).Contents (Elt F) → (⟨S1700000, .i32⟩ : BufTy).Contents (Elt F) → (⟨S1700000, .i1⟩ : BufTy).Contents (Elt F)),
    StableHlo.nullary main_c_5 (constantI S_ 32 100000#32),
    StableHlo.unary main_c_5 main_v22 (broadcastInDim S1700000 ![] bcast_S_S1700000 : (⟨S_, .i32⟩ : BufTy).Contents (Elt F) → (⟨S1700000, .i32⟩ : BufTy).Contents (Elt F)),
    StableHlo.binary main_v4 main_v22 main_v23 (addi : (⟨S1700000, .i32⟩ : BufTy).Contents (Elt F) → (⟨S1700000, .i32⟩ : BufTy).Contents (Elt F) → (⟨S1700000, .i32⟩ : BufTy).Contents (Elt F)),
    StableHlo.ternary main_v21 main_v23 main_v4 main_v24 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v24 main_v25 (broadcastInDim S1700000x1 ![0] bcast_S1700000_S1700000x1_0 : (⟨S1700000, .i32⟩ : BufTy).Contents (Elt F) → (⟨S1700000x1, .i32⟩ : BufTy).Contents (Elt F)),
    StableHlo.binary main_v19 main_v25 main_v26 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v26 main_v10 main_v27 (mulf : (⟨S1700000, .f32⟩ : BufTy).Contents (Elt F) → (⟨S1700000, .f32⟩ : BufTy).Contents (Elt F) → (⟨S1700000, .f32⟩ : BufTy).Contents (Elt F)),
    StableHlo.nullary main_c_6 (constantI S_ 32 0#32),
    StableHlo.unary main_c_6 main_v28 (broadcastInDim S1700000 ![] bcast_S_S1700000 : (⟨S_, .i32⟩ : BufTy).Contents (Elt F) → (⟨S1700000, .i32⟩ : BufTy).Contents (Elt F)),
    StableHlo.binary main_v7 main_v28 main_v29 (cmpi .slt : (⟨S1700000, .i32⟩ : BufTy).Contents (Elt F) → (⟨S1700000, .i32⟩ : BufTy).Contents (Elt F) → (⟨S1700000, .i1⟩ : BufTy).Contents (Elt F)),
    StableHlo.nullary main_c_7 (constantI S_ 32 100000#32),
    StableHlo.unary main_c_7 main_v30 (broadcastInDim S1700000 ![] bcast_S_S1700000 : (⟨S_, .i32⟩ : BufTy).Contents (Elt F) → (⟨S1700000, .i32⟩ : BufTy).Contents (Elt F)),
    StableHlo.binary main_v7 main_v30 main_v31 (addi : (⟨S1700000, .i32⟩ : BufTy).Contents (Elt F) → (⟨S1700000, .i32⟩ : BufTy).Contents (Elt F) → (⟨S1700000, .i32⟩ : BufTy).Contents (Elt F)),
    StableHlo.ternary main_v29 main_v31 main_v7 main_v32 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v32 main_v33 (broadcastInDim S1700000x1 ![0] bcast_S1700000_S1700000x1_0 : (⟨S1700000, .i32⟩ : BufTy).Contents (Elt F) → (⟨S1700000x1, .i32⟩ : BufTy).Contents (Elt F)),
    StableHlo.binary main_v19 main_v33 main_v34 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v27 main_v34 main_v35 (mulf : (⟨S1700000, .f32⟩ : BufTy).Contents (Elt F) → (⟨S1700000, .f32⟩ : BufTy).Contents (Elt F) → (⟨S1700000, .f32⟩ : BufTy).Contents (Elt F)) ]

/-- Its last sixteen: the first sparse product. -/
abbrev aggLine : List (HloOp τ sig (Elt F)) :=
  [ StableHlo.nullary main_c_8 (constantI S_ 32 0#32),
    StableHlo.unary main_c_8 main_v36 (broadcastInDim S1700000 ![] bcast_S_S1700000 : (⟨S_, .i32⟩ : BufTy).Contents (Elt F) → (⟨S1700000, .i32⟩ : BufTy).Contents (Elt F)),
    StableHlo.binary main_v4 main_v36 main_v37 (cmpi .slt : (⟨S1700000, .i32⟩ : BufTy).Contents (Elt F) → (⟨S1700000, .i32⟩ : BufTy).Contents (Elt F) → (⟨S1700000, .i1⟩ : BufTy).Contents (Elt F)),
    StableHlo.nullary main_c_9 (constantI S_ 32 100000#32),
    StableHlo.unary main_c_9 main_v38 (broadcastInDim S1700000 ![] bcast_S_S1700000 : (⟨S_, .i32⟩ : BufTy).Contents (Elt F) → (⟨S1700000, .i32⟩ : BufTy).Contents (Elt F)),
    StableHlo.binary main_v4 main_v38 main_v39 (addi : (⟨S1700000, .i32⟩ : BufTy).Contents (Elt F) → (⟨S1700000, .i32⟩ : BufTy).Contents (Elt F) → (⟨S1700000, .i32⟩ : BufTy).Contents (Elt F)),
    StableHlo.ternary main_v37 main_v39 main_v4 main_v40 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v40 main_v41 (broadcastInDim S1700000x1 ![0] bcast_S1700000_S1700000x1_0 : (⟨S1700000, .i32⟩ : BufTy).Contents (Elt F) → (⟨S1700000x1, .i32⟩ : BufTy).Contents (Elt F)),
    StableHlo.binary main_v0 main_v41 main_v42 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    StableHlo.unary main_v35 main_v43 (broadcastInDim S1700000x1 ![0] bcast_S1700000_S1700000x1_0 : (⟨S1700000, .f32⟩ : BufTy).Contents (Elt F) → (⟨S1700000x1, .f32⟩ : BufTy).Contents (Elt F)),
    StableHlo.unary main_v43 main_v44 (broadcastInDim S1700000x64 ![0, 1] bcast_S1700000x1_S1700000x64_0_1 : (⟨S1700000x1, .f32⟩ : BufTy).Contents (Elt F) → (⟨S1700000x64, .f32⟩ : BufTy).Contents (Elt F)),
    StableHlo.binary main_v44 main_v42 main_v45 (mulf : (⟨S1700000x64, .f32⟩ : BufTy).Contents (Elt F) → (⟨S1700000x64, .f32⟩ : BufTy).Contents (Elt F) → (⟨S1700000x64, .f32⟩ : BufTy).Contents (Elt F)),
    StableHlo.nullary main_cst_10 (constant S_ .f32 0x00000000#32),
    StableHlo.unary main_cst_10 main_v46 (broadcastInDim S100000x64 ![] bcast_S_S100000x64 : (⟨S_, .f32⟩ : BufTy).Contents (Elt F) → (⟨S100000x64, .f32⟩ : BufTy).Contents (Elt F)),
    StableHlo.unary main_v7 main_v47 (broadcastInDim S1700000x1 ![0] bcast_S1700000_S1700000x1_0 : (⟨S1700000, .i32⟩ : BufTy).Contents (Elt F) → (⟨S1700000x1, .i32⟩ : BufTy).Contents (Elt F)),
    StableHlo.ternary main_v46 main_v47 main_v45 main_v48 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)) ]

theorem hostOps1_2_split : (hostOps1_2 : List (HloOp τ sig (Elt F))) = normLine ++ aggLine := rfl

variable (W : Valuation τ sig (Elt F))

/-! ## The first line and the inlined `where`: edge lists, weights, inverse square root of the degree -/

set_option maxHeartbeats 8000000 in
/-- The source list. -/
theorem src_val : after hostOps1_1 (after hostOps1 W) (Proc.devRef .tc main_v4) = srcT (W (Proc.devRef .tc main_arg1)) := by
  after_results; rfl
set_option maxHeartbeats 8000000 in
/-- The target list. -/
theorem dst_val : after hostOps1_1 (after hostOps1 W) (Proc.devRef .tc main_v7) = dstT (W (Proc.devRef .tc main_arg1)) := by
  after_results; rfl
set_option maxHeartbeats 8000000 in
/-- The weights. -/
theorem w_val : after hostOps1_1 (after hostOps1 W) (Proc.devRef .tc main_v10) = wT := by
  after_results; rfl
set_option maxHeartbeats 8000000 in
/-- The inverse square root of the weighted in-degree. -/
theorem dinv_val : after hostOps1_1 (after hostOps1 W) (Proc.devRef .tc main_v19) = dinvT (dstT (W (Proc.devRef .tc main_arg1))) wT := by
  after_results; rfl
theorem keepA_v0 : after hostOps1_1 (after hostOps1 W) (Proc.devRef .tc main_v0) = W (Proc.devRef .tc main_v0) :=
  (by line_keeps [hostOps1_1] : after hostOps1_1 (after hostOps1 W) (Proc.devRef .tc main_v0) = after hostOps1 W (Proc.devRef .tc main_v0)).trans (by line_keeps [hostOps1])
theorem keepA_arg4 : after hostOps1_1 (after hostOps1 W) (Proc.devRef .tc main_arg4) = W (Proc.devRef .tc main_arg4) :=
  (by line_keeps [hostOps1_1] : after hostOps1_1 (after hostOps1 W) (Proc.devRef .tc main_arg4) = after hostOps1 W (Proc.devRef .tc main_arg4)).trans (by line_keeps [hostOps1])
theorem keepA_arg5 : after hostOps1_1 (after hostOps1 W) (Proc.devRef .tc main_arg5) = W (Proc.devRef .tc main_arg5) :=
  (by line_keeps [hostOps1_1] : after hostOps1_1 (after hostOps1 W) (Proc.devRef .tc main_arg5) = after hostOps1 W (Proc.devRef .tc main_arg5)).trans (by line_keeps [hostOps1])

/-! ## The normalisation -/

set_option maxHeartbeats 8000000 in
/-- Every edge's normalisation. -/
theorem norm_val : after normLine W (Proc.devRef .tc main_v35) = normT (W (Proc.devRef .tc main_v19)) (W (Proc.devRef .tc main_v4)) (W (Proc.devRef .tc main_v7)) (W (Proc.devRef .tc main_v10)) := by
  after_results; rfl
theorem keepN_v0 : after normLine W (Proc.devRef .tc main_v0) = W (Proc.devRef .tc main_v0) := by line_keeps [normLine]
theorem keepN_v4 : after normLine W (Proc.devRef .tc main_v4) = W (Proc.devRef .tc main_v4) := by line_keeps [normLine]
theorem keepN_v7 : after normLine W (Proc.devRef .tc main_v7) = W (Proc.devRef .tc main_v7) := by line_keeps [normLine]
theorem keepN_arg4 : after normLine W (Proc.devRef .tc main_arg4) = W (Proc.devRef .tc main_arg4) := by line_keeps [normLine]
theorem keepN_arg5 : after normLine W (Proc.devRef .tc main_arg5) = W (Proc.devRef .tc main_arg5) := by line_keeps [normLine]

/-! ## The four sparse products -/

set_option maxHeartbeats 8000000 in
/-- The first sparse product. -/
theorem agg1_val : after aggLine W (Proc.devRef .tc main_v48) = aggT (W (Proc.devRef .tc main_v0)) (W (Proc.devRef .tc main_v4)) (W (Proc.devRef .tc main_v7)) (W (Proc.devRef .tc main_v35)) := by
  after_results; rfl
theorem keep1_v0 : after aggLine W (Proc.devRef .tc main_v0) = W (Proc.devRef .tc main_v0) := by line_keeps [aggLine]
theorem keep1_v4 : after aggLine W (Proc.devRef .tc main_v4) = W (Proc.devRef .tc main_v4) := by line_keeps [aggLine]
theorem keep1_v7 : after aggLine W (Proc.devRef .tc main_v7) = W (Proc.devRef .tc main_v7) := by line_keeps [aggLine]
theorem keep1_v35 : after aggLine W (Proc.devRef .tc main_v35) = W (Proc.devRef .tc main_v35) := by line_keeps [aggLine]
theorem keep1_arg4 : after aggLine W (Proc.devRef .tc main_arg4) = W (Proc.devRef .tc main_arg4) := by line_keeps [aggLine]
theorem keep1_arg5 : after aggLine W (Proc.devRef .tc main_arg5) = W (Proc.devRef .tc main_arg5) := by line_keeps [aggLine]
set_option maxHeartbeats 8000000 in
/-- The second sparse product. -/
theorem agg2_val : after hostOps2 W (Proc.devRef .tc main_v62) = aggT (W (Proc.devRef .tc main_v49)) (W (Proc.devRef .tc main_v4)) (W (Proc.devRef .tc main_v7)) (W (Proc.devRef .tc main_v35)) := by
  after_results; rfl
theorem keep2_v49 : after hostOps2 W (Proc.devRef .tc main_v49) = W (Proc.devRef .tc main_v49) := by line_keeps [hostOps2]
theorem keep2_v4 : after hostOps2 W (Proc.devRef .tc main_v4) = W (Proc.devRef .tc main_v4) := by line_keeps [hostOps2]
theorem keep2_v7 : after hostOps2 W (Proc.devRef .tc main_v7) = W (Proc.devRef .tc main_v7) := by line_keeps [hostOps2]
theorem keep2_v35 : after hostOps2 W (Proc.devRef .tc main_v35) = W (Proc.devRef .tc main_v35) := by line_keeps [hostOps2]
theorem keep2_arg4 : after hostOps2 W (Proc.devRef .tc main_arg4) = W (Proc.devRef .tc main_arg4) := by line_keeps [hostOps2]
theorem keep2_arg5 : after hostOps2 W (Proc.devRef .tc main_arg5) = W (Proc.devRef .tc main_arg5) := by line_keeps [hostOps2]
set_option maxHeartbeats 8000000 in
/-- The third sparse product. -/
theorem agg3_val : after hostOps3 W (Proc.devRef .tc main_v76) = aggT (W (Proc.devRef .tc main_v63)) (W (Proc.devRef .tc main_v4)) (W (Proc.devRef .tc main_v7)) (W (Proc.devRef .tc main_v35)) := by
  after_results; rfl
theorem keep3_v63 : after hostOps3 W (Proc.devRef .tc main_v63) = W (Proc.devRef .tc main_v63) := by line_keeps [hostOps3]
theorem keep3_v4 : after hostOps3 W (Proc.devRef .tc main_v4) = W (Proc.devRef .tc main_v4) := by line_keeps [hostOps3]
theorem keep3_v7 : after hostOps3 W (Proc.devRef .tc main_v7) = W (Proc.devRef .tc main_v7) := by line_keeps [hostOps3]
theorem keep3_v35 : after hostOps3 W (Proc.devRef .tc main_v35) = W (Proc.devRef .tc main_v35) := by line_keeps [hostOps3]
theorem keep3_arg4 : after hostOps3 W (Proc.devRef .tc main_arg4) = W (Proc.devRef .tc main_arg4) := by line_keeps [hostOps3]
theorem keep3_arg5 : after hostOps3 W (Proc.devRef .tc main_arg5) = W (Proc.devRef .tc main_arg5) := by line_keeps [hostOps3]
set_option maxHeartbeats 8000000 in
/-- The fourth sparse product. -/
theorem agg4_val : after hostOps4 W (Proc.devRef .tc main_v90) = aggT (W (Proc.devRef .tc main_v77)) (W (Proc.devRef .tc main_v4)) (W (Proc.devRef .tc main_v7)) (W (Proc.devRef .tc main_v35)) := by
  after_results; rfl
theorem keep4_v77 : after hostOps4 W (Proc.devRef .tc main_v77) = W (Proc.devRef .tc main_v77) := by line_keeps [hostOps4]
theorem keep4_v4 : after hostOps4 W (Proc.devRef .tc main_v4) = W (Proc.devRef .tc main_v4) := by line_keeps [hostOps4]
theorem keep4_v7 : after hostOps4 W (Proc.devRef .tc main_v7) = W (Proc.devRef .tc main_v7) := by line_keeps [hostOps4]
theorem keep4_v35 : after hostOps4 W (Proc.devRef .tc main_v35) = W (Proc.devRef .tc main_v35) := by line_keeps [hostOps4]
theorem keep4_arg4 : after hostOps4 W (Proc.devRef .tc main_arg4) = W (Proc.devRef .tc main_arg4) := by line_keeps [hostOps4]
theorem keep4_arg5 : after hostOps4 W (Proc.devRef .tc main_arg5) = W (Proc.devRef .tc main_arg5) := by line_keeps [hostOps4]

end Cert.KernelIdeal.HostLines

end
-- ==== Proof.KernelValue.lean ====
/-
  The kernel program's result as the network of its arguments. @main is eleven segments: five pallas_calls among
  six host lines, and the generated frame names the buffer contents at every boundary (`W0` … `W11`). Walking the
  boundaries in order: the first call leaves the embedding; the host lines leave the edge lists, the weights, the
  normalisation and, before each later call, the sparse product of the current features; calls two to four each
  leave one diffusion step; the last call leaves the read-out of the fourth. What a call does not write it leaves
  alone, and so does a host line. The final contents of the result buffer are `networkT` of the launch contents of
  the six arguments — the same term the reference computes.
-/
import proofs.«135370_j4475355922586_2_alg».proof.Proof.Gen.KernelIdeal.Frame
import proofs.«135370_j4475355922586_2_alg».proof.Proof.Feats
import proofs.«135370_j4475355922586_2_alg».proof.Proof.StepBlocks
import proofs.«135370_j4475355922586_2_alg».proof.Proof.EmbedBlocks
import proofs.«135370_j4475355922586_2_alg».proof.Proof.ReadoutBlocks
import proofs.«135370_j4475355922586_2_alg».proof.Proof.KernelHost

set_option maxRecDepth 16384

noncomputable section

namespace Cert.KernelIdeal.Whole

open Idealize.ShloMosaic Idealize.ShloMosaic.TcCoe Idealize.SL.Sem Idealize.ShloMosaic.StableHlo
open Cert.KernelIdeal Cert.KernelIdeal.Gen Cert.KernelIdeal.Blocks Cert.KernelIdeal.HostLines
open Cert.Diffusion Cert.Lines

variable (m : (ℓ : Loc nD τ sig) → Buf (Elt Ideal) ℓ) (ρ : Dev nD → PrngReg) (c : Dev nD)

/-! ## After the first call (`W1`) -/

theorem w1_v0 : W1 m ρ c (Proc.devRef .tc main_v0) = (embedT (m ((c : Thread nD τ).loc main_arg0)) (m ((c : Thread nD τ).loc main_arg2)) (m ((c : Thread nD τ).loc main_arg3))) :=
  (W1_arr m ρ c 3).trans (final0 (V0 m ρ) c)
theorem w1_arg1 : W1 m ρ c (Proc.devRef .tc main_arg1) = (m ((c : Thread nD τ).loc main_arg1)) := W1_of_ne m ρ c main_arg1 (by decide)
theorem w1_arg4 : W1 m ρ c (Proc.devRef .tc main_arg4) = (m ((c : Thread nD τ).loc main_arg4)) := W1_of_ne m ρ c main_arg4 (by decide)
theorem w1_arg5 : W1 m ρ c (Proc.devRef .tc main_arg5) = (m ((c : Thread nD τ).loc main_arg5)) := W1_of_ne m ρ c main_arg5 (by decide)

/-! ## After the first two host lines (`W3`): edge lists, weights, inverse square root of the degree -/

theorem w3_v4 : W3 m ρ c (Proc.devRef .tc main_v4) = srcT (m ((c : Thread nD τ).loc main_arg1)) := (src_val (W1 m ρ c)).trans (congrArg srcT (w1_arg1 m ρ c))
theorem w3_v7 : W3 m ρ c (Proc.devRef .tc main_v7) = dstT (m ((c : Thread nD τ).loc main_arg1)) := (dst_val (W1 m ρ c)).trans (congrArg dstT (w1_arg1 m ρ c))
theorem w3_v10 : W3 m ρ c (Proc.devRef .tc main_v10) = wT := w_val (W1 m ρ c)
theorem w3_v19 : W3 m ρ c (Proc.devRef .tc main_v19) = dinvT (dstT (m ((c : Thread nD τ).loc main_arg1))) wT :=
  (dinv_val (W1 m ρ c)).trans (congrArg (fun e => dinvT (dstT e) wT) (w1_arg1 m ρ c))
theorem w3_v0 : W3 m ρ c (Proc.devRef .tc main_v0) = (embedT (m ((c : Thread nD τ).loc main_arg0)) (m ((c : Thread nD τ).loc main_arg2)) (m ((c : Thread nD τ).loc main_arg3))) := (keepA_v0 (W1 m ρ c)).trans (w1_v0 m ρ c)
theorem w3_arg4 : W3 m ρ c (Proc.devRef .tc main_arg4) = (m ((c : Thread nD τ).loc main_arg4)) := (keepA_arg4 (W1 m ρ c)).trans (w1_arg4 m ρ c)
theorem w3_arg5 : W3 m ρ c (Proc.devRef .tc main_arg5) = (m ((c : Thread nD τ).loc main_arg5)) := (keepA_arg5 (W1 m ρ c)).trans (w1_arg5 m ρ c)

/-! ## After the third host line (`W4`): the normalisation, then the first sparse product -/

/-- The third line is its two halves, run in order. -/
theorem w4_split : W4 m ρ c = after aggLine (after normLine (W3 m ρ c)) := by
  show after hostOps1_2 (W3 m ρ c) = _
  rw [hostOps1_2_split, StableHlo.after_append]

theorem wn_v35 : after normLine (W3 m ρ c) (Proc.devRef .tc main_v35) = normE (m ((c : Thread nD τ).loc main_arg1)) := by
  rw [norm_val, w3_v19, w3_v4, w3_v7, w3_v10]; rfl
theorem wn_v0 : after normLine (W3 m ρ c) (Proc.devRef .tc main_v0) = (embedT (m ((c : Thread nD τ).loc main_arg0)) (m ((c : Thread nD τ).loc main_arg2)) (m ((c : Thread nD τ).loc main_arg3))) := (keepN_v0 _).trans (w3_v0 m ρ c)
theorem wn_v4 : after normLine (W3 m ρ c) (Proc.devRef .tc main_v4) = srcT (m ((c : Thread nD τ).loc main_arg1)) := (keepN_v4 _).trans (w3_v4 m ρ c)
theorem wn_v7 : after normLine (W3 m ρ c) (Proc.devRef .tc main_v7) = dstT (m ((c : Thread nD τ).loc main_arg1)) := (keepN_v7 _).trans (w3_v7 m ρ c)
theorem wn_arg4 : after normLine (W3 m ρ c) (Proc.devRef .tc main_arg4) = (m ((c : Thread nD τ).loc main_arg4)) := (keepN_arg4 _).trans (w3_arg4 m ρ c)
theorem wn_arg5 : after normLine (W3 m ρ c) (Proc.devRef .tc main_arg5) = (m ((c : Thread nD τ).loc main_arg5)) := (keepN_arg5 _).trans (w3_arg5 m ρ c)

theorem w4_v48 : W4 m ρ c (Proc.devRef .tc main_v48) = sparse (embedT (m ((c : Thread nD τ).loc main_arg0)) (m ((c : Thread nD τ).loc main_arg2)) (m ((c : Thread nD τ).loc main_arg3))) (m ((c : Thread nD τ).loc main_arg1)) := by
  rw [w4_split, agg1_val, wn_v0, wn_v4, wn_v7, wn_v35]; rfl
theorem w4_v0 : W4 m ρ c (Proc.devRef .tc main_v0) = (embedT (m ((c : Thread nD τ).loc main_arg0)) (m ((c : Thread nD τ).loc main_arg2)) (m ((c : Thread nD τ).loc main_arg3))) := by rw [w4_split, keep1_v0, wn_v0]
theorem w4_v4 : W4 m ρ c (Proc.devRef .tc main_v4) = srcT (m ((c : Thread nD τ).loc main_arg1)) := by rw [w4_split, keep1_v4, wn_v4]
theorem w4_v7 : W4 m ρ c (Proc.devRef .tc main_v7) = dstT (m ((c : Thread nD τ).loc main_arg1)) := by rw [w4_split, keep1_v7, wn_v7]
theorem w4_v35 : W4 m ρ c (Proc.devRef .tc main_v35) = normE (m ((c : Thread nD τ).loc main_arg1)) := by rw [w4_split, keep1_v35, wn_v35]
theorem w4_arg4 : W4 m ρ c (Proc.devRef .tc main_arg4) = (m ((c : Thread nD τ).loc main_arg4)) := by rw [w4_split, keep1_arg4, wn_arg4]
theorem w4_arg5 : W4 m ρ c (Proc.devRef .tc main_arg5) = (m ((c : Thread nD τ).loc main_arg5)) := by rw [w4_split, keep1_arg5, wn_arg5]

/-! ## After call 2 (`W5`): diffusion step 1; after the next host line (`W6`): sparse product 2 -/

theorem w5_v49 : W5 m ρ c (Proc.devRef .tc main_v49) = (diffuse (embedT (m ((c : Thread nD τ).loc main_arg0)) (m ((c : Thread nD τ).loc main_arg2)) (m ((c : Thread nD τ).loc main_arg3))) (m ((c : Thread nD τ).loc main_arg1))) :=
  (W5_arr m ρ c 2).trans ((final1 (V4 m ρ) c).trans (congrArg₂ stepT (w4_v0 m ρ c) (w4_v48 m ρ c)))
theorem w5_v4 : W5 m ρ c (Proc.devRef .tc main_v4) = srcT (m ((c : Thread nD τ).loc main_arg1)) := (W5_of_ne m ρ c main_v4 (by decide)).trans (w4_v4 m ρ c)
theorem w5_v7 : W5 m ρ c (Proc.devRef .tc main_v7) = dstT (m ((c : Thread nD τ).loc main_arg1)) := (W5_of_ne m ρ c main_v7 (by decide)).trans (w4_v7 m ρ c)
theorem w5_v35 : W5 m ρ c (Proc.devRef .tc main_v35) = normE (m ((c : Thread nD τ).loc main_arg1)) := (W5_of_ne m ρ c main_v35 (by decide)).trans (w4_v35 m ρ c)
theorem w5_arg4 : W5 m ρ c (Proc.devRef .tc main_arg4) = (m ((c : Thread nD τ).loc main_arg4)) := (W5_of_ne m ρ c main_arg4 (by decide)).trans (w4_arg4 m ρ c)
theorem w5_arg5 : W5 m ρ c (Proc.devRef .tc main_arg5) = (m ((c : Thread nD τ).loc main_arg5)) := (W5_of_ne m ρ c main_arg5 (by decide)).trans (w4_arg5 m ρ c)

theorem w6_v62 : W6 m ρ c (Proc.devRef .tc main_v62) = sparse (diffuse (embedT (m ((c : Thread nD τ).loc main_arg0)) (m ((c : Thread nD τ).loc main_arg2)) (m ((c : Thread nD τ).loc main_arg3))) (m ((c : Thread nD τ).loc main_arg1))) (m ((c : Thread nD τ).loc main_arg1)) := by
  show after hostOps2 (W5 m ρ c) _ = _
  rw [agg2_val, w5_v49, w5_v4, w5_v7, w5_v35]; rfl
theorem w6_v49 : W6 m ρ c (Proc.devRef .tc main_v49) = (diffuse (embedT (m ((c : Thread nD τ).loc main_arg0)) (m ((c : Thread nD τ).loc main_arg2)) (m ((c : Thread nD τ).loc main_arg3))) (m ((c : Thread nD τ).loc main_arg1))) := (keep2_v49 (W5 m ρ c)).trans (w5_v49 m ρ c)
theorem w6_v4 : W6 m ρ c (Proc.devRef .tc main_v4) = srcT (m ((c : Thread nD τ).loc main_arg1)) := (keep2_v4 (W5 m ρ c)).trans (w5_v4 m ρ c)
theorem w6_v7 : W6 m ρ c (Proc.devRef .tc main_v7) = dstT (m ((c : Thread nD τ).loc main_arg1)) := (keep2_v7 (W5 m ρ c)).trans (w5_v7 m ρ c)
theorem w6_v35 : W6 m ρ c (Proc.devRef .tc main_v35) = normE (m ((c : Thread nD τ).loc main_arg1)) := (keep2_v35 (W5 m ρ c)).trans (w5_v35 m ρ c)
theorem w6_arg4 : W6 m ρ c (Proc.devRef .tc main_arg4) = (m ((c : Thread nD τ).loc main_arg4)) := (keep2_arg4 (W5 m ρ c)).trans (w5_arg4 m ρ c)
theorem w6_arg5 : W6 m ρ c (Proc.devRef .tc main_arg5) = (m ((c : Thread nD τ).loc main_arg5)) := (keep2_arg5 (W5 m ρ c)).trans (w5_arg5 m ρ c)

/-! ## After call 3 (`W7`): diffusion step 2; after the next host line (`W8`): sparse product 3 -/

theorem w7_v63 : W7 m ρ c (Proc.devRef .tc main_v63) = (diffuse (diffuse (embedT (m ((c : Thread nD τ).loc main_arg0)) (m ((c : Thread nD τ).loc main_arg2)) (m ((c : Thread nD τ).loc main_arg3))) (m ((c : Thread nD τ).loc main_arg1))) (m ((c : Thread nD τ).loc main_arg1))) :=
  (W7_arr m ρ c 2).trans ((final2 (V6 m ρ) c).trans (congrArg₂ stepT (w6_v49 m ρ c) (w6_v62 m ρ c)))
theorem w7_v4 : W7 m ρ c (Proc.devRef .tc main_v4) = srcT (m ((c : Thread nD τ).loc main_arg1)) := (W7_of_ne m ρ c main_v4 (by decide)).trans (w6_v4 m ρ c)
theorem w7_v7 : W7 m ρ c (Proc.devRef .tc main_v7) = dstT (m ((c : Thread nD τ).loc main_arg1)) := (W7_of_ne m ρ c main_v7 (by decide)).trans (w6_v7 m ρ c)
theorem w7_v35 : W7 m ρ c (Proc.devRef .tc main_v35) = normE (m ((c : Thread nD τ).loc main_arg1)) := (W7_of_ne m ρ c main_v35 (by decide)).trans (w6_v35 m ρ c)
theorem w7_arg4 : W7 m ρ c (Proc.devRef .tc main_arg4) = (m ((c : Thread nD τ).loc main_arg4)) := (W7_of_ne m ρ c main_arg4 (by decide)).trans (w6_arg4 m ρ c)
theorem w7_arg5 : W7 m ρ c (Proc.devRef .tc main_arg5) = (m ((c : Thread nD τ).loc main_arg5)) := (W7_of_ne m ρ c main_arg5 (by decide)).trans (w6_arg5 m ρ c)

theorem w8_v76 : W8 m ρ c (Proc.devRef .tc main_v76) = sparse (diffuse (diffuse (embedT (m ((c : Thread nD τ).loc main_arg0)) (m ((c : Thread nD τ).loc main_arg2)) (m ((c : Thread nD τ).loc main_arg3))) (m ((c : Thread nD τ).loc main_arg1))) (m ((c : Thread nD τ).loc main_arg1))) (m ((c : Thread nD τ).loc main_arg1)) := by
  show after hostOps3 (W7 m ρ c) _ = _
  rw [agg3_val, w7_v63, w7_v4, w7_v7, w7_v35]; rfl
theorem w8_v63 : W8 m ρ c (Proc.devRef .tc main_v63) = (diffuse (diffuse (embedT (m ((c : Thread nD τ).loc main_arg0)) (m ((c : Thread nD τ).loc main_arg2)) (m ((c : Thread nD τ).loc main_arg3))) (m ((c : Thread nD τ).loc main_arg1))) (m ((c : Thread nD τ).loc main_arg1))) := (keep3_v63 (W7 m ρ c)).trans (w7_v63 m ρ c)
theorem w8_v4 : W8 m ρ c (Proc.devRef .tc main_v4) = srcT (m ((c : Thread nD τ).loc main_arg1)) := (keep3_v4 (W7 m ρ c)).trans (w7_v4 m ρ c)
theorem w8_v7 : W8 m ρ c (Proc.devRef .tc main_v7) = dstT (m ((c : Thread nD τ).loc main_arg1)) := (keep3_v7 (W7 m ρ c)).trans (w7_v7 m ρ c)
theorem w8_v35 : W8 m ρ c (Proc.devRef .tc main_v35) = normE (m ((c : Thread nD τ).loc main_arg1)) := (keep3_v35 (W7 m ρ c)).trans (w7_v35 m ρ c)
theorem w8_arg4 : W8 m ρ c (Proc.devRef .tc main_arg4) = (m ((c : Thread nD τ).loc main_arg4)) := (keep3_arg4 (W7 m ρ c)).trans (w7_arg4 m ρ c)
theorem w8_arg5 : W8 m ρ c (Proc.devRef .tc main_arg5) = (m ((c : Thread nD τ).loc main_arg5)) := (keep3_arg5 (W7 m ρ c)).trans (w7_arg5 m ρ c)

/-! ## After call 4 (`W9`): diffusion step 3; after the next host line (`W10`): sparse product 4 -/

theorem w9_v77 : W9 m ρ c (Proc.devRef .tc main_v77) = (diffuse (diffuse (diffuse (embedT (m ((c : Thread nD τ).loc main_arg0)) (m ((c : Thread nD τ).loc main_arg2)) (m ((c : Thread nD τ).loc main_arg3))) (m ((c : Thread nD τ).loc main_arg1))) (m ((c : Thread nD τ).loc main_arg1))) (m ((c : Thread nD τ).loc main_arg1))) :=
  (W9_arr m ρ c 2).trans ((final3 (V8 m ρ) c).trans (congrArg₂ stepT (w8_v63 m ρ c) (w8_v76 m ρ c)))
theorem w9_v4 : W9 m ρ c (Proc.devRef .tc main_v4) = srcT (m ((c : Thread nD τ).loc main_arg1)) := (W9_of_ne m ρ c main_v4 (by decide)).trans (w8_v4 m ρ c)
theorem w9_v7 : W9 m ρ c (Proc.devRef .tc main_v7) = dstT (m ((c : Thread nD τ).loc main_arg1)) := (W9_of_ne m ρ c main_v7 (by decide)).trans (w8_v7 m ρ c)
theorem w9_v35 : W9 m ρ c (Proc.devRef .tc main_v35) = normE (m ((c : Thread nD τ).loc main_arg1)) := (W9_of_ne m ρ c main_v35 (by decide)).trans (w8_v35 m ρ c)
theorem w9_arg4 : W9 m ρ c (Proc.devRef .tc main_arg4) = (m ((c : Thread nD τ).loc main_arg4)) := (W9_of_ne m ρ c main_arg4 (by decide)).trans (w8_arg4 m ρ c)
theorem w9_arg5 : W9 m ρ c (Proc.devRef .tc main_arg5) = (m ((c : Thread nD τ).loc main_arg5)) := (W9_of_ne m ρ c main_arg5 (by decide)).trans (w8_arg5 m ρ c)

theorem w10_v90 : W10 m ρ c (Proc.devRef .tc main_v90) = sparse (diffuse (diffuse (diffuse (embedT (m ((c : Thread nD τ).loc main_arg0)) (m ((c : Thread nD τ).loc main_arg2)) (m ((c : Thread nD τ).loc main_arg3))) (m ((c : Thread nD τ).loc main_arg1))) (m ((c : Thread nD τ).loc main_arg1))) (m ((c : Thread nD τ).loc main_arg1))) (m ((c : Thread nD τ).loc main_arg1)) := by
  show after hostOps4 (W9 m ρ c) _ = _
  rw [agg4_val, w9_v77, w9_v4, w9_v7, w9_v35]; rfl
theorem w10_v77 : W10 m ρ c (Proc.devRef .tc main_v77) = (diffuse (diffuse (diffuse (embedT (m ((c : Thread nD τ).loc main_arg0)) (m ((c : Thread nD τ).loc main_arg2)) (m ((c : Thread nD τ).loc main_arg3))) (m ((c : Thread nD τ).loc main_arg1))) (m ((c : Thread nD τ).loc main_arg1))) (m ((c : Thread nD τ).loc main_arg1))) := (keep4_v77 (W9 m ρ c)).trans (w9_v77 m ρ c)
theorem w10_v4 : W10 m ρ c (Proc.devRef .tc main_v4) = srcT (m ((c : Thread nD τ).loc main_arg1)) := (keep4_v4 (W9 m ρ c)).trans (w9_v4 m ρ c)
theorem w10_v7 : W10 m ρ c (Proc.devRef .tc main_v7) = dstT (m ((c : Thread nD τ).loc main_arg1)) := (keep4_v7 (W9 m ρ c)).trans (w9_v7 m ρ c)
theorem w10_v35 : W10 m ρ c (Proc.devRef .tc main_v35) = normE (m ((c : Thread nD τ).loc main_arg1)) := (keep4_v35 (W9 m ρ c)).trans (w9_v35 m ρ c)
theorem w10_arg4 : W10 m ρ c (Proc.devRef .tc main_arg4) = (m ((c : Thread nD τ).loc main_arg4)) := (keep4_arg4 (W9 m ρ c)).trans (w9_arg4 m ρ c)
theorem w10_arg5 : W10 m ρ c (Proc.devRef .tc main_arg5) = (m ((c : Thread nD τ).loc main_arg5)) := (keep4_arg5 (W9 m ρ c)).trans (w9_arg5 m ρ c)

/-! ## After the last call (`W11`): the read-out -/

/-- The result buffer's final contents: the network of the launch contents of the six arguments. -/
theorem w11_v91 : W11 m ρ c (Proc.devRef .tc main_v91) = networkT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W11_arr m ρ c 4).trans ((final4 (V10 m ρ) c).trans ?_)
  show readoutT (W10 m ρ c (Proc.devRef .tc main_v77)) (W10 m ρ c (Proc.devRef .tc main_v90)) (W10 m ρ c (Proc.devRef .tc main_arg4)) (W10 m ρ c (Proc.devRef .tc main_arg5)) = _
  rw [w10_v77, w10_v90, w10_arg4, w10_arg5, networkT_eq]

end Cert.KernelIdeal.Whole

end
-- ==== Proof.KernelRun.lean ====
/-
  The kernel program's run with its result named. The generated frame launches @main's eleven segments and reads
  the final state against the last boundary's contents `W11`, keeping only the argument buffers; read at the result
  buffer as well, the same launch says that every weakly fair execution ends with the result at `networkT` of the
  launch contents of the arguments (`Whole.w11_v91`).
-/
import proofs.«135370_j4475355922586_2_alg».proof.Proof.KernelValue

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Cert.Diffusion

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every weakly fair execution of the idealized kernel terminates, faultless, with its result at `networkT` of the
    launch contents of its arguments, and the arguments as launched. -/
theorem run : θ_run defs (onTc (τ := τ) (main (F := Ideal))) ⟨m, fun _ => 0, ρ⟩ (fun r => ∀ c : Dev nD,
      r.2.mem ((c.tc : Thread nD τ).loc main_v91) = networkT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨(h c _ (mem_uc main_v91 (by decide))).trans (w11_v91 m ρ c),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c)⟩)

end Cert.KernelIdeal.Whole

end
-- ==== Proof.lean ====
/-
  A diffusion network on a graph of 100000 nodes and 1.6 million edges: embed the node features (`x · W + b`), add a
  self loop of weight two to every node and normalise each edge by the inverse square roots of its end points'
  weighted in-degrees, replace the features four times by `h - 0.1 · A h` (`A` the normalised adjacency, applied as
  a gather along the edges followed by a scatter-add), and read out `tanh (h) · W' + b'`.

  The kernel keeps the sparse products on the host, exactly as the reference computes them, and runs the dense
  stages as five pallas_calls over ten blocks of 10000 rows: the embedding (a bf16 matrix product with f32
  accumulation), three diffusion steps, and the fourth step fused with the read-out. Over the extended reals a
  rounding to bf16 is the identity and a block matrix product against a zero accumulator is the plain contraction,
  so each call, read over whole arrays, is the reference's own stage (`Proof/EmbedBlocks.lean`, `StepBlocks.lean`,
  `ReadoutBlocks.lean`); the host lines between the calls are the reference's lines (`Proof/KernelHost.lean`); and
  both programs end with their result at one and the same term `networkT` of the six arguments
  (`Proof/KernelValue.lean`, `KernelRun.lean` for the kernel; `Proof/RefRun.lean` for the reference). No law of
  arithmetic is used beyond that: the two sides apply the same operations in the same order to the same numbers, so
  the precondition (finite inputs) is never opened.

  The idealization rewrote nothing, so `preserves` is trivial; the two kernel frames are the generated ones, and the
  reference's frame is its run with the result dropped.
-/
import proofs.«135370_j4475355922586_2_alg».proof.Defs
import proofs.«135370_j4475355922586_2_alg».proof.Proof.Gen.Kernel
import proofs.«135370_j4475355922586_2_alg».proof.Proof.Gen.Kernel.Skeleton
import proofs.«135370_j4475355922586_2_alg».proof.Proof.Gen.Kernel.Launch
import proofs.«135370_j4475355922586_2_alg».proof.Proof.Gen.Kernel.Points
import proofs.«135370_j4475355922586_2_alg».proof.Proof.Gen.Kernel.Frame
import proofs.«135370_j4475355922586_2_alg».proof.Proof.Gen.KernelIdeal
import proofs.«135370_j4475355922586_2_alg».proof.Proof.Gen.KernelIdeal.Skeleton
import proofs.«135370_j4475355922586_2_alg».proof.Proof.Gen.KernelIdeal.Launch
import proofs.«135370_j4475355922586_2_alg».proof.Proof.Gen.KernelIdeal.Points
import proofs.«135370_j4475355922586_2_alg».proof.Proof.Gen.KernelIdeal.Frame
import proofs.«135370_j4475355922586_2_alg».proof.Proof.Gen.ReferenceIdeal
import proofs.«135370_j4475355922586_2_alg».proof.Proof.Gen.Pre_finite_inputs
import proofs.«135370_j4475355922586_2_alg».proof.Proof.RefRun
import proofs.«135370_j4475355922586_2_alg».proof.Proof.KernelRun
import Idealize.ShloMosaic.Adequacy
import Idealize.ShloMosaic.Init

noncomputable section

namespace Cert.Proof

open Idealize.ShloMosaic Idealize.SL.Sem

/-- The kernel as printed runs to its end and leaves its arguments alone: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run, the result forgotten. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The ideal pass rewrote no operation. -/
theorem preserves : Cert.preserves_Kernel_KernelIdeal := trivial

/-- From memories that agree on the six arguments both programs end with their result at `networkT` of those
    arguments: the kernel by reading its five calls over whole arrays, the reference by reading its line. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
